-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S2x160000 : Shape := ⟨2, ![2, 160000]⟩
abbrev S160000x1 : Shape := ⟨2, ![160000, 1]⟩
abbrev S2x1433x16 : Shape := ⟨3, ![2, 1433, 16]⟩
abbrev S1433x16 : Shape := ⟨2, ![1433, 16]⟩
abbrev S16 : Shape := ⟨1, ![16]⟩
abbrev S2x16x7 : Shape := ⟨3, ![2, 16, 7]⟩
abbrev S16x7 : Shape := ⟨2, ![16, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S160000x1 : S_.BroadcastsInDim S160000x1 (![] : Fin 0 → Fin S160000x1.rank)
  reducesTo_S160000x1_S_d0_1 : S160000x1.ReducesTo [0, 1] S_
  bcast_S_S2x1433x16 : S_.BroadcastsInDim S2x1433x16 (![] : Fin 0 → Fin S2x1433x16.rank)
  reducesTo_S2x1433x16_S_d0_1_2 : S2x1433x16.ReducesTo [0, 1, 2] S_
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S2x16x7 : S_.BroadcastsInDim S2x16x7 (![] : Fin 0 → Fin S2x16x7.rank)
  reducesTo_S2x16x7_S_d0_1_2 : S2x16x7.ReducesTo [0, 1, 2] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S7 .f32) (main_v33 : IVec S_ 1) : IVec S_ 1 :=
  let main_v34 : FVec F S7 .f32 := Host.absf main_arg8
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg5 : FVec F S16 .f32) (main_arg6 : FVec F S2x16x7 .f32) (main_arg7 : FVec F S16x7 .f32) (main_arg8 : FVec F S7 .f32) (main_v13 : IVec S_ 1) (main_v16 : IVec S1433x16 1) : IVec S_ 1 :=
  let main_c_5 : IVec S_ 1 := constantI S_ 1 1#1
  let main_v17 : IVec S_ 1 := (fun x v => Host.reduce IntOp.andi x v reducesTo_S1433x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S2x16x7 .f32 := Host.absf main_arg6
  let main_cst_8 : FVec F S_ .f32 := constant S_ .f32 0x7F800000#32
  let main_v25 : FVec F S2x16x7 .f32 := broadcastInDim S2x16x7 ![] bcast_S_S2x16x7 main_cst_8
  let main_v26 : IVec S2x16x7 1 := cmpf .olt main_v24 main_v25
  let main_c_9 : IVec S_ 1 := constantI S_ 1 1#1
  let main_v27 : IVec S_ 1 := (fun x v => Host.reduce IntOp.andi x v reducesTo_S2x16x7_S_d0_1_2 h_S_) main_v26 main_c_9
  let main_v28 : IVec S_ 1 := andi main_v23 main_v27
  let main_v29 : FVec F S16x7 .f32 := Host.absf main_arg7
  let main_cst_10 : FVec F S_ .f32 := constant S_ .f32 0x7F800000#32
  let main_v30 : FVec F S16x7 .f32 := broadcastInDim S16x7 ![] bcast_S_S16x7 main_cst_10
  let main_v31 : IVec S16x7 1 := cmpf .olt main_v29 main_v30
  let main_c_11 : IVec S_ 1 := constantI S_ 1 1#1
  let main_v32 : IVec S_ 1 := (fun x v => Host.reduce IntOp.andi x v reducesTo_S16x7_S_d0_1 h_S_) main_v31 main_c_11
  let main_v33 : IVec S_ 1 := andi main_v28 main_v32
  fn_part2 (F := F) main_arg8 main_v33

def fn {F : FTy → Type} [FloatOps F] (main_arg0 : FVec F S10000x1433 .f32) (main_arg1 : IVec S2x160000 32) (main_arg2 : FVec F S160000x1 .f32) (main_arg3 : FVec F S2x1433x16 .f32) (main_arg4 : FVec F S1433x16 .f32) (main_arg5 : FVec F S16 .f32) (main_arg6 : FVec F S2x16x7 .f32) (main_arg7 : FVec F S16x7 .f32) (main_arg8 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S160000x1 .f32 := Host.absf main_arg2
  let main_cst_0 : FVec F S_ .f32 := constant S_ .f32 0x7F800000#32
  let main_v5 : FVec F S160000x1 .f32 := broadcastInDim S160000x1 ![] bcast_S_S160000x1 main_cst_0
  let main_v6 : IVec S160000x1 1 := cmpf .olt main_v4 main_v5
  let main_c_1 : IVec S_ 1 := constantI S_ 1 1#1
  let main_v7 : IVec S_ 1 := (fun x v => Host.reduce IntOp.andi x v reducesTo_S160000x1_S_d0_1 h_S_) main_v6 main_c_1
  let main_v8 : IVec S_ 1 := andi main_v3 main_v7
  let main_v9 : FVec F S2x1433x16 .f32 := Host.absf main_arg3
  let main_cst_2 : FVec F S_ .f32 := constant S_ .f32 0x7F800000#32
  let main_v10 : FVec F S2x1433x16 .f32 := broadcastInDim S2x1433x16 ![] bcast_S_S2x1433x16 main_cst_2
  let main_v11 : IVec S2x1433x16 1 := cmpf .olt main_v9 main_v10
  let main_c_3 : IVec S_ 1 := constantI S_ 1 1#1
  let main_v12 : IVec S_ 1 := (fun x v => Host.reduce IntOp.andi x v reducesTo_S2x1433x16_S_d0_1_2 h_S_) main_v11 main_c_3
  let main_v13 : IVec S_ 1 := andi main_v8 main_v12
  let main_v14 : FVec F S1433x16 .f32 := Host.absf main_arg4
  let main_cst_4 : FVec F S_ .f32 := constant S_ .f32 0x7F800000#32
  let main_v15 : FVec F S1433x16 .f32 := broadcastInDim S1433x16 ![] bcast_S_S1433x16 main_cst_4
  let main_v16 : IVec S1433x16 1 := cmpf .olt main_v14 main_v15
  fn_part1 (F := F) main_arg5 main_arg6 main_arg7 main_arg8 main_v13 main_v16
-- ==== Kernel.lean ====
abbrev S10000x1433 : Shape := ⟨2, ![10000, 1433]⟩
abbrev S2x160000 : Shape := ⟨2, ![2, 160000]⟩
abbrev S160000x1 : Shape := ⟨2, ![160000, 1]⟩
abbrev S2x1433x16 : Shape := ⟨3, ![2, 1433, 16]⟩
abbrev S1433x16 : Shape := ⟨2, ![1433, 16]⟩
abbrev S16 : Shape := ⟨1, ![16]⟩
abbrev S2x16x7 : Shape := ⟨3, ![2, 16, 7]⟩
abbrev S16x7 : Shape := ⟨2, ![16, 7]⟩
abbrev S7 : Shape := ⟨1, ![7]⟩
abbrev S1x160000 : Shape := ⟨2, ![1, 160000]⟩
abbrev S160000 : Shape := ⟨1, ![160000]⟩
abbrev S_ : Shape := ⟨0, ![]⟩
abbrev S10000 : Shape := ⟨1, ![10000]⟩
abbrev S10000x1 : Shape := ⟨2, ![10000, 1]⟩
abbrev S1x1433x16 : Shape := ⟨3, ![1, 1433, 16]⟩
abbrev S1433x48 : Shape := ⟨2, ![1433, 48]⟩
abbrev S10000x48 : Shape := ⟨2, ![10000, 48]⟩
abbrev S2000x1433 : Shape := ⟨2, ![2000, 1433]⟩
abbrev S2000x48 : Shape := ⟨2, ![2000, 48]⟩
abbrev S10000x16 : Shape := ⟨2, ![10000, 16]⟩
abbrev S160000x16 : Shape := ⟨2, ![160000, 16]⟩
abbrev S1x16 : Shape := ⟨2, ![1, 16]⟩
abbrev S1x16x7 : Shape := ⟨3, ![1, 16, 7]⟩
abbrev S16x21 : Shape := ⟨2, ![16, 21]⟩
abbrev S10000x21 : Shape := ⟨2, ![10000, 21]⟩
abbrev S10000x7 : Shape := ⟨2, ![10000, 7]⟩
abbrev S160000x7 : Shape := ⟨2, ![160000, 7]⟩
abbrev S1x7 : Shape := ⟨2, ![1, 7]⟩

abbrev nBuf : Space → Nat
  | .hbm => 143
  | .vmem => 8
  | .smem => 0
  | _ => 0

abbrev hbmTy0_0 (i : Nat) : BufTy := match i % 128 with
  | 0 => ⟨S10000x1433, .f32⟩
  | 1 => ⟨S2x160000, .i32⟩
  | 2 => ⟨S160000x1, .f32⟩
  | 3 => ⟨S2x1433x16, .f32⟩
  | 4 => ⟨S1433x16, .f32⟩
  | 5 => ⟨S16, .f32⟩
  | 6 => ⟨S2x16x7, .f32⟩
  | 7 => ⟨S16x7, .f32⟩
  | 8 => ⟨S7, .f32⟩
  | 9 => ⟨S1x160000, .i32⟩
  | 10 => ⟨S160000, .i32⟩
  | 11 => ⟨S1x160000, .i32⟩
  | 12 => ⟨S160000, .i32⟩
  | 13 => ⟨S_, .f32⟩
  | 14 => ⟨S160000, .f32⟩
  | 15 => ⟨S_, .f32⟩
  | 16 => ⟨S10000, .f32⟩
  | 17 => ⟨S160000x1, .i32⟩
  | 18 => ⟨S10000, .f32⟩
  | 19 => ⟨S_, .f32⟩
  | 20 => ⟨S10000, .f32⟩
  | 21 => ⟨S10000, .f32⟩
  | 22 => ⟨S10000x1, .f32⟩
  | 23 => ⟨S1x1433x16, .f32⟩
  | 24 => ⟨S1433x16, .f32⟩
  | 25 => ⟨S1x1433x16, .f32⟩
  | 26 => ⟨S1433x16, .f32⟩
  | 27 => ⟨S1433x48, .f32⟩
  | 28 => ⟨S10000x48, .f32⟩
  | 29 => ⟨S10000x16, .f32⟩
  | 30 => ⟨S10000x16, .f32⟩
  | 31 => ⟨S10000x16, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x16, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S160000x16, .f32⟩
  | 50 => ⟨S_, .f32⟩
  | 51 => ⟨S160000x1, .f32⟩
  | 52 => ⟨S160000x1, .f32⟩
  | 53 => ⟨S160000x16, .f32⟩
  | 54 => ⟨S160000x16, .f32⟩
  | 55 => ⟨S160000x16, .f32⟩
  | 56 => ⟨S160000x16, .f32⟩
  | 57 => ⟨S160000x16, .f32⟩
  | 58 => ⟨S_, .f32⟩
  | 59 => ⟨S10000x16, .f32⟩
  | 60 => ⟨S160000x1, .i32⟩
  | 61 => ⟨S10000x16, .f32⟩
  | 62 => ⟨S10000x16, .f32⟩
  | 63 => ⟨S10000x16, .f32⟩
  | 64 => ⟨S10000x16, .f32⟩
  | 65 => ⟨S1x16, .f32⟩
  | 66 => ⟨S10000x16, .f32⟩
  | 67 => ⟨S10000x16, .f32⟩
  | 68 => ⟨S_, .f32⟩
  | 69 => ⟨S10000x16, .f32⟩
  | 70 => ⟨S10000x16, .i1⟩
  | 71 => ⟨S_, .f32⟩
  | 72 => ⟨S10000x16, .f32⟩
  | 73 => ⟨S10000x16, .i1⟩
  | 74 => ⟨S_, .f32⟩
  | 75 => ⟨S_, .f32⟩
  | 76 => ⟨S10000x16, .f32⟩
  | 77 => ⟨S10000x16, .f32⟩
  | 78 => ⟨S10000x16, .f32⟩
  | 79 => ⟨S_, .f32⟩
  | 80 => ⟨S10000x16, .f32⟩
  | 81 => ⟨S10000x16, .f32⟩
  | 82 => ⟨S10000x16, .f32⟩
  | 83 => ⟨S1x16x7, .f32⟩
  | 84 => ⟨S16x7, .f32⟩
  | 85 => ⟨S1x16x7, .f32⟩
  | 86 => ⟨S16x7, .f32⟩
  | 87 => ⟨S16x21, .f32⟩
  | 88 => ⟨S10000x21, .f32⟩
  | 89 => ⟨S10000x7, .f32⟩
  | 90 => ⟨S10000x7, .f32⟩
  | 91 => ⟨S10000x7, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x7, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x7, .f32⟩
  | 110 => ⟨S_, .f32⟩
  | 111 => ⟨S160000x1, .f32⟩
  | 112 => ⟨S160000x1, .f32⟩
  | 113 => ⟨S160000x7, .f32⟩
  | 114 => ⟨S160000x7, .f32⟩
  | 115 => ⟨S160000x7, .f32⟩
  | 116 => ⟨S160000x7, .f32⟩
  | 117 => ⟨S160000x7, .f32⟩
  | 118 => ⟨S_, .f32⟩
  | 119 => ⟨S10000x7, .f32⟩
  | 120 => ⟨S160000x1, .i32⟩
  | 121 => ⟨S10000x7, .f32⟩
  | 122 => ⟨S10000x7, .f32⟩
  | 123 => ⟨S10000x7, .f32⟩
  | 124 => ⟨S10000x7, .f32⟩
  | 125 => ⟨S1x7, .f32⟩
  | 126 => ⟨S10000x7, .f32⟩
  | 127 => ⟨S10000x7, .f32⟩
  | _ => ⟨S10000x1433, .f32⟩

abbrev hbmTy0_1 (i : Nat) : BufTy := match i % 128 with
  | 0 => ⟨S_, .f32⟩
  | 1 => ⟨S10000, .f32⟩
  | 2 => ⟨S_, .f32⟩
  | 3 => ⟨S10000, .f32⟩
  | 4 => ⟨S10000, .f32⟩
  | 5 => ⟨S10000x1, .f32⟩
  | 6 => ⟨S10000x7, .f32⟩
  | 7 => ⟨S10000x7, .f32⟩
  | 8 => ⟨S10000x7, .f32⟩
  | 9 => ⟨S_, .f32⟩
  | 10 => ⟨S10000, .f32⟩
  | 11 => ⟨S10000x1, .f32⟩
  | 12 => ⟨S10000x1, .f32⟩
  | 13 => ⟨S10000x7, .f32⟩
  | 14 => ⟨S10000x7, .f32⟩
  | _ => ⟨S10000x1433, .f32⟩

abbrev hbmTy (i : Nat) : BufTy := match i / 128 with
  | 0 => hbmTy0_0 i
  | 1 => hbmTy0_1 i
  | _ => ⟨S10000x1433, .f32⟩

abbrev bufTy : (tb : Table) → Fin (tcTables nBuf tb) → BufTy
  | .hbm, ⟨i, _⟩ => hbmTy i
  | .local _ .vmem, ⟨0, _⟩ => ⟨S2000x1433, .f32⟩
  | .local _ .vmem, ⟨1, _⟩ => ⟨S2000x1433, .f32⟩
  | .local _ .vmem, ⟨2, _⟩ => ⟨S1433x48, .f32⟩
  | .local _ .vmem, ⟨3, _⟩ => ⟨S2000x48, .f32⟩
  | .local _ .vmem, ⟨4, _⟩ => ⟨S2000x48, .f32⟩
  | .local _ .vmem, ⟨5, _⟩ => ⟨S10000x16, .f32⟩
  | .local _ .vmem, ⟨6, _⟩ => ⟨S16x21, .f32⟩
  | .local _ .vmem, ⟨7, _⟩ => ⟨S10000x21, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_cst_1 : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_v4 : Ref sig .tc := ⟨.hbm, 77, rfl⟩
abbrev main_call0_v5 : Ref sig .tc := ⟨.hbm, 78, rfl⟩
abbrev main_call0_cst_2 : Ref sig .tc := ⟨.hbm, 79, rfl⟩
abbrev main_call0_v6 : Ref sig .tc := ⟨.hbm, 80, rfl⟩
abbrev main_call0_v7 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_7 : Ref sig .tc := ⟨.hbm, 92, rfl⟩
abbrev main_v60 : Ref sig .tc := ⟨.hbm, 93, rfl⟩
abbrev main_v61 : Ref sig .tc := ⟨.hbm, 94, rfl⟩
abbrev main_c_8 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_9 : Ref sig .tc := ⟨.hbm, 101, rfl⟩
abbrev main_v67 : Ref sig .tc := ⟨.hbm, 102, rfl⟩
abbrev main_v68 : Ref sig .tc := ⟨.hbm, 103, rfl⟩
abbrev main_c_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_12 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call1_cst : Ref sig .tc := ⟨.hbm, 128, rfl⟩
abbrev main_call1_v0 : Ref sig .tc := ⟨.hbm, 129, rfl⟩
abbrev main_call1_cst_0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_cst_1 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_v90 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S16x21 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x21 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  slices_S2x1433x16_S1x1433x16_0_0_0 : S2x1433x16.Slices ![0, 0, 0] S1x1433x16
  shapeCasts_S1x1433x16_S1433x16 : S1x1433x16.ShapeCasts S1433x16
  slices_S2x1433x16_S1x1433x16_1_0_0 : S2x1433x16.Slices ![1, 0, 0] S1x1433x16
  concatenates_S1433x16_S1433x16_S1433x16_S1433x48_d1 : Shape.Concatenates [S1433x16, S1433x16, S1433x16] S1433x48 1
  inb_S2000x1433_S2000x1433_0_0 : ∀ a, (![0, 0] : Fin 2 → Nat) a + S2000x1433.size a ≤ S2000x1433.size a
  h_S2000x1433 : 0 < S2000x1433.numel
  inb_S1433x48_S1433x48_0_0 : ∀ a, (![0, 0] : Fin 2 → Nat) a + S1433x48.size a ≤ S1433x48.size a
  h_S1433x48 : 0 < S1433x48.numel
  shapeCasts_S1433x48_S1433x48 : S1433x48.ShapeCasts S1433x48
  inb_S2000x48_S2000x48_0_0 : ∀ a, (![0, 0] : Fin 2 → Nat) a + S2000x48.size a ≤ S2000x48.size a
  h_S2000x48 : 0 < S2000x48.numel
  slices_S10000x48_S10000x16_0_0 : S10000x48.Slices ![0, 0] S10000x16
  slices_S10000x48_S10000x16_0_16 : S10000x48.Slices ![0, 16] S10000x16
  slices_S10000x48_S10000x16_0_32 : S10000x48.Slices ![0, 32] S10000x16
  bcast_S_S160000x1 : S_.BroadcastsInDim S160000x1 (![] : Fin 0 → Fin S160000x1.rank)
  bcast_S160000x1_S160000x16_0_1 : S160000x1.BroadcastsInDim S160000x16 (![0, 1] : Fin 2 → Fin S160000x16.rank)
  bcast_S_S10000x16 : S_.BroadcastsInDim S10000x16 (![] : Fin 0 → Fin S10000x16.rank)
  bcast_S10000x1_S10000x16_0_1 : S10000x1.BroadcastsInDim S10000x16 (![0, 1] : Fin 2 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  slices_S2x16x7_S1x16x7_0_0_0 : S2x16x7.Slices ![0, 0, 0] S1x16x7
  shapeCasts_S1x16x7_S16x7 : S1x16x7.ShapeCasts S16x7
  slices_S2x16x7_S1x16x7_1_0_0 : S2x16x7.Slices ![1, 0, 0] S1x16x7
  concatenates_S16x7_S16x7_S16x7_S16x21_d1 : Shape.Concatenates [S16x7, S16x7, S16x7] S16x21 1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x21_S16x21_0_0 : ∀ a, (![0, 0] : Fin 2 → Nat) a + S16x21.size a ≤ S16x21.size a
  h_S16x21 : 0 < S16x21.numel
  shapeCasts_S16x21_S16x21 : S16x21.ShapeCasts S16x21
  inb_S10000x21_S10000x21_0_0 : ∀ a, (![0, 0] : Fin 2 → Nat) a + S10000x21.size a ≤ S10000x21.size a
  h_S10000x21 : 0 < S10000x21.numel
  slices_S10000x21_S10000x7_0_0 : S10000x21.Slices ![0, 0] S10000x7
  slices_S10000x21_S10000x7_0_7 : S10000x21.Slices ![0, 7] S10000x7
  slices_S10000x21_S10000x7_0_14 : S10000x21.Slices ![0, 14] S10000x7
  bcast_S160000x1_S160000x7_0_1 : S160000x1.BroadcastsInDim S160000x7 (![0, 1] : Fin 2 → Fin S160000x7.rank)
  bcast_S_S10000x7 : S_.BroadcastsInDim S10000x7 (![] : Fin 0 → Fin S10000x7.rank)
  bcast_S10000x1_S10000x7_0_1 : S10000x1.BroadcastsInDim S10000x7 (![0, 1] : Fin 2 → Fin S10000x7.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  scatter_S10000_S160000x1_S160000_n_0_0_1_wf : ScatterDims.WF S10000 S160000x1 S160000 [] [0] [0] 1
  dot_S2000x1433_S1433x48_S2000x48_1_0_0_1_n_n_wf : DotDims.WF S2000x1433 S1433x48 S2000x48 [1] [0] [0] [1] [] []
  gather_S10000x16_S160000x1_S160000x16_1_0_n_n_0_1_116_wf : GatherDims.WF S10000x16 S160000x1 S160000x16 [1] [0] [] [0] [] 1 ![1, 16]
  scatter_S10000x16_S160000x1_S160000x16_1_0_0_1_wf : ScatterDims.WF S10000x16 S160000x1 S160000x16 [1] [0] [0] 1
  dot_S10000x16_S16x21_S10000x21_1_0_0_1_n_n_wf : DotDims.WF S10000x16 S16x21 S10000x21 [1] [0] [0] [1] [] []
  gather_S10000x7_S160000x1_S160000x7_1_0_n_n_0_1_17_wf : GatherDims.WF S10000x7 S160000x1 S160000x7 [1] [0] [] [0] [] 1 ![1, 7]
  scatter_S10000x7_S160000x1_S160000x7_1_0_0_1_wf : ScatterDims.WF S10000x7 S160000x1 S160000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S10000x1433.size a
  hwx0_0 : ∀ i : grid0.Coords, EltTy.bits .f32 = 32 ∨ (Rect.block (s := S10000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x48.size a ≤ S1433x48.size a
  hwx0_1 : ∀ i : grid0.Coords, EltTy.bits .f32 = 32 ∨ (Rect.block (s := S1433x48) S1433x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x48.size a ≤ S10000x48.size a
  hwx0_2 : ∀ i : grid0.Coords, EltTy.bits .f32 = 32 ∨ (Rect.block (s := S10000x48) S2000x48.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S10000x16.size a
  hwx1_0 : ∀ i : grid1.Coords, EltTy.bits .f32 = 32 ∨ (Rect.block (s := S10000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x21.size a ≤ S16x21.size a
  hwx1_1 : ∀ i : grid1.Coords, EltTy.bits .f32 = 32 ∨ (Rect.block (s := S16x21) S16x21.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S10000x21.size a ≤ S10000x21.size a
  hwx1_2 : ∀ i : grid1.Coords, EltTy.bits .f32 = 32 ∨ (Rect.block (s := S10000x21) S10000x21.size (cc1_transform_2 i) (hinb1_2 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x1433_S1433x48_S2000x48_1_0_0_1_n_n : DotDims S2000x1433 S1433x48 S2000x48 where
  lhsContracting := [1]
  rhsContracting := [0]
  lhsNonContracting := [0]
  rhsNonContracting := [1]
  lhsBatch := []
  rhsBatch := []
  wf := dot_S2000x1433_S1433x48_S2000x48_1_0_0_1_n_n_wf
def gather_S10000x16_S160000x1_S160000x16_1_0_n_n_0_1_116 : GatherDims S10000x16 S160000x1 S160000x16 where
  offsetDims := [1]
  collapsedSliceDims := [0]
  operandBatchingDims := []
  startIndicesBatchingDims := []
  startIndexMap := [0]
  indexVectorDim := 1
  sliceSizes := ![1, 16]
  wf := gather_S10000x16_S160000x1_S160000x16_1_0_n_n_0_1_116_wf
def scatter_S10000x16_S160000x1_S160000x16_1_0_0_1 : ScatterDims S10000x16 S160000x1 S160000x16 where
  updateWindowDims := [1]
  insertedWindowDims := [0]
  scatterDimsToOperandDims := [0]
  indexVectorDim := 1
  wf := scatter_S10000x16_S160000x1_S160000x16_1_0_0_1_wf
def dot_S10000x16_S16x21_S10000x21_1_0_0_1_n_n : DotDims S10000x16 S16x21 S10000x21 where
  lhsContracting := [1]
  rhsContracting := [0]
  lhsNonContracting := [0]
  rhsNonContracting := [1]
  lhsBatch := []
  rhsBatch := []
  wf := dot_S10000x16_S16x21_S10000x21_1_0_0_1_n_n_wf
def gather_S10000x7_S160000x1_S160000x7_1_0_n_n_0_1_17 : GatherDims S10000x7 S160000x1 S160000x7 where
  offsetDims := [1]
  collapsedSliceDims := [0]
  operandBatchingDims := []
  startIndicesBatchingDims := []
  startIndexMap := [0]
  indexVectorDim := 1
  sliceSizes := ![1, 7]
  wf := gather_S10000x7_S160000x1_S160000x7_1_0_n_n_0_1_17_wf
def scatter_S10000x7_S160000x1_S160000x7_1_0_0_1 : ScatterDims S10000x7 S160000x1 S160000x7 where
  updateWindowDims := [1]
  insertedWindowDims := [0]
  scatterDimsToOperandDims := [0]
  indexVectorDim := 1
  wf := scatter_S10000x7_S160000x1_S160000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1433x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x16.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v55) S16x21.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S10000x21.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x1433 : Shape := ⟨2, ![10000, 1433]⟩
abbrev S2x160000 : Shape := ⟨2, ![2, 160000]⟩
abbrev S160000x1 : Shape := ⟨2, ![160000, 1]⟩
abbrev S2x1433x16 : Shape := ⟨3, ![2, 1433, 16]⟩
abbrev S1433x16 : Shape := ⟨2, ![1433, 16]⟩
abbrev S16 : Shape := ⟨1, ![16]⟩
abbrev S2x16x7 : Shape := ⟨3, ![2, 16, 7]⟩
abbrev S16x7 : Shape := ⟨2, ![16, 7]⟩
abbrev S7 : Shape := ⟨1, ![7]⟩
abbrev S1x160000 : Shape := ⟨2, ![1, 160000]⟩
abbrev S160000 : Shape := ⟨1, ![160000]⟩
abbrev S_ : Shape := ⟨0, ![]⟩
abbrev S160000x1433 : Shape := ⟨2, ![160000, 1433]⟩
abbrev S1x1433x16 : Shape := ⟨3, ![1, 1433, 16]⟩
abbrev S160000x16 : Shape := ⟨2, ![160000, 16]⟩
abbrev S10000x16 : Shape := ⟨2, ![10000, 16]⟩
abbrev S10000 : Shape := ⟨1, ![10000]⟩
abbrev S10000x1 : Shape := ⟨2, ![10000, 1]⟩
abbrev S1x16 : Shape := ⟨2, ![1, 16]⟩
abbrev S1x16x7 : Shape := ⟨3, ![1, 16, 7]⟩
abbrev S160000x7 : Shape := ⟨2, ![160000, 7]⟩
abbrev S10000x7 : Shape := ⟨2, ![10000, 7]⟩
abbrev S1x7 : Shape := ⟨2, ![1, 7]⟩

abbrev nBuf : Space → Nat
  | .hbm => 136
  | .vmem => 0
  | .smem => 0
  | _ => 0

abbrev hbmTy0_0 (i : Nat) : BufTy := match i % 128 with
  | 0 => ⟨S10000x1433, .f32⟩
  | 1 => ⟨S2x160000, .i32⟩
  | 2 => ⟨S160000x1, .f32⟩
  | 3 => ⟨S2x1433x16, .f32⟩
  | 4 => ⟨S1433x16, .f32⟩
  | 5 => ⟨S16, .f32⟩
  | 6 => ⟨S2x16x7, .f32⟩
  | 7 => ⟨S16x7, .f32⟩
  | 8 => ⟨S7, .f32⟩
  | 9 => ⟨S1x160000, .i32⟩
  | 10 => ⟨S160000, .i32⟩
  | 11 => ⟨S1x160000, .i32⟩
  | 12 => ⟨S160000, .i32⟩
  | 13 => ⟨S160000, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x1433, .f32⟩
  | 23 => ⟨S_, .f32⟩
  | 24 => ⟨S160000, .f32⟩
  | 25 => ⟨S160000, .f32⟩
  | 26 => ⟨S160000x1, .f32⟩
  | 27 => ⟨S160000x1433, .f32⟩
  | 28 => ⟨S160000x1433, .f32⟩
  | 29 => ⟨S1x1433x16, .f32⟩
  | 30 => ⟨S1433x16, .f32⟩
  | 31 => ⟨S160000x16, .f32⟩
  | 32 => ⟨S160000x1, .f32⟩
  | 33 => ⟨S160000x1433, .f32⟩
  | 34 => ⟨S160000x1433, .f32⟩
  | 35 => ⟨S1x1433x16, .f32⟩
  | 36 => ⟨S1433x16, .f32⟩
  | 37 => ⟨S160000x16, .f32⟩
  | 38 => ⟨S160000x16, .f32⟩
  | 39 => ⟨S_, .f32⟩
  | 40 => ⟨S10000x16, .f32⟩
  | 41 => ⟨S160000x1, .i32⟩
  | 42 => ⟨S10000x16, .f32⟩
  | 43 => ⟨S_, .f32⟩
  | 44 => ⟨S160000, .f32⟩
  | 45 => ⟨S_, .f32⟩
  | 46 => ⟨S10000, .f32⟩
  | 47 => ⟨S160000x1, .i32⟩
  | 48 => ⟨S10000, .f32⟩
  | 49 => ⟨S_, .f32⟩
  | 50 => ⟨S10000, .f32⟩
  | 51 => ⟨S10000, .f32⟩
  | 52 => ⟨S10000x1, .f32⟩
  | 53 => ⟨S10000x16, .f32⟩
  | 54 => ⟨S10000x16, .f32⟩
  | 55 => ⟨S10000x16, .f32⟩
  | 56 => ⟨S10000x16, .f32⟩
  | 57 => ⟨S1x16, .f32⟩
  | 58 => ⟨S10000x16, .f32⟩
  | 59 => ⟨S10000x16, .f32⟩
  | 60 => ⟨S_, .f32⟩
  | 61 => ⟨S10000x16, .f32⟩
  | 62 => ⟨S10000x16, .i1⟩
  | 63 => ⟨S_, .f32⟩
  | 64 => ⟨S10000x16, .f32⟩
  | 65 => ⟨S10000x16, .i1⟩
  | 66 => ⟨S_, .f32⟩
  | 67 => ⟨S_, .f32⟩
  | 68 => ⟨S10000x16, .f32⟩
  | 69 => ⟨S10000x16, .f32⟩
  | 70 => ⟨S10000x16, .f32⟩
  | 71 => ⟨S_, .f32⟩
  | 72 => ⟨S10000x16, .f32⟩
  | 73 => ⟨S10000x16, .f32⟩
  | 74 => ⟨S10000x16, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x16, .f32⟩
  | 84 => ⟨S_, .f32⟩
  | 85 => ⟨S160000, .f32⟩
  | 86 => ⟨S160000, .f32⟩
  | 87 => ⟨S160000x1, .f32⟩
  | 88 => ⟨S160000x16, .f32⟩
  | 89 => ⟨S160000x16, .f32⟩
  | 90 => ⟨S1x16x7, .f32⟩
  | 91 => ⟨S16x7, .f32⟩
  | 92 => ⟨S160000x7, .f32⟩
  | 93 => ⟨S160000x1, .f32⟩
  | 94 => ⟨S160000x16, .f32⟩
  | 95 => ⟨S160000x16, .f32⟩
  | 96 => ⟨S1x16x7, .f32⟩
  | 97 => ⟨S16x7, .f32⟩
  | 98 => ⟨S160000x7, .f32⟩
  | 99 => ⟨S160000x7, .f32⟩
  | 100 => ⟨S_, .f32⟩
  | 101 => ⟨S10000x7, .f32⟩
  | 102 => ⟨S160000x1, .i32⟩
  | 103 => ⟨S10000x7, .f32⟩
  | 104 => ⟨S_, .f32⟩
  | 105 => ⟨S160000, .f32⟩
  | 106 => ⟨S_, .f32⟩
  | 107 => ⟨S10000, .f32⟩
  | 108 => ⟨S160000x1, .i32⟩
  | 109 => ⟨S10000, .f32⟩
  | 110 => ⟨S_, .f32⟩
  | 111 => ⟨S10000, .f32⟩
  | 112 => ⟨S10000, .f32⟩
  | 113 => ⟨S10000x1, .f32⟩
  | 114 => ⟨S10000x7, .f32⟩
  | 115 => ⟨S10000x7, .f32⟩
  | 116 => ⟨S10000x7, .f32⟩
  | 117 => ⟨S10000x7, .f32⟩
  | 118 => ⟨S1x7, .f32⟩
  | 119 => ⟨S10000x7, .f32⟩
  | 120 => ⟨S10000x7, .f32⟩
  | 121 => ⟨S_, .f32⟩
  | 122 => ⟨S10000, .f32⟩
  | 123 => ⟨S_, .f32⟩
  | 124 => ⟨S10000, .f32⟩
  | 125 => ⟨S10000, .f32⟩
  | 126 => ⟨S10000x1, .f32⟩
  | 127 => ⟨S10000x7, .f32⟩
  | _ => ⟨S10000x1433, .f32⟩

abbrev hbmTy0_1 (i : Nat) : BufTy := match i % 128 with
  | 0 => ⟨S10000x7, .f32⟩
  | 1 => ⟨S10000x7, .f32⟩
  | 2 => ⟨S_, .f32⟩
  | 3 => ⟨S10000, .f32⟩
  | 4 => ⟨S10000x1, .f32⟩
  | 5 => ⟨S10000x1, .f32⟩
  | 6 => ⟨S10000x7, .f32⟩
  | 7 => ⟨S10000x7, .f32⟩
  | _ => ⟨S10000x1433, .f32⟩

abbrev hbmTy (i : Nat) : BufTy := match i / 128 with
  | 0 => hbmTy0_0 i
  | 1 => hbmTy0_1 i
  | _ => ⟨S10000x1433, .f32⟩

abbrev bufTy : (tb : Table) → Fin (tcTables nBuf tb) → BufTy
  | .hbm, ⟨i, _⟩ => hbmTy i
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_cst_1 : Ref sig .tc := ⟨.hbm, 66, rfl⟩
abbrev main_call0_call0_v0 : Ref sig .tc := ⟨.hbm, 67, rfl⟩
abbrev main_call0_call0_v1 : Ref sig .tc := ⟨.hbm, 68, rfl⟩
abbrev main_call0_v4 : Ref sig .tc := ⟨.hbm, 69, rfl⟩
abbrev main_call0_v5 : Ref sig .tc := ⟨.hbm, 70, rfl⟩
abbrev main_call0_cst_2 : Ref sig .tc := ⟨.hbm, 71, rfl⟩
abbrev main_call0_v6 : Ref sig .tc := ⟨.hbm, 72, rfl⟩
abbrev main_call0_v7 : Ref sig .tc := ⟨.hbm, 73, rfl⟩
abbrev main_v44 : Ref sig .tc := ⟨.hbm, 74, rfl⟩
abbrev main_c_5 : Ref sig .tc := ⟨.hbm, 75, rfl⟩
abbrev main_v45 : Ref sig .tc := ⟨.hbm, 76, rfl⟩
abbrev main_v46 : Ref sig .tc := ⟨.hbm, 77, rfl⟩
abbrev main_c_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_8 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_9 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v84 : Ref sig .tc := ⟨.hbm, 135, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S160000x1_S160000 : S160000x1.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x1433_0_1 : S160000x1.BroadcastsInDim S160000x1433 (![0, 1] : Fin 2 → Fin S160000x1433.rank)
  slices_S2x1433x16_S1x1433x16_0_0_0 : S2x1433x16.Slices ![0, 0, 0] S1x1433x16
  shapeCasts_S1x1433x16_S1433x16 : S1x1433x16.ShapeCasts S1433x16
  slices_S2x1433x16_S1x1433x16_1_0_0 : S2x1433x16.Slices ![1, 0, 0] S1x1433x16
  bcast_S_S10000x16 : S_.BroadcastsInDim S10000x16 (![] : Fin 0 → Fin S10000x16.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S160000x1_S160000x16_0_1 : S160000x1.BroadcastsInDim S160000x16 (![0, 1] : Fin 2 → Fin S160000x16.rank)
  slices_S2x16x7_S1x16x7_0_0_0 : S2x16x7.Slices ![0, 0, 0] S1x16x7
  shapeCasts_S1x16x7_S16x7 : S1x16x7.ShapeCasts S16x7
  slices_S2x16x7_S1x16x7_1_0_0 : S2x16x7.Slices ![1, 0, 0] S1x16x7
  bcast_S_S10000x7 : S_.BroadcastsInDim S10000x7 (![] : Fin 0 → Fin S10000x7.rank)
  bcast_S10000x1_S10000x7_0_1 : S10000x1.BroadcastsInDim S10000x7 (![0, 1] : Fin 2 → Fin S10000x7.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  gather_S10000x1433_S160000x1_S160000x1433_1_0_n_n_0_1_11433_wf : GatherDims.WF S10000x1433 S160000x1 S160000x1433 [1] [0] [] [0] [] 1 ![1, 1433]
  dot_S160000x1433_S1433x16_S160000x16_1_0_0_1_n_n_wf : DotDims.WF S160000x1433 S1433x16 S160000x16 [1] [0] [0] [1] [] []
  scatter_S10000x16_S160000x1_S160000x16_1_0_0_1_wf : ScatterDims.WF S10000x16 S160000x1 S160000x16 [1] [0] [0] 1
  scatter_S10000_S160000x1_S160000_n_0_0_1_wf : ScatterDims.WF S10000 S160000x1 S160000 [] [0] [0] 1
  dot_S10000x1433_S1433x16_S10000x16_1_0_0_1_n_n_wf : DotDims.WF S10000x1433 S1433x16 S10000x16 [1] [0] [0] [1] [] []
  gather_S10000x16_S160000x1_S160000x16_1_0_n_n_0_1_116_wf : GatherDims.WF S10000x16 S160000x1 S160000x16 [1] [0] [] [0] [] 1 ![1, 16]
  dot_S160000x16_S16x7_S160000x7_1_0_0_1_n_n_wf : DotDims.WF S160000x16 S16x7 S160000x7 [1] [0] [0] [1] [] []
  scatter_S10000x7_S160000x1_S160000x7_1_0_0_1_wf : ScatterDims.WF S10000x7 S160000x1 S160000x7 [1] [0] [0] 1
  dot_S10000x16_S16x7_S10000x7_1_0_0_1_n_n_wf : DotDims.WF S10000x16 S16x7 S10000x7 [1] [0] [0] [1] [] []

variable [Facts₀]

def gather_S10000x1433_S160000x1_S160000x1433_1_0_n_n_0_1_11433 : GatherDims S10000x1433 S160000x1 S160000x1433 where
  offsetDims := [1]
  collapsedSliceDims := [0]
  operandBatchingDims := []
  startIndicesBatchingDims := []
  startIndexMap := [0]
  indexVectorDim := 1
  sliceSizes := ![1, 1433]
  wf := gather_S10000x1433_S160000x1_S160000x1433_1_0_n_n_0_1_11433_wf
def dot_S160000x1433_S1433x16_S160000x16_1_0_0_1_n_n : DotDims S160000x1433 S1433x16 S160000x16 where
  lhsContracting := [1]
  rhsContracting := [0]
  lhsNonContracting := [0]
  rhsNonContracting := [1]
  lhsBatch := []
  rhsBatch := []
  wf := dot_S160000x1433_S1433x16_S160000x16_1_0_0_1_n_n_wf
def scatter_S10000x16_S160000x1_S160000x16_1_0_0_1 : ScatterDims S10000x16 S160000x1 S160000x16 where
  updateWindowDims := [1]
  insertedWindowDims := [0]
  scatterDimsToOperandDims := [0]
  indexVectorDim := 1
  wf := scatter_S10000x16_S160000x1_S160000x16_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x1433_S1433x16_S10000x16_1_0_0_1_n_n : DotDims S10000x1433 S1433x16 S10000x16 where
  lhsContracting := [1]
  rhsContracting := [0]
  lhsNonContracting := [0]
  rhsNonContracting := [1]
  lhsBatch := []
  rhsBatch := []
  wf := dot_S10000x1433_S1433x16_S10000x16_1_0_0_1_n_n_wf
def gather_S10000x16_S160000x1_S160000x16_1_0_n_n_0_1_116 : GatherDims S10000x16 S160000x1 S160000x16 where
  offsetDims := [1]
  collapsedSliceDims := [0]
  operandBatchingDims := []
  startIndicesBatchingDims := []
  startIndexMap := [0]
  indexVectorDim := 1
  sliceSizes := ![1, 16]
  wf := gather_S10000x16_S160000x1_S160000x16_1_0_n_n_0_1_116_wf
def dot_S160000x16_S16x7_S160000x7_1_0_0_1_n_n : DotDims S160000x16 S16x7 S160000x7 where
  lhsContracting := [1]
  rhsContracting := [0]
  lhsNonContracting := [0]
  rhsNonContracting := [1]
  lhsBatch := []
  rhsBatch := []
  wf := dot_S160000x16_S16x7_S160000x7_1_0_0_1_n_n_wf
def scatter_S10000x7_S160000x1_S160000x7_1_0_0_1 : ScatterDims S10000x7 S160000x1 S160000x7 where
  updateWindowDims := [1]
  insertedWindowDims := [0]
  scatterDimsToOperandDims := [0]
  indexVectorDim := 1
  wf := scatter_S10000x7_S160000x1_S160000x7_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf

class Facts : Prop extends Facts₀ where

variable [Facts]
-- ==== Proof.KRun.lean ====
/- The two kernel regions of the program: per region the windows' blocks, what the body leaves in the output window's
   buffer (the matrix product of the two input blocks), the body's triple, the proof data and the segment record; then
   the run of @main: every execution terminates, the argument arrays end as launched and the result buffer ends at the
   fold of the host stretches over what the two regions leave. -/
import proofs.«125320_j11141145166043_2_alg».proof.Proof.Gen.KernelIdeal.Launch
import proofs.«125320_j11141145166043_2_alg».proof.Proof.Gen.KernelIdeal.Skeleton
import proofs.«125320_j11141145166043_2_alg».proof.Proof.Gen.KernelIdeal.Points
import proofs.«125320_j11141145166043_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # REGION 0: the matrix product of window 0's block with window 1's block, stored whole to window 2's -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each staging buffer whole. -/
abbrev r0_0 : Rect S2000x1433 := Rect.unit (s := S2000x1433) ![0, 0] S2000x1433.size inb_S2000x1433_S2000x1433_0_0
abbrev r0_1 : Rect S1433x48 := Rect.unit (s := S1433x48) ![0, 0] S1433x48.size inb_S1433x48_S1433x48_0_0
abbrev r0_2 : Rect S2000x48 := Rect.unit (s := S2000x48) ![0, 0] S2000x48.size inb_S2000x48_S2000x48_0_0

/-- Window 2's staging buffer after the body, from the input windows' blocks: its one store. -/
def out0_2 (x0 : Vec F S2000x1433 .f32) (x1 : Vec F S1433x48 .f32) : Vec F S2000x48 .f32 :=
  View.canon [⟨r0_2, k0_pay1 (View.ld x0 r0_0) (View.ld x1 r0_1)⟩]

set_option maxRecDepth 16384 in
/-- The store covers the buffer. -/
theorem cover0_2 (p0 : Vec F S2000x48 .f32) (y : S2000x48.Idx) :
    ∃ pc ∈ ([⟨r0_2, p0⟩] : List (View.Piece (Elt F) S2000x48 .f32)), y ∈ pc.1.set :=
  View.cover_of_tiled [⟨r0_2, p0⟩] S2000x48.size (by rfl) y

set_option maxHeartbeats 1000000 in
/-- The kernel body on whole staging memrefs, the inputs' at read contents and the output's at anything, runs to the
    continuation holding the inputs' as they were and the output's at `out0_2` of the inputs'. -/
theorem sound_kernel0 (c : Dev nD) (E : Set ℕ) (i : grid0.Coords) (arg1 : Memref sig .tc .vmem S2000x1433 .f32) (harg1 : arg1.IsWhole) (arg2 : Memref sig .tc .vmem S1433x48 .f32) (harg2 : arg2.IsWhole)
    (arg3 : Memref sig .tc .vmem S2000x48 .f32) (harg3 : arg3.IsWhole)
    (x0 : Vec F S2000x1433 .f32) (x1 : Vec F S1433x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them (`V`); after the body at point `t`
    each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: the matrix product of window 0's block with window 1's block, stored whole to window 2's -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each staging buffer whole. -/
abbrev r1_0 : Rect S10000x16 := Rect.unit (s := S10000x16) ![0, 0] S10000x16.size inb_S10000x16_S10000x16_0_0
abbrev r1_1 : Rect S16x21 := Rect.unit (s := S16x21) ![0, 0] S16x21.size inb_S16x21_S16x21_0_0
abbrev r1_2 : Rect S10000x21 := Rect.unit (s := S10000x21) ![0, 0] S10000x21.size inb_S10000x21_S10000x21_0_0

/-- Window 2's staging buffer after the body, from the input windows' blocks: its one store. -/
def out1_2 (x0 : Vec F S10000x16 .f32) (x1 : Vec F S16x21 .f32) : Vec F S10000x21 .f32 :=
  View.canon [⟨r1_2, k1_pay1 (View.ld x0 r1_0) (View.ld x1 r1_1)⟩]

set_option maxRecDepth 16384 in
/-- The store covers the buffer. -/
theorem cover1_2 (p0 : Vec F S10000x21 .f32) (y : S10000x21.Idx) :
    ∃ pc ∈ ([⟨r1_2, p0⟩] : List (View.Piece (Elt F) S10000x21 .f32)), y ∈ pc.1.set :=
  View.cover_of_tiled [⟨r1_2, p0⟩] S10000x21.size (by rfl) y

set_option maxHeartbeats 1000000 in
/-- The kernel body on whole staging memrefs, the inputs' at read contents and the output's at anything, runs to the
    continuation holding the inputs' as they were and the output's at `out1_2` of the inputs'. -/
theorem sound_kernel1 (c : Dev nD) (E : Set ℕ) (i : grid1.Coords) (arg1 : Memref sig .tc .vmem S10000x16 .f32) (harg1 : arg1.IsWhole) (arg2 : Memref sig .tc .vmem S16x21 .f32) (harg2 : arg2.IsWhole)
    (arg3 : Memref sig .tc .vmem S10000x21 .f32) (harg3 : arg3.IsWhole)
    (x0 : Vec F S10000x16 .f32) (x1 : Vec F S16x21 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them (`V`); after the body at point `t`
    each input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # THE RUN -/

variable (m : (ℓ : Loc nD τ sig) → Buf (Elt F) ℓ)

/-! ## The run, given the regions' records: the conditional frame with the result buffer read off the last valuation too -/

set_option maxRecDepth 1116 in
set_option backward.isDefEq.respectTransparency.types false in
/-- For any rest states the launch makes on every core at once and that end owing nothing, any contents the regions leave and
    any proof data: given, per region, a segment record entered from the thread state before it and left at the one after
    it, every weakly fair execution of @main from memory `m` with zero counters terminates, every final memory holds the
    result buffer at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v90) = Gen.V8 m outs c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, hpre1 c, hpost1 c, .rfl, sep_mono .rfl (hE2 c)⟩)
    (hinit := ?_) (QY := fun c s => s.mem ((c.tc : Thread nD τ).loc main_v90) = Gen.V8 m outs c main_v90 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v90) (Finset.mem_filter.mpr ⟨StableHlo.devRef_mem_tcRefs main_v90, by decide⟩)),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

/-- Region 0's entry contents read at the TensorCore's references. -/
abbrev E1 : (c : Dev nD) → (b : Ref sig .tc) → Buf (Elt F) ((c : Thread nD τ).loc b) := fun c b => Gen.V1 m c b

/-- What region 0 leaves in its output array: the write-backs folded over the entry contents. -/
def out16 (c : Dev nD) : Buf (Elt F) ((c : Thread nD τ).loc main_v16) := (dat0 (E1 m) c).arrAt 2 cfg0.N

/-- The regions' contents with region 0's only (what region 1's entry contents read). -/
def outsA : Gen.Outs (F := F) := fun _ r c =>
  if h : r = main_v16 then h ▸ out16 m c else Gen.V1 m c r

/-- Region 1's entry contents read at the TensorCore's references. -/
abbrev E5A : (c : Dev nD) → (b : Ref sig .tc) → Buf (Elt F) ((c : Thread nD τ).loc b) := fun c b => Gen.V5 m (outsA m) c b

/-- What region 1 leaves in its output array. -/
def out56 (c : Dev nD) : Buf (Elt F) ((c : Thread nD τ).loc main_v56) := (dat1 (E5A m) c).arrAt 2 cfg1.N

/-- What the two regions leave: region 0's output array and region 1's. -/
def outs : Gen.Outs (F := F) := fun _ r c =>
  if h : r = main_v16 then h ▸ out16 m c else if h' : r = main_v56 then h' ▸ out56 m c else Gen.V1 m c r

theorem outsA_16 (j : ℕ) (c : Dev nD) : outsA m j main_v16 c = out16 m c := by
  unfold outsA; rw [dif_pos rfl]
theorem outs_16 (j : ℕ) (c : Dev nD) : outs m j main_v16 c = out16 m c := by
  unfold outs; rw [dif_pos rfl]
theorem outs_56 (j : ℕ) (c : Dev nD) : outs m j main_v56 c = out56 m c := by
  unfold outs; rw [dif_neg (by decide), dif_pos rfl]

/-- Region 0's exit contents do not depend on what region 1 leaves. -/
theorem V2_outs (c : Dev nD) : Gen.V2 m (outs m) c = Gen.V2 m (outsA m) c := by
  show Function.update _ _ _ = Function.update _ _ _
  rw [outs_16, outsA_16]
theorem V5_outs (c : Dev nD) : Gen.V5 m (outs m) c = Gen.V5 m (outsA m) c := by
  show StableHlo.after hostOps1_2 (StableHlo.after hostOps1_1 (StableHlo.after hostOps1 (Gen.V2 m (outs m) c))) = StableHlo.after hostOps1_2 (StableHlo.after hostOps1_1 (StableHlo.after hostOps1 (Gen.V2 m (outsA m) c)))
  rw [V2_outs]

abbrev E2 : (c : Dev nD) → (b : Ref sig .tc) → Buf (Elt F) ((c : Thread nD τ).loc b) := fun c b => Gen.V2 m (outs m) c b
abbrev E5 : (c : Dev nD) → (b : Ref sig .tc) → Buf (Elt F) ((c : Thread nD τ).loc b) := fun c b => Gen.V5 m (outs m) c b
abbrev E6 : (c : Dev nD) → (b : Ref sig .tc) → Buf (Elt F) ((c : Thread nD τ).loc b) := fun c b => Gen.V6 m (outs m) c b

theorem E5_eq : E5 m = E5A m := by
  funext c b; show Gen.V5 m (outs m) c b = Gen.V5 m (outsA m) c b; rw [V5_outs]

/-- The regions' contents, as the proof data's arrays after the run. -/
theorem outs2_eq (c : Dev nD) : outs m 2 main_v16 c = (dat0 (E1 m) c).arrAt 2 cfg0.N := outs_16 m 2 c
theorem outs6_eq (c : Dev nD) : outs m 6 main_v56 c = (dat1 (E5 m) c).arrAt 2 cfg1.N := by
  rw [outs_56, E5_eq]; rfl

/-- A region's exit contents at its output array are what it leaves there. -/
theorem E2_16 (c : Dev nD) : E2 m c main_v16 = outs m 2 main_v16 c := by
  show Function.update (Gen.V1 m c) _ _ _ = _
  exact Function.update_self _ _ _
theorem E6_56 (c : Dev nD) : E6 m c main_v56 = outs m 6 main_v56 c := by
  show Function.update (Gen.V5 m (outs m) c) _ _ _ = _
  exact Function.update_self _ _ _

/-- At region 0's exit each of its arrays holds what the pipeline leaves and every other buffer what it held at entry. -/
theorem hF0 (c : Dev nD) (w : Fin cfg0.W) : (dat0 (E1 m) c).arrAt w cfg0.N = E2 m c (Pipeline.arrRef spec0 w) :=
  match w with
  | ⟨0, _⟩ => (((dat0 (E1 m) c).arrAt_in 0 rfl _).trans (A_eq0 (E1 m) c 0)).trans (Gen.V2_of m (outs m) c main_arg0 (by decide)).symm
  | ⟨1, _⟩ => (((dat0 (E1 m) c).arrAt_in 1 rfl _).trans (A_eq0 (E1 m) c 1)).trans (Gen.V2_of m (outs m) c main_v15 (by decide)).symm
  | ⟨2, _⟩ => (outs2_eq m c).symm.trans (E2_16 m c).symm
theorem hrest0 (c : Dev nD) : ∀ b, b ∉ Finset.univ.image (Pipeline.arrRef spec0) → E2 m c b = E1 m c b :=
  fun b hb => Gen.V2_of m (outs m) c b fun h => hb (Finset.mem_image.mpr ⟨2, Finset.mem_univ _, (List.mem_singleton.mp h).symm⟩)

theorem hF1 (c : Dev nD) (w : Fin cfg1.W) : (dat1 (E5 m) c).arrAt w cfg1.N = E6 m c (Pipeline.arrRef spec1 w) :=
  match w with
  | ⟨0, _⟩ => (((dat1 (E5 m) c).arrAt_in 0 rfl _).trans (A_eq1 (E5 m) c 0)).trans (Gen.V6_of m (outs m) c main_v50 (by decide)).symm
  | ⟨1, _⟩ => (((dat1 (E5 m) c).arrAt_in 1 rfl _).trans (A_eq1 (E5 m) c 1)).trans (Gen.V6_of m (outs m) c main_v55 (by decide)).symm
  | ⟨2, _⟩ => (outs6_eq m c).symm.trans (E6_56 m c).symm
theorem hrest1 (c : Dev nD) : ∀ b, b ∉ Finset.univ.image (Pipeline.arrRef spec1) → E6 m c b = E5 m c b :=
  fun b hb => Gen.V6_of m (outs m) c b fun h => hb (Finset.mem_image.mpr ⟨2, Finset.mem_univ _, (List.mem_singleton.mp h).symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

set_option backward.isDefEq.respectTransparency.types false in
/-- REGION 0 over the thread state: entered from every unscoped buffer at `Gen.V1`, left at `Gen.V2`. Its arrays
    split out of the unscoped buffers and put back at the exit contents; the generator register into the class invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `Gen.V5`, left at `Gen.V6`. Its arrays
    split out of the unscoped buffers and put back at the exit contents; the generator register into the class invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- THE RUN: every weakly fair execution of @main terminates, every final memory holds the result buffer at the fold of the
    host stretches over what the two regions leave, and each argument as launched. -/
theorem run (ρ : Dev nD → PrngReg) : θ_run defs (onTc (τ := τ) (main (F := F))) ⟨m, fun _ => 0, ρ⟩ (fun r => ∀ c : Dev nD,
      r.2.mem ((c.tc : Thread nD τ).loc main_v90) = Gen.V8 m (outs m) c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

/-- THE FRAME: every weakly fair execution of @main terminates and every final memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run m ρ)

end Cert.KernelIdeal.Hand

end
-- ==== Proof.KRunBits.lean ====
/- The two kernel regions of the program: per region the windows' blocks, what the body leaves in the output window's
   buffer (the matrix product of the two input blocks), the body's triple, the proof data and the segment record; then
   the run of @main: every execution terminates, the argument arrays end as launched and the result buffer ends at the
   fold of the host stretches over what the two regions leave. -/
import proofs.«125320_j11141145166043_2_alg».proof.Proof.Gen.Kernel.Launch
import proofs.«125320_j11141145166043_2_alg».proof.Proof.Gen.Kernel.Skeleton
import proofs.«125320_j11141145166043_2_alg».proof.Proof.Gen.Kernel.Points
import proofs.«125320_j11141145166043_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # REGION 0: the matrix product of window 0's block with window 1's block, stored whole to window 2's -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each staging buffer whole. -/
abbrev r0_0 : Rect S2000x1433 := Rect.unit (s := S2000x1433) ![0, 0] S2000x1433.size inb_S2000x1433_S2000x1433_0_0
abbrev r0_1 : Rect S1433x48 := Rect.unit (s := S1433x48) ![0, 0] S1433x48.size inb_S1433x48_S1433x48_0_0
abbrev r0_2 : Rect S2000x48 := Rect.unit (s := S2000x48) ![0, 0] S2000x48.size inb_S2000x48_S2000x48_0_0

/-- Window 2's staging buffer after the body, from the input windows' blocks: its one store. -/
def out0_2 (x0 : Vec F S2000x1433 .f32) (x1 : Vec F S1433x48 .f32) : Vec F S2000x48 .f32 :=
  View.canon [⟨r0_2, k0_pay1 (View.ld x0 r0_0) (View.ld x1 r0_1)⟩]

set_option maxRecDepth 16384 in
/-- The store covers the buffer. -/
theorem cover0_2 (p0 : Vec F S2000x48 .f32) (y : S2000x48.Idx) :
    ∃ pc ∈ ([⟨r0_2, p0⟩] : List (View.Piece (Elt F) S2000x48 .f32)), y ∈ pc.1.set :=
  View.cover_of_tiled [⟨r0_2, p0⟩] S2000x48.size (by rfl) y

set_option maxHeartbeats 1000000 in
/-- The kernel body on whole staging memrefs, the inputs' at read contents and the output's at anything, runs to the
    continuation holding the inputs' as they were and the output's at `out0_2` of the inputs'. -/
theorem sound_kernel0 (c : Dev nD) (E : Set ℕ) (i : grid0.Coords) (arg1 : Memref sig .tc .vmem S2000x1433 .f32) (harg1 : arg1.IsWhole) (arg2 : Memref sig .tc .vmem S1433x48 .f32) (harg2 : arg2.IsWhole)
    (arg3 : Memref sig .tc .vmem S2000x48 .f32) (harg3 : arg3.IsWhole)
    (x0 : Vec F S2000x1433 .f32) (x1 : Vec F S1433x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them (`V`); after the body at point `t`
    each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: the matrix product of window 0's block with window 1's block, stored whole to window 2's -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each staging buffer whole. -/
abbrev r1_0 : Rect S10000x16 := Rect.unit (s := S10000x16) ![0, 0] S10000x16.size inb_S10000x16_S10000x16_0_0
abbrev r1_1 : Rect S16x21 := Rect.unit (s := S16x21) ![0, 0] S16x21.size inb_S16x21_S16x21_0_0
abbrev r1_2 : Rect S10000x21 := Rect.unit (s := S10000x21) ![0, 0] S10000x21.size inb_S10000x21_S10000x21_0_0

/-- Window 2's staging buffer after the body, from the input windows' blocks: its one store. -/
def out1_2 (x0 : Vec F S10000x16 .f32) (x1 : Vec F S16x21 .f32) : Vec F S10000x21 .f32 :=
  View.canon [⟨r1_2, k1_pay1 (View.ld x0 r1_0) (View.ld x1 r1_1)⟩]

set_option maxRecDepth 16384 in
/-- The store covers the buffer. -/
theorem cover1_2 (p0 : Vec F S10000x21 .f32) (y : S10000x21.Idx) :
    ∃ pc ∈ ([⟨r1_2, p0⟩] : List (View.Piece (Elt F) S10000x21 .f32)), y ∈ pc.1.set :=
  View.cover_of_tiled [⟨r1_2, p0⟩] S10000x21.size (by rfl) y

set_option maxHeartbeats 1000000 in
/-- The kernel body on whole staging memrefs, the inputs' at read contents and the output's at anything, runs to the
    continuation holding the inputs' as they were and the output's at `out1_2` of the inputs'. -/
theorem sound_kernel1 (c : Dev nD) (E : Set ℕ) (i : grid1.Coords) (arg1 : Memref sig .tc .vmem S10000x16 .f32) (harg1 : arg1.IsWhole) (arg2 : Memref sig .tc .vmem S16x21 .f32) (harg2 : arg2.IsWhole)
    (arg3 : Memref sig .tc .vmem S10000x21 .f32) (harg3 : arg3.IsWhole)
    (x0 : Vec F S10000x16 .f32) (x1 : Vec F S16x21 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them (`V`); after the body at point `t`
    each input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # THE RUN -/

variable (m : (ℓ : Loc nD τ sig) → Buf (Elt F) ℓ)

/-! ## The run, given the regions' records: the conditional frame with the result buffer read off the last valuation too -/

set_option maxRecDepth 1116 in
set_option backward.isDefEq.respectTransparency.types false in
/-- For any rest states the launch makes on every core at once and that end owing nothing, any contents the regions leave and
    any proof data: given, per region, a segment record entered from the thread state before it and left at the one after
    it, every weakly fair execution of @main from memory `m` with zero counters terminates, every final memory holds the
    result buffer at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v90) = Gen.V8 m outs c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, hpre1 c, hpost1 c, .rfl, sep_mono .rfl (hE2 c)⟩)
    (hinit := ?_) (QY := fun c s => s.mem ((c.tc : Thread nD τ).loc main_v90) = Gen.V8 m outs c main_v90 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v90) (Finset.mem_filter.mpr ⟨StableHlo.devRef_mem_tcRefs main_v90, by decide⟩)),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

/-- Region 0's entry contents read at the TensorCore's references. -/
abbrev E1 : (c : Dev nD) → (b : Ref sig .tc) → Buf (Elt F) ((c : Thread nD τ).loc b) := fun c b => Gen.V1 m c b

/-- What region 0 leaves in its output array: the write-backs folded over the entry contents. -/
def out16 (c : Dev nD) : Buf (Elt F) ((c : Thread nD τ).loc main_v16) := (dat0 (E1 m) c).arrAt 2 cfg0.N

/-- The regions' contents with region 0's only (what region 1's entry contents read). -/
def outsA : Gen.Outs (F := F) := fun _ r c =>
  if h : r = main_v16 then h ▸ out16 m c else Gen.V1 m c r

/-- Region 1's entry contents read at the TensorCore's references. -/
abbrev E5A : (c : Dev nD) → (b : Ref sig .tc) → Buf (Elt F) ((c : Thread nD τ).loc b) := fun c b => Gen.V5 m (outsA m) c b

/-- What region 1 leaves in its output array. -/
def out56 (c : Dev nD) : Buf (Elt F) ((c : Thread nD τ).loc main_v56) := (dat1 (E5A m) c).arrAt 2 cfg1.N

/-- What the two regions leave: region 0's output array and region 1's. -/
def outs : Gen.Outs (F := F) := fun _ r c =>
  if h : r = main_v16 then h ▸ out16 m c else if h' : r = main_v56 then h' ▸ out56 m c else Gen.V1 m c r

theorem outsA_16 (j : ℕ) (c : Dev nD) : outsA m j main_v16 c = out16 m c := by
  unfold outsA; rw [dif_pos rfl]
theorem outs_16 (j : ℕ) (c : Dev nD) : outs m j main_v16 c = out16 m c := by
  unfold outs; rw [dif_pos rfl]
theorem outs_56 (j : ℕ) (c : Dev nD) : outs m j main_v56 c = out56 m c := by
  unfold outs; rw [dif_neg (by decide), dif_pos rfl]

/-- Region 0's exit contents do not depend on what region 1 leaves. -/
theorem V2_outs (c : Dev nD) : Gen.V2 m (outs m) c = Gen.V2 m (outsA m) c := by
  show Function.update _ _ _ = Function.update _ _ _
  rw [outs_16, outsA_16]
theorem V5_outs (c : Dev nD) : Gen.V5 m (outs m) c = Gen.V5 m (outsA m) c := by
  show StableHlo.after hostOps1_2 (StableHlo.after hostOps1_1 (StableHlo.after hostOps1 (Gen.V2 m (outs m) c))) = StableHlo.after hostOps1_2 (StableHlo.after hostOps1_1 (StableHlo.after hostOps1 (Gen.V2 m (outsA m) c)))
  rw [V2_outs]

abbrev E2 : (c : Dev nD) → (b : Ref sig .tc) → Buf (Elt F) ((c : Thread nD τ).loc b) := fun c b => Gen.V2 m (outs m) c b
abbrev E5 : (c : Dev nD) → (b : Ref sig .tc) → Buf (Elt F) ((c : Thread nD τ).loc b) := fun c b => Gen.V5 m (outs m) c b
abbrev E6 : (c : Dev nD) → (b : Ref sig .tc) → Buf (Elt F) ((c : Thread nD τ).loc b) := fun c b => Gen.V6 m (outs m) c b

theorem E5_eq : E5 m = E5A m := by
  funext c b; show Gen.V5 m (outs m) c b = Gen.V5 m (outsA m) c b; rw [V5_outs]

/-- The regions' contents, as the proof data's arrays after the run. -/
theorem outs2_eq (c : Dev nD) : outs m 2 main_v16 c = (dat0 (E1 m) c).arrAt 2 cfg0.N := outs_16 m 2 c
theorem outs6_eq (c : Dev nD) : outs m 6 main_v56 c = (dat1 (E5 m) c).arrAt 2 cfg1.N := by
  rw [outs_56, E5_eq]; rfl

/-- A region's exit contents at its output array are what it leaves there. -/
theorem E2_16 (c : Dev nD) : E2 m c main_v16 = outs m 2 main_v16 c := by
  show Function.update (Gen.V1 m c) _ _ _ = _
  exact Function.update_self _ _ _
theorem E6_56 (c : Dev nD) : E6 m c main_v56 = outs m 6 main_v56 c := by
  show Function.update (Gen.V5 m (outs m) c) _ _ _ = _
  exact Function.update_self _ _ _

/-- At region 0's exit each of its arrays holds what the pipeline leaves and every other buffer what it held at entry. -/
theorem hF0 (c : Dev nD) (w : Fin cfg0.W) : (dat0 (E1 m) c).arrAt w cfg0.N = E2 m c (Pipeline.arrRef spec0 w) :=
  match w with
  | ⟨0, _⟩ => (((dat0 (E1 m) c).arrAt_in 0 rfl _).trans (A_eq0 (E1 m) c 0)).trans (Gen.V2_of m (outs m) c main_arg0 (by decide)).symm
  | ⟨1, _⟩ => (((dat0 (E1 m) c).arrAt_in 1 rfl _).trans (A_eq0 (E1 m) c 1)).trans (Gen.V2_of m (outs m) c main_v15 (by decide)).symm
  | ⟨2, _⟩ => (outs2_eq m c).symm.trans (E2_16 m c).symm
theorem hrest0 (c : Dev nD) : ∀ b, b ∉ Finset.univ.image (Pipeline.arrRef spec0) → E2 m c b = E1 m c b :=
  fun b hb => Gen.V2_of m (outs m) c b fun h => hb (Finset.mem_image.mpr ⟨2, Finset.mem_univ _, (List.mem_singleton.mp h).symm⟩)

theorem hF1 (c : Dev nD) (w : Fin cfg1.W) : (dat1 (E5 m) c).arrAt w cfg1.N = E6 m c (Pipeline.arrRef spec1 w) :=
  match w with
  | ⟨0, _⟩ => (((dat1 (E5 m) c).arrAt_in 0 rfl _).trans (A_eq1 (E5 m) c 0)).trans (Gen.V6_of m (outs m) c main_v50 (by decide)).symm
  | ⟨1, _⟩ => (((dat1 (E5 m) c).arrAt_in 1 rfl _).trans (A_eq1 (E5 m) c 1)).trans (Gen.V6_of m (outs m) c main_v55 (by decide)).symm
  | ⟨2, _⟩ => (outs6_eq m c).symm.trans (E6_56 m c).symm
theorem hrest1 (c : Dev nD) : ∀ b, b ∉ Finset.univ.image (Pipeline.arrRef spec1) → E6 m c b = E5 m c b :=
  fun b hb => Gen.V6_of m (outs m) c b fun h => hb (Finset.mem_image.mpr ⟨2, Finset.mem_univ _, (List.mem_singleton.mp h).symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

set_option backward.isDefEq.respectTransparency.types false in
/-- REGION 0 over the thread state: entered from every unscoped buffer at `Gen.V1`, left at `Gen.V2`. Its arrays
    split out of the unscoped buffers and put back at the exit contents; the generator register into the class invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `Gen.V5`, left at `Gen.V6`. Its arrays
    split out of the unscoped buffers and put back at the exit contents; the generator register into the class invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- THE RUN: every weakly fair execution of @main terminates, every final memory holds the result buffer at the fold of the
    host stretches over what the two regions leave, and each argument as launched. -/
theorem run (ρ : Dev nD → PrngReg) : θ_run defs (onTc (τ := τ) (main (F := F))) ⟨m, fun _ => 0, ρ⟩ (fun r => ∀ c : Dev nD,
      r.2.mem ((c.tc : Thread nD τ).loc main_v90) = Gen.V8 m (outs m) c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

/-- THE FRAME: every weakly fair execution of @main terminates and every final memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run m ρ)

end Cert.Kernel.Hand

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefRun.lean ====
/-
  The run of the reference program, a straight line of 127 host operations, written as a list in four windows
  (the first layer, the exponential linear unit, the second layer, the logarithm of the softmax), the two outlined
  functions' bodies listed in place over their own buffers. Every weakly fair execution terminates; the result
  buffer then holds the fold of the operations over the launch contents and the nine arguments are unchanged.
  Each window's result is stated as a plain function of the buffers the window reads.
-/
import proofs.«125320_j11141145166043_2_alg».proof.Proof.Gen.ReferenceIdeal
import proofs.«125320_j11141145166043_2_alg».proof.Proof.LibRunWindows
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first layer: from the two slices of the edge table up to the sum with the bias (51 operations). -/
abbrev ops1 : List (HloOp τ sig (Elt F)) :=
  [ StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000,
    StableHlo.reshape main_arg2 main_v4 rfl shapeCasts_S160000x1_S160000,
    StableHlo.nullary main_c (constantI S_ 32 0#32),
    StableHlo.unary main_c main_v5 (broadcastInDim S160000 ![] bcast_S_S160000 : (⟨S_, .i32⟩ : BufTy).Contents (Elt F) → (⟨S160000, .i32⟩ : BufTy).Contents (Elt F)),
    StableHlo.binary main_v1 main_v5 main_v6 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v7 (broadcastInDim S160000 ![] bcast_S_S160000 : (⟨S_, .i32⟩ : BufTy).Contents (Elt F) → (⟨S160000, .i32⟩ : BufTy).Contents (Elt F)),
    StableHlo.binary main_v1 main_v7 main_v8 (addi : (⟨S160000, .i32⟩ : BufTy).Contents (Elt F) → (⟨S160000, .i32⟩ : BufTy).Contents (Elt F) → (⟨S160000, .i32⟩ : BufTy).Contents (Elt F)),
    StableHlo.ternary main_v6 main_v8 main_v1 main_v9 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v9 main_v10 (broadcastInDim S160000x1 ![0] bcast_S160000_S160000x1_0 : (⟨S160000, .i32⟩ : BufTy).Contents (Elt F) → (⟨S160000x1, .i32⟩ : BufTy).Contents (Elt F)),
    StableHlo.binary main_arg0 main_v10 main_v11 ((fun x i => Host.gather gather_S10000x1433_S160000x1_S160000x1433_1_0_n_n_0_1_11433 x i) : (⟨S10000x1433, .f32⟩ : BufTy).Contents (Elt F) → (⟨S160000x1, .i32⟩ : BufTy).Contents (Elt F) → (⟨S160000x1433, .f32⟩ : BufTy).Contents (Elt F)),
    StableHlo.nullary main_cst (constant S_ .f32 0x3F800000#32),
    StableHlo.unary main_cst main_v12 (broadcastInDim S160000 ![] bcast_S_S160000 : (⟨S_, .f32⟩ : BufTy).Contents (Elt F) → (⟨S160000, .f32⟩ : BufTy).Contents (Elt F)),
    StableHlo.binary main_v12 main_v4 main_v13 (subf : (⟨S160000, .f32⟩ : BufTy).Contents (Elt F) → (⟨S160000, .f32⟩ : BufTy).Contents (Elt F) → (⟨S160000, .f32⟩ : BufTy).Contents (Elt F)),
    StableHlo.unary main_v13 main_v14 (broadcastInDim S160000x1 ![0] bcast_S160000_S160000x1_0 : (⟨S160000, .f32⟩ : BufTy).Contents (Elt F) → (⟨S160000x1, .f32⟩ : BufTy).Contents (Elt F)),
    StableHlo.unary main_v14 main_v15 (broadcastInDim S160000x1433 ![0, 1] bcast_S160000x1_S160000x1433_0_1 : (⟨S160000x1, .f32⟩ : BufTy).Contents (Elt F) → (⟨S160000x1433, .f32⟩ : BufTy).Contents (Elt F)),
    StableHlo.binary main_v11 main_v15 main_v16 (mulf : (⟨S160000x1433, .f32⟩ : BufTy).Contents (Elt F) → (⟨S160000x1433, .f32⟩ : BufTy).Contents (Elt F) → (⟨S160000x1433, .f32⟩ : BufTy).Contents (Elt F)),
    StableHlo.unary main_arg3 main_v17 ((extractStridedSlice S1x1433x16 ![0, 0, 0] · slices_S2x1433x16_S1x1433x16_0_0_0) : (⟨S2x1433x16, .f32⟩ : BufTy).Contents (Elt F) → (⟨S1x1433x16, .f32⟩ : BufTy).Contents (Elt F)),
    StableHlo.reshape main_v17 main_v18 rfl shapeCasts_S1x1433x16_S1433x16,
    StableHlo.binary main_v16 main_v18 main_v19 ((fun l r => Host.dotGeneral dot_S160000x1433_S1433x16_S160000x16_1_0_0_1_n_n none l r) : (⟨S160000x1433, .f32⟩ : BufTy).Contents (Elt F) → (⟨S1433x16, .f32⟩ : BufTy).Contents (Elt F) → (⟨S160000x16, .f32⟩ : BufTy).Contents (Elt F)),
    StableHlo.unary main_v4 main_v20 (broadcastInDim S160000x1 ![0] bcast_S160000_S160000x1_0 : (⟨S160000, .f32⟩ : BufTy).Contents (Elt F) → (⟨S160000x1, .f32⟩ : BufTy).Contents (Elt F)),
    StableHlo.unary main_v20 main_v21 (broadcastInDim S160000x1433 ![0, 1] bcast_S160000x1_S160000x1433_0_1 : (⟨S160000x1, .f32⟩ : BufTy).Contents (Elt F) → (⟨S160000x1433, .f32⟩ : BufTy).Contents (Elt F)),
    StableHlo.binary main_v11 main_v21 main_v22 (mulf : (⟨S160000x1433, .f32⟩ : BufTy).Contents (Elt F) → (⟨S160000x1433, .f32⟩ : BufTy).Contents (Elt F) → (⟨S160000x1433, .f32⟩ : BufTy).Contents (Elt F)),
    StableHlo.unary main_arg3 main_v23 ((extractStridedSlice S1x1433x16 ![1, 0, 0] · slices_S2x1433x16_S1x1433x16_1_0_0) : (⟨S2x1433x16, .f32⟩ : BufTy).Contents (Elt F) → (⟨S1x1433x16, .f32⟩ : BufTy).Contents (Elt F)),
    StableHlo.reshape main_v23 main_v24 rfl shapeCasts_S1x1433x16_S1433x16,
    StableHlo.binary main_v22 main_v24 main_v25 ((fun l r => Host.dotGeneral dot_S160000x1433_S1433x16_S160000x16_1_0_0_1_n_n none l r) : (⟨S160000x1433, .f32⟩ : BufTy).Contents (Elt F) → (⟨S1433x16, .f32⟩ : BufTy).Contents (Elt F) → (⟨S160000x16, .f32⟩ : BufTy).Contents (Elt F)),
    StableHlo.binary main_v19 main_v25 main_v26 (addf : (⟨S160000x16, .f32⟩ : BufTy).Contents (Elt F) → (⟨S160000x16, .f32⟩ : BufTy).Contents (Elt F) → (⟨S160000x16, .f32⟩ : BufTy).Contents (Elt F)),
    StableHlo.nullary main_cst_1 (constant S_ .f32 0x00000000#32),
    StableHlo.unary main_cst_1 main_v27 (broadcastInDim S10000x16 ![] bcast_S_S10000x16 : (⟨S_, .f32⟩ : BufTy).Contents (Elt F) → (⟨S10000x16, .f32⟩ : BufTy).Contents (Elt F)),
    StableHlo.unary main_v3 main_v28 (broadcastInDim S160000x1 ![0] bcast_S160000_S160000x1_0 : (⟨S160000, .i32⟩ : BufTy).Contents (Elt F) → (⟨S160000x1, .i32⟩ : BufTy).Contents (Elt F)),
    StableHlo.ternary main_v27 main_v28 main_v26 main_v29 ((fun x i u => Host.scatterAdd scatter_S10000x16_S160000x1_S160000x16_1_0_0_1 x i u) : (⟨S10000x16, .f32⟩ : BufTy).Contents (Elt F) → (⟨S160000x1, .i32⟩ : BufTy).Contents (Elt F) → (⟨S160000x16, .f32⟩ : BufTy).Contents (Elt F) → (⟨S10000x16, .f32⟩ : BufTy).Contents (Elt F)),
    StableHlo.nullary main_cst_2 (constant S_ .f32 0x3F800000#32),
    StableHlo.unary main_cst_2 main_v30 (broadcastInDim S160000 ![] bcast_S_S160000 : (⟨S_, .f32⟩ : BufTy).Contents (Elt F) → (⟨S160000, .f32⟩ : BufTy).Contents (Elt F)),
    StableHlo.nullary main_cst_3 (constant S_ .f32 0x00000000#32),
    StableHlo.unary main_cst_3 main_v31 (broadcastInDim S10000 ![] bcast_S_S10000 : (⟨S_, .f32⟩ : BufTy).Contents (Elt F) → (⟨S10000, .f32⟩ : BufTy).Contents (Elt F)),
    StableHlo.unary main_v3 main_v32 (broadcastInDim S160000x1 ![0] bcast_S160000_S160000x1_0 : (⟨S160000, .i32⟩ : BufTy).Contents (Elt F) → (⟨S160000x1, .i32⟩ : BufTy).Contents (Elt F)),
    StableHlo.ternary main_v31 main_v32 main_v30 main_v33 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_4 (constant S_ .f32 0x3F800000#32),
    StableHlo.unary main_cst_4 main_v34 (broadcastInDim S10000 ![] bcast_S_S10000 : (⟨S_, .f32⟩ : BufTy).Contents (Elt F) → (⟨S10000, .f32⟩ : BufTy).Contents (Elt F)),
    StableHlo.binary main_v33 main_v34 main_v35 (maximumf : (⟨S10000, .f32⟩ : BufTy).Contents (Elt F) → (⟨S10000, .f32⟩ : BufTy).Contents (Elt F) → (⟨S10000, .f32⟩ : BufTy).Contents (Elt F)),
    StableHlo.unary main_v35 main_v36 (broadcastInDim S10000x1 ![0] bcast_S10000_S10000x1_0 : (⟨S10000, .f32⟩ : BufTy).Contents (Elt F) → (⟨S10000x1, .f32⟩ : BufTy).Contents (Elt F)),
    StableHlo.unary main_v36 main_v37 (broadcastInDim S10000x16 ![0, 1] bcast_S10000x1_S10000x16_0_1 : (⟨S10000x1, .f32⟩ : BufTy).Contents (Elt F) → (⟨S10000x16, .f32⟩ : BufTy).Contents (Elt F)),
    StableHlo.binary main_v29 main_v37 main_v38 (Host.divf : (⟨S10000x16, .f32⟩ : BufTy).Contents (Elt F) → (⟨S10000x16, .f32⟩ : BufTy).Contents (Elt F) → (⟨S10000x16, .f32⟩ : BufTy).Contents (Elt F)),
    StableHlo.binary main_arg0 main_arg4 main_v39 ((fun l r => Host.dotGeneral dot_S10000x1433_S1433x16_S10000x16_1_0_0_1_n_n none l r) : (⟨S10000x1433, .f32⟩ : BufTy).Contents (Elt F) → (⟨S1433x16, .f32⟩ : BufTy).Contents (Elt F) → (⟨S10000x16, .f32⟩ : BufTy).Contents (Elt F)),
    StableHlo.binary main_v38 main_v39 main_v40 (addf : (⟨S10000x16, .f32⟩ : BufTy).Contents (Elt F) → (⟨S10000x16, .f32⟩ : BufTy).Contents (Elt F) → (⟨S10000x16, .f32⟩ : BufTy).Contents (Elt F)),
    StableHlo.unary main_arg5 main_v41 (broadcastInDim S1x16 ![1] bcast_S16_S1x16_1 : (⟨S16, .f32⟩ : BufTy).Contents (Elt F) → (⟨S1x16, .f32⟩ : BufTy).Contents (Elt F)),
    StableHlo.unary main_v41 main_v42 (broadcastInDim S10000x16 ![0, 1] bcast_S1x16_S10000x16_0_1 : (⟨S1x16, .f32⟩ : BufTy).Contents (Elt F) → (⟨S10000x16, .f32⟩ : BufTy).Contents (Elt F)),
    StableHlo.binary main_v40 main_v42 main_v43 (addf : (⟨S10000x16, .f32⟩ : BufTy).Contents (Elt F) → (⟨S10000x16, .f32⟩ : BufTy).Contents (Elt F) → (⟨S10000x16, .f32⟩ : BufTy).Contents (Elt F)) ]

set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

set_option maxRecDepth 8192 in
theorem ops1_fresh : (ops1 : List (HloOp τ sig (Elt F))).Forall fun op => op.fresh = ∅ := by
  simp only [List.Forall]; repeat' constructor

/-- The buffers that the operations of `ops1` write. -/
abbrev ops1_W : List (Ref sig .tc) := [main_v0, main_v1, main_v2, main_v3, main_v4, main_c, main_v5, main_v6, main_c_0, main_v7, main_v8, main_v9, main_v10, main_v11, main_cst, main_v12, main_v13, main_v14, main_v15, main_v16, main_v17, main_v18, main_v19, main_v20, main_v21, main_v22, main_v23, main_v24, main_v25, main_v26, main_cst_1, main_v27, main_v28, main_v29, main_cst_2, main_v30, main_cst_3, main_v31, main_v32, main_v33, main_cst_4, main_v34, main_v35, main_v36, main_v37, main_v38, main_v39, main_v40, main_v41, main_v42, main_v43]

set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `ops1` does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

/-- The exponential linear unit, its two selects listed in place (15 operations). -/
abbrev opsElu : List (HloOp τ sig (Elt F)) :=
  [ TRef.nullary main_call0.cst (constant S_ .f32 0x00000000#32),
    TRef.unary main_call0.cst main_call0.v0 (broadcastInDim S10000x16 ![] bcast_S_S10000x16),
    TRef.binary (TRef.of main_v43 : TRef sig ⟨S10000x16, .f32⟩) main_call0.v0 main_call0.v1 (cmpf .ogt),
    TRef.nullary main_call0.cst_0 (constant S_ .f32 0x00000000#32),
    TRef.unary main_call0.cst_0 main_call0.v2 (broadcastInDim S10000x16 ![] bcast_S_S10000x16),
    TRef.binary (TRef.of main_v43 : TRef sig ⟨S10000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x16 ![] bcast_S_S10000x16),
    TRef.ternary main_call0.v3 main_call0.call0.v1 (TRef.of main_v43 : TRef sig ⟨S10000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S10000x16 ![] bcast_S_S10000x16),
    TRef.binary main_call0.v6 main_call0.v5 main_call0.v7 mulf,
    TRef.ternary main_call0.v1 (TRef.of main_v43 : TRef sig ⟨S10000x16, .f32⟩) main_call0.v7 main_call0.call1.v0 select ]

set_option maxRecDepth 8192 in
theorem opsElu_sub : (opsElu : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem opsElu_fresh : (opsElu : List (HloOp τ sig (Elt F))).Forall fun op => op.fresh = ∅ := by
  simp only [List.Forall]; repeat' constructor

/-- The buffers that the operations of `opsElu` write. -/
abbrev opsElu_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v44]

set_option maxRecDepth 8192 in
theorem opsElu_writes : (opsElu : List (HloOp τ sig (Elt F))).Forall fun op => op.writes ⊆ (opsElu_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `opsElu` does not write keeps its contents through it. -/
theorem opsElu_keep (V : Valuation τ sig (Elt F)) (r : Ref sig .tc) (h : r ∉ opsElu_W) :
    after opsElu V (Proc.devRef .tc r) = V (Proc.devRef .tc r) :=
  after_of_writes_sub opsElu V opsElu_writes h

/-- The head of the second layer: the source index column normalised again (8 operations). -/
abbrev ops2a : List (HloOp τ sig (Elt F)) :=
  [ StableHlo.nullary main_c_5 (constantI S_ 32 0#32),
    StableHlo.unary main_c_5 main_v45 (broadcastInDim S160000 ![] bcast_S_S160000 : (⟨S_, .i32⟩ : BufTy).Contents (Elt F) → (⟨S160000, .i32⟩ : BufTy).Contents (Elt F)),
    StableHlo.binary main_v1 main_v45 main_v46 (cmpi .slt : (⟨S160000, .i32⟩ : BufTy).Contents (Elt F) → (⟨S160000, .i32⟩ : BufTy).Contents (Elt F) → (⟨S160000, .i1⟩ : BufTy).Contents (Elt F)),
    StableHlo.nullary main_c_6 (constantI S_ 32 10000#32),
    StableHlo.unary main_c_6 main_v47 (broadcastInDim S160000 ![] bcast_S_S160000 : (⟨S_, .i32⟩ : BufTy).Contents (Elt F) → (⟨S160000, .i32⟩ : BufTy).Contents (Elt F)),
    StableHlo.binary main_v1 main_v47 main_v48 (addi : (⟨S160000, .i32⟩ : BufTy).Contents (Elt F) → (⟨S160000, .i32⟩ : BufTy).Contents (Elt F) → (⟨S160000, .i32⟩ : BufTy).Contents (Elt F)),
    StableHlo.ternary main_v46 main_v48 main_v1 main_v49 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v49 main_v50 (broadcastInDim S160000x1 ![0] bcast_S160000_S160000x1_0 : (⟨S160000, .i32⟩ : BufTy).Contents (Elt F) → (⟨S160000x1, .i32⟩ : BufTy).Contents (Elt F)) ]

set_option maxRecDepth 8192 in
theorem ops2a_sub : (ops2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

set_option maxRecDepth 8192 in
theorem ops2a_fresh : (ops2a : List (HloOp τ sig (Elt F))).Forall fun op => op.fresh = ∅ := by
  simp only [List.Forall]; repeat' constructor

/-- The buffers that the operations of `ops2a` write. -/
abbrev ops2a_W : List (Ref sig .tc) := [main_c_5, main_v45, main_v46, main_c_6, main_v47, main_v48, main_v49, main_v50]

set_option maxRecDepth 8192 in
theorem ops2a_writes : (ops2a : List (HloOp τ sig (Elt F))).Forall fun op => op.writes ⊆ (ops2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `ops2a` does not write keeps its contents through it. -/
theorem ops2a_keep (V : Valuation τ sig (Elt F)) (r : Ref sig .tc) (h : r ∉ ops2a_W) :
    after ops2a V (Proc.devRef .tc r) = V (Proc.devRef .tc r) :=
  after_of_writes_sub ops2a V ops2a_writes h

/-- The rest of the second layer: from the gather of the hidden rows up to the sum with the bias (38 operations). -/
abbrev ops2b : List (HloOp τ sig (Elt F)) :=
  [ StableHlo.binary main_v44 main_v50 main_v51 ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F)),
    StableHlo.nullary main_cst_7 (constant S_ .f32 0x3F800000#32),
    StableHlo.unary main_cst_7 main_v52 (broadcastInDim S160000 ![] bcast_S_S160000 : (⟨S_, .f32⟩ : BufTy).Contents (Elt F) → (⟨S160000, .f32⟩ : BufTy).Contents (Elt F)),
    StableHlo.binary main_v52 main_v4 main_v53 (subf : (⟨S160000, .f32⟩ : BufTy).Contents (Elt F) → (⟨S160000, .f32⟩ : BufTy).Contents (Elt F) → (⟨S160000, .f32⟩ : BufTy).Contents (Elt F)),
    StableHlo.unary main_v53 main_v54 (broadcastInDim S160000x1 ![0] bcast_S160000_S160000x1_0 : (⟨S160000, .f32⟩ : BufTy).Contents (Elt F) → (⟨S160000x1, .f32⟩ : BufTy).Contents (Elt F)),
    StableHlo.unary main_v54 main_v55 (broadcastInDim S160000x16 ![0, 1] bcast_S160000x1_S160000x16_0_1 : (⟨S160000x1, .f32⟩ : BufTy).Contents (Elt F) → (⟨S160000x16, .f32⟩ : BufTy).Contents (Elt F)),
    StableHlo.binary main_v51 main_v55 main_v56 (mulf : (⟨S160000x16, .f32⟩ : BufTy).Contents (Elt F) → (⟨S160000x16, .f32⟩ : BufTy).Contents (Elt F) → (⟨S160000x16, .f32⟩ : BufTy).Contents (Elt F)),
    StableHlo.unary main_arg6 main_v57 ((extractStridedSlice S1x16x7 ![0, 0, 0] · slices_S2x16x7_S1x16x7_0_0_0) : (⟨S2x16x7, .f32⟩ : BufTy).Contents (Elt F) → (⟨S1x16x7, .f32⟩ : BufTy).Contents (Elt F)),
    StableHlo.reshape main_v57 main_v58 rfl shapeCasts_S1x16x7_S16x7,
    StableHlo.binary main_v56 main_v58 main_v59 ((fun l r => Host.dotGeneral dot_S160000x16_S16x7_S160000x7_1_0_0_1_n_n none l r) : (⟨S160000x16, .f32⟩ : BufTy).Contents (Elt F) → (⟨S16x7, .f32⟩ : BufTy).Contents (Elt F) → (⟨S160000x7, .f32⟩ : BufTy).Contents (Elt F)),
    StableHlo.unary main_v4 main_v60 (broadcastInDim S160000x1 ![0] bcast_S160000_S160000x1_0 : (⟨S160000, .f32⟩ : BufTy).Contents (Elt F) → (⟨S160000x1, .f32⟩ : BufTy).Contents (Elt F)),
    StableHlo.unary main_v60 main_v61 (broadcastInDim S160000x16 ![0, 1] bcast_S160000x1_S160000x16_0_1 : (⟨S160000x1, .f32⟩ : BufTy).Contents (Elt F) → (⟨S160000x16, .f32⟩ : BufTy).Contents (Elt F)),
    StableHlo.binary main_v51 main_v61 main_v62 (mulf : (⟨S160000x16, .f32⟩ : BufTy).Contents (Elt F) → (⟨S160000x16, .f32⟩ : BufTy).Contents (Elt F) → (⟨S160000x16, .f32⟩ : BufTy).Contents (Elt F)),
    StableHlo.unary main_arg6 main_v63 ((extractStridedSlice S1x16x7 ![1, 0, 0] · slices_S2x16x7_S1x16x7_1_0_0) : (⟨S2x16x7, .f32⟩ : BufTy).Contents (Elt F) → (⟨S1x16x7, .f32⟩ : BufTy).Contents (Elt F)),
    StableHlo.reshape main_v63 main_v64 rfl shapeCasts_S1x16x7_S16x7,
    StableHlo.binary main_v62 main_v64 main_v65 ((fun l r => Host.dotGeneral dot_S160000x16_S16x7_S160000x7_1_0_0_1_n_n none l r) : (⟨S160000x16, .f32⟩ : BufTy).Contents (Elt F) → (⟨S16x7, .f32⟩ : BufTy).Contents (Elt F) → (⟨S160000x7, .f32⟩ : BufTy).Contents (Elt F)),
    StableHlo.binary main_v59 main_v65 main_v66 (addf : (⟨S160000x7, .f32⟩ : BufTy).Contents (Elt F) → (⟨S160000x7, .f32⟩ : BufTy).Contents (Elt F) → (⟨S160000x7, .f32⟩ : BufTy).Contents (Elt F)),
    StableHlo.nullary main_cst_8 (constant S_ .f32 0x00000000#32),
    StableHlo.unary main_cst_8 main_v67 (broadcastInDim S10000x7 ![] bcast_S_S10000x7 : (⟨S_, .f32⟩ : BufTy).Contents (Elt F) → (⟨S10000x7, .f32⟩ : BufTy).Contents (Elt F)),
    StableHlo.unary main_v3 main_v68 (broadcastInDim S160000x1 ![0] bcast_S160000_S160000x1_0 : (⟨S160000, .i32⟩ : BufTy).Contents (Elt F) → (⟨S160000x1, .i32⟩ : BufTy).Contents (Elt F)),
    StableHlo.ternary main_v67 main_v68 main_v66 main_v69 ((fun x i u => Host.scatterAdd scatter_S10000x7_S160000x1_S160000x7_1_0_0_1 x i u) : (⟨S10000x7, .f32⟩ : BufTy).Contents (Elt F) → (⟨S160000x1, .i32⟩ : BufTy).Contents (Elt F) → (⟨S160000x7, .f32⟩ : BufTy).Contents (Elt F) → (⟨S10000x7, .f32⟩ : BufTy).Contents (Elt F)),
    StableHlo.nullary main_cst_9 (constant S_ .f32 0x3F800000#32),
    StableHlo.unary main_cst_9 main_v70 (broadcastInDim S160000 ![] bcast_S_S160000 : (⟨S_, .f32⟩ : BufTy).Contents (Elt F) → (⟨S160000, .f32⟩ : BufTy).Contents (Elt F)),
    StableHlo.nullary main_cst_10 (constant S_ .f32 0x00000000#32),
    StableHlo.unary main_cst_10 main_v71 (broadcastInDim S10000 ![] bcast_S_S10000 : (⟨S_, .f32⟩ : BufTy).Contents (Elt F) → (⟨S10000, .f32⟩ : BufTy).Contents (Elt F)),
    StableHlo.unary main_v3 main_v72 (broadcastInDim S160000x1 ![0] bcast_S160000_S160000x1_0 : (⟨S160000, .i32⟩ : BufTy).Contents (Elt F) → (⟨S160000x1, .i32⟩ : BufTy).Contents (Elt F)),
    StableHlo.ternary main_v71 main_v72 main_v70 main_v73 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_11 (constant S_ .f32 0x3F800000#32),
    StableHlo.unary main_cst_11 main_v74 (broadcastInDim S10000 ![] bcast_S_S10000 : (⟨S_, .f32⟩ : BufTy).Contents (Elt F) → (⟨S10000, .f32⟩ : BufTy).Contents (Elt F)),
    StableHlo.binary main_v73 main_v74 main_v75 (maximumf : (⟨S10000, .f32⟩ : BufTy).Contents (Elt F) → (⟨S10000, .f32⟩ : BufTy).Contents (Elt F) → (⟨S10000, .f32⟩ : BufTy).Contents (Elt F)),
    StableHlo.unary main_v75 main_v76 (broadcastInDim S10000x1 ![0] bcast_S10000_S10000x1_0 : (⟨S10000, .f32⟩ : BufTy).Contents (Elt F) → (⟨S10000x1, .f32⟩ : BufTy).Contents (Elt F)),
    StableHlo.unary main_v76 main_v77 (broadcastInDim S10000x7 ![0, 1] bcast_S10000x1_S10000x7_0_1 : (⟨S10000x1, .f32⟩ : BufTy).Contents (Elt F) → (⟨S10000x7, .f32⟩ : BufTy).Contents (Elt F)),
    StableHlo.binary main_v69 main_v77 main_v78 (Host.divf : (⟨S10000x7, .f32⟩ : BufTy).Contents (Elt F) → (⟨S10000x7, .f32⟩ : BufTy).Contents (Elt F) → (⟨S10000x7, .f32⟩ : BufTy).Contents (Elt F)),
    StableHlo.binary main_v44 main_arg7 main_v79 ((fun l r => Host.dotGeneral dot_S10000x16_S16x7_S10000x7_1_0_0_1_n_n none l r) : (⟨S10000x16, .f32⟩ : BufTy).Contents (Elt F) → (⟨S16x7, .f32⟩ : BufTy).Contents (Elt F) → (⟨S10000x7, .f32⟩ : BufTy).Contents (Elt F)),
    StableHlo.binary main_v78 main_v79 main_v80 (addf : (⟨S10000x7, .f32⟩ : BufTy).Contents (Elt F) → (⟨S10000x7, .f32⟩ : BufTy).Contents (Elt F) → (⟨S10000x7, .f32⟩ : BufTy).Contents (Elt F)),
    StableHlo.unary main_arg8 main_v81 (broadcastInDim S1x7 ![1] bcast_S7_S1x7_1 : (⟨S7, .f32⟩ : BufTy).Contents (Elt F) → (⟨S1x7, .f32⟩ : BufTy).Contents (Elt F)),
    StableHlo.unary main_v81 main_v82 (broadcastInDim S10000x7 ![0, 1] bcast_S1x7_S10000x7_0_1 : (⟨S1x7, .f32⟩ : BufTy).Contents (Elt F) → (⟨S10000x7, .f32⟩ : BufTy).Contents (Elt F)),
    StableHlo.binary main_v80 main_v82 main_v83 (addf : (⟨S10000x7, .f32⟩ : BufTy).Contents (Elt F) → (⟨S10000x7, .f32⟩ : BufTy).Contents (Elt F) → (⟨S10000x7, .f32⟩ : BufTy).Contents (Elt F)) ]

set_option maxRecDepth 8192 in
theorem ops2b_sub : (ops2b : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

set_option maxRecDepth 8192 in
theorem ops2b_fresh : (ops2b : List (HloOp τ sig (Elt F))).Forall fun op => op.fresh = ∅ := by
  simp only [List.Forall]; repeat' constructor

/-- The buffers that the operations of `ops2b` write. -/
abbrev ops2b_W : List (Ref sig .tc) := [main_v51, main_cst_7, main_v52, main_v53, main_v54, main_v55, main_v56, main_v57, main_v58, main_v59, main_v60, main_v61, main_v62, main_v63, main_v64, main_v65, main_v66, main_cst_8, main_v67, main_v68, main_v69, main_cst_9, main_v70, main_cst_10, main_v71, main_v72, main_v73, main_cst_11, main_v74, main_v75, main_v76, main_v77, main_v78, main_v79, main_v80, main_v81, main_v82, main_v83]

set_option maxRecDepth 8192 in
theorem ops2b_writes : (ops2b : List (HloOp τ sig (Elt F))).Forall fun op => op.writes ⊆ (ops2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `ops2b` does not write keeps its contents through it. -/
theorem ops2b_keep (V : Valuation τ sig (Elt F)) (r : Ref sig .tc) (h : r ∉ ops2b_W) :
    after ops2b V (Proc.devRef .tc r) = V (Proc.devRef .tc r) :=
  after_of_writes_sub ops2b V ops2b_writes h

/-- The second layer (46 operations): its head, then the rest. -/
abbrev ops2 : List (HloOp τ sig (Elt F)) :=
  [ StableHlo.nullary main_c_5 (constantI S_ 32 0#32),
    StableHlo.unary main_c_5 main_v45 (broadcastInDim S160000 ![] bcast_S_S160000 : (⟨S_, .i32⟩ : BufTy).Contents (Elt F) → (⟨S160000, .i32⟩ : BufTy).Contents (Elt F)),
    StableHlo.binary main_v1 main_v45 main_v46 (cmpi .slt : (⟨S160000, .i32⟩ : BufTy).Contents (Elt F) → (⟨S160000, .i32⟩ : BufTy).Contents (Elt F) → (⟨S160000, .i1⟩ : BufTy).Contents (Elt F)),
    StableHlo.nullary main_c_6 (constantI S_ 32 10000#32),
    StableHlo.unary main_c_6 main_v47 (broadcastInDim S160000 ![] bcast_S_S160000 : (⟨S_, .i32⟩ : BufTy).Contents (Elt F) → (⟨S160000, .i32⟩ : BufTy).Contents (Elt F)),
    StableHlo.binary main_v1 main_v47 main_v48 (addi : (⟨S160000, .i32⟩ : BufTy).Contents (Elt F) → (⟨S160000, .i32⟩ : BufTy).Contents (Elt F) → (⟨S160000, .i32⟩ : BufTy).Contents (Elt F)),
    StableHlo.ternary main_v46 main_v48 main_v1 main_v49 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v49 main_v50 (broadcastInDim S160000x1 ![0] bcast_S160000_S160000x1_0 : (⟨S160000, .i32⟩ : BufTy).Contents (Elt F) → (⟨S160000x1, .i32⟩ : BufTy).Contents (Elt F)),
    StableHlo.binary main_v44 main_v50 main_v51 ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F)),
    StableHlo.nullary main_cst_7 (constant S_ .f32 0x3F800000#32),
    StableHlo.unary main_cst_7 main_v52 (broadcastInDim S160000 ![] bcast_S_S160000 : (⟨S_, .f32⟩ : BufTy).Contents (Elt F) → (⟨S160000, .f32⟩ : BufTy).Contents (Elt F)),
    StableHlo.binary main_v52 main_v4 main_v53 (subf : (⟨S160000, .f32⟩ : BufTy).Contents (Elt F) → (⟨S160000, .f32⟩ : BufTy).Contents (Elt F) → (⟨S160000, .f32⟩ : BufTy).Contents (Elt F)),
    StableHlo.unary main_v53 main_v54 (broadcastInDim S160000x1 ![0] bcast_S160000_S160000x1_0 : (⟨S160000, .f32⟩ : BufTy).Contents (Elt F) → (⟨S160000x1, .f32⟩ : BufTy).Contents (Elt F)),
    StableHlo.unary main_v54 main_v55 (broadcastInDim S160000x16 ![0, 1] bcast_S160000x1_S160000x16_0_1 : (⟨S160000x1, .f32⟩ : BufTy).Contents (Elt F) → (⟨S160000x16, .f32⟩ : BufTy).Contents (Elt F)),
    StableHlo.binary main_v51 main_v55 main_v56 (mulf : (⟨S160000x16, .f32⟩ : BufTy).Contents (Elt F) → (⟨S160000x16, .f32⟩ : BufTy).Contents (Elt F) → (⟨S160000x16, .f32⟩ : BufTy).Contents (Elt F)),
    StableHlo.unary main_arg6 main_v57 ((extractStridedSlice S1x16x7 ![0, 0, 0] · slices_S2x16x7_S1x16x7_0_0_0) : (⟨S2x16x7, .f32⟩ : BufTy).Contents (Elt F) → (⟨S1x16x7, .f32⟩ : BufTy).Contents (Elt F)),
    StableHlo.reshape main_v57 main_v58 rfl shapeCasts_S1x16x7_S16x7,
    StableHlo.binary main_v56 main_v58 main_v59 ((fun l r => Host.dotGeneral dot_S160000x16_S16x7_S160000x7_1_0_0_1_n_n none l r) : (⟨S160000x16, .f32⟩ : BufTy).Contents (Elt F) → (⟨S16x7, .f32⟩ : BufTy).Contents (Elt F) → (⟨S160000x7, .f32⟩ : BufTy).Contents (Elt F)),
    StableHlo.unary main_v4 main_v60 (broadcastInDim S160000x1 ![0] bcast_S160000_S160000x1_0 : (⟨S160000, .f32⟩ : BufTy).Contents (Elt F) → (⟨S160000x1, .f32⟩ : BufTy).Contents (Elt F)),
    StableHlo.unary main_v60 main_v61 (broadcastInDim S160000x16 ![0, 1] bcast_S160000x1_S160000x16_0_1 : (⟨S160000x1, .f32⟩ : BufTy).Contents (Elt F) → (⟨S160000x16, .f32⟩ : BufTy).Contents (Elt F)),
    StableHlo.binary main_v51 main_v61 main_v62 (mulf : (⟨S160000x16, .f32⟩ : BufTy).Contents (Elt F) → (⟨S160000x16, .f32⟩ : BufTy).Contents (Elt F) → (⟨S160000x16, .f32⟩ : BufTy).Contents (Elt F)),
    StableHlo.unary main_arg6 main_v63 ((extractStridedSlice S1x16x7 ![1, 0, 0] · slices_S2x16x7_S1x16x7_1_0_0) : (⟨S2x16x7, .f32⟩ : BufTy).Contents (Elt F) → (⟨S1x16x7, .f32⟩ : BufTy).Contents (Elt F)),
    StableHlo.reshape main_v63 main_v64 rfl shapeCasts_S1x16x7_S16x7,
    StableHlo.binary main_v62 main_v64 main_v65 ((fun l r => Host.dotGeneral dot_S160000x16_S16x7_S160000x7_1_0_0_1_n_n none l r) : (⟨S160000x16, .f32⟩ : BufTy).Contents (Elt F) → (⟨S16x7, .f32⟩ : BufTy).Contents (Elt F) → (⟨S160000x7, .f32⟩ : BufTy).Contents (Elt F)),
    StableHlo.binary main_v59 main_v65 main_v66 (addf : (⟨S160000x7, .f32⟩ : BufTy).Contents (Elt F) → (⟨S160000x7, .f32⟩ : BufTy).Contents (Elt F) → (⟨S160000x7, .f32⟩ : BufTy).Contents (Elt F)),
    StableHlo.nullary main_cst_8 (constant S_ .f32 0x00000000#32),
    StableHlo.unary main_cst_8 main_v67 (broadcastInDim S10000x7 ![] bcast_S_S10000x7 : (⟨S_, .f32⟩ : BufTy).Contents (Elt F) → (⟨S10000x7, .f32⟩ : BufTy).Contents (Elt F)),
    StableHlo.unary main_v3 main_v68 (broadcastInDim S160000x1 ![0] bcast_S160000_S160000x1_0 : (⟨S160000, .i32⟩ : BufTy).Contents (Elt F) → (⟨S160000x1, .i32⟩ : BufTy).Contents (Elt F)),
    StableHlo.ternary main_v67 main_v68 main_v66 main_v69 ((fun x i u => Host.scatterAdd scatter_S10000x7_S160000x1_S160000x7_1_0_0_1 x i u) : (⟨S10000x7, .f32⟩ : BufTy).Contents (Elt F) → (⟨S160000x1, .i32⟩ : BufTy).Contents (Elt F) → (⟨S160000x7, .f32⟩ : BufTy).Contents (Elt F) → (⟨S10000x7, .f32⟩ : BufTy).Contents (Elt F)),
    StableHlo.nullary main_cst_9 (constant S_ .f32 0x3F800000#32),
    StableHlo.unary main_cst_9 main_v70 (broadcastInDim S160000 ![] bcast_S_S160000 : (⟨S_, .f32⟩ : BufTy).Contents (Elt F) → (⟨S160000, .f32⟩ : BufTy).Contents (Elt F)),
    StableHlo.nullary main_cst_10 (constant S_ .f32 0x00000000#32),
    StableHlo.unary main_cst_10 main_v71 (broadcastInDim S10000 ![] bcast_S_S10000 : (⟨S_, .f32⟩ : BufTy).Contents (Elt F) → (⟨S10000, .f32⟩ : BufTy).Contents (Elt F)),
    StableHlo.unary main_v3 main_v72 (broadcastInDim S160000x1 ![0] bcast_S160000_S160000x1_0 : (⟨S160000, .i32⟩ : BufTy).Contents (Elt F) → (⟨S160000x1, .i32⟩ : BufTy).Contents (Elt F)),
    StableHlo.ternary main_v71 main_v72 main_v70 main_v73 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_11 (constant S_ .f32 0x3F800000#32),
    StableHlo.unary main_cst_11 main_v74 (broadcastInDim S10000 ![] bcast_S_S10000 : (⟨S_, .f32⟩ : BufTy).Contents (Elt F) → (⟨S10000, .f32⟩ : BufTy).Contents (Elt F)),
    StableHlo.binary main_v73 main_v74 main_v75 (maximumf : (⟨S10000, .f32⟩ : BufTy).Contents (Elt F) → (⟨S10000, .f32⟩ : BufTy).Contents (Elt F) → (⟨S10000, .f32⟩ : BufTy).Contents (Elt F)),
    StableHlo.unary main_v75 main_v76 (broadcastInDim S10000x1 ![0] bcast_S10000_S10000x1_0 : (⟨S10000, .f32⟩ : BufTy).Contents (Elt F) → (⟨S10000x1, .f32⟩ : BufTy).Contents (Elt F)),
    StableHlo.unary main_v76 main_v77 (broadcastInDim S10000x7 ![0, 1] bcast_S10000x1_S10000x7_0_1 : (⟨S10000x1, .f32⟩ : BufTy).Contents (Elt F) → (⟨S10000x7, .f32⟩ : BufTy).Contents (Elt F)),
    StableHlo.binary main_v69 main_v77 main_v78 (Host.divf : (⟨S10000x7, .f32⟩ : BufTy).Contents (Elt F) → (⟨S10000x7, .f32⟩ : BufTy).Contents (Elt F) → (⟨S10000x7, .f32⟩ : BufTy).Contents (Elt F)),
    StableHlo.binary main_v44 main_arg7 main_v79 ((fun l r => Host.dotGeneral dot_S10000x16_S16x7_S10000x7_1_0_0_1_n_n none l r) : (⟨S10000x16, .f32⟩ : BufTy).Contents (Elt F) → (⟨S16x7, .f32⟩ : BufTy).Contents (Elt F) → (⟨S10000x7, .f32⟩ : BufTy).Contents (Elt F)),
    StableHlo.binary main_v78 main_v79 main_v80 (addf : (⟨S10000x7, .f32⟩ : BufTy).Contents (Elt F) → (⟨S10000x7, .f32⟩ : BufTy).Contents (Elt F) → (⟨S10000x7, .f32⟩ : BufTy).Contents (Elt F)),
    StableHlo.unary main_arg8 main_v81 (broadcastInDim S1x7 ![1] bcast_S7_S1x7_1 : (⟨S7, .f32⟩ : BufTy).Contents (Elt F) → (⟨S1x7, .f32⟩ : BufTy).Contents (Elt F)),
    StableHlo.unary main_v81 main_v82 (broadcastInDim S10000x7 ![0, 1] bcast_S1x7_S10000x7_0_1 : (⟨S1x7, .f32⟩ : BufTy).Contents (Elt F) → (⟨S10000x7, .f32⟩ : BufTy).Contents (Elt F)),
    StableHlo.binary main_v80 main_v82 main_v83 (addf : (⟨S10000x7, .f32⟩ : BufTy).Contents (Elt F) → (⟨S10000x7, .f32⟩ : BufTy).Contents (Elt F) → (⟨S10000x7, .f32⟩ : BufTy).Contents (Elt F)) ]

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

set_option maxRecDepth 8192 in
theorem ops2_fresh : (ops2 : List (HloOp τ sig (Elt F))).Forall fun op => op.fresh = ∅ := by
  simp only [List.Forall]; repeat' constructor

/-- The buffers that the operations of `ops2` write. -/
abbrev ops2_W : List (Ref sig .tc) := [main_c_5, main_v45, main_v46, main_c_6, main_v47, main_v48, main_v49, main_v50, main_v51, main_cst_7, main_v52, main_v53, main_v54, main_v55, main_v56, main_v57, main_v58, main_v59, main_v60, main_v61, main_v62, main_v63, main_v64, main_v65, main_v66, main_cst_8, main_v67, main_v68, main_v69, main_cst_9, main_v70, main_cst_10, main_v71, main_v72, main_v73, main_cst_11, main_v74, main_v75, main_v76, main_v77, main_v78, main_v79, main_v80, main_v81, main_v82, main_v83]

set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `ops2` does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

/-- The logarithm of the softmax along each row (15 operations). -/
abbrev opsLsm : List (HloOp τ sig (Elt F)) :=
  [ TRef.nullary main_call1.cst (constant S_ .f32 0xFF800000#32),
    TRef.binary (TRef.of main_v83 : TRef sig ⟨S10000x7, .f32⟩) main_call1.cst main_call1.v0 (fun x v => Host.reduce FloatOps.maximumf x v reducesTo_S10000x7_S10000_d1 h_S_),
    TRef.nullary main_call1.cst_0 (constant S_ .f32 0xFF800000#32),
    TRef.unary main_call1.cst_0 main_call1.v1 (broadcastInDim S10000 ![] bcast_S_S10000),
    TRef.binary main_call1.v1 main_call1.v0 main_call1.v2 maximumf,
    TRef.unary main_call1.v2 main_call1.v3 (broadcastInDim S10000x1 ![0] bcast_S10000_S10000x1_0),
    TRef.unary main_call1.v3 main_call1.v4 (broadcastInDim S10000x7 ![0, 1] bcast_S10000x1_S10000x7_0_1),
    TRef.binary (TRef.of main_v83 : TRef sig ⟨S10000x7, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S10000x7_S10000_d1 h_S_),
    TRef.unary main_call1.v7 main_call1.v8 (broadcastInDim S10000x1 ![0] bcast_S10000_S10000x1_0),
    TRef.unary main_call1.v8 main_call1.v9 Host.log,
    TRef.unary main_call1.v9 main_call1.v10 (broadcastInDim S10000x7 ![0, 1] bcast_S10000x1_S10000x7_0_1),
    TRef.binary main_call1.v5 main_call1.v10 main_call1.v11 subf ]

set_option maxRecDepth 8192 in
theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem opsLsm_fresh : (opsLsm : List (HloOp τ sig (Elt F))).Forall fun op => op.fresh = ∅ := by
  simp only [List.Forall]; repeat' constructor

/-- The buffers that the operations of `opsLsm` write. -/
abbrev opsLsm_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v84]

set_option maxRecDepth 8192 in
theorem opsLsm_writes : (opsLsm : List (HloOp τ sig (Elt F))).Forall fun op => op.writes ⊆ (opsLsm_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `opsLsm` does not write keeps its contents through it. -/
theorem opsLsm_keep (V : Valuation τ sig (Elt F)) (r : Ref sig .tc) (h : r ∉ opsLsm_W) :
    after opsLsm V (Proc.devRef .tc r) = V (Proc.devRef .tc r) :=
  after_of_writes_sub opsLsm V opsLsm_writes h

theorem ops2_eq : (ops2 : List (HloOp τ sig (Elt F))) = ops2a ++ ops2b := rfl

/-- The 127 operations, in order. -/
abbrev ops : List (HloOp τ sig (Elt F)) := ops1 ++ (opsElu ++ (ops2 ++ opsLsm))

set_option maxRecDepth 8192 in
/-- The first printed stretch is the first layer, the unit and the head of the second layer: the functions' definitions
    unfolded at their calls, both sides are one chain of steps once sequencing is reassociated. -/
theorem main_part0_eq (c : Dev nD) : main_part0 (F := F) c = seq (ops1 ++ (opsElu ++ ops2a)) := by
  simp only [main_part0, fn_elu.body, fn_where.body, fn_where_0.body, seq_append, seq, bind_assoc, pure_bind]
  rfl

set_option maxRecDepth 8192 in
/-- The second printed stretch is the rest of the second layer and the logarithm of the softmax. -/
theorem main_part1_eq (c : Dev nD) : main_part1 (F := F) c = seq (ops2b ++ opsLsm) := by
  simp only [main_part1, fn_log_softmax.body, seq_append, seq, bind_assoc, pure_bind]

set_option maxRecDepth 8192 in
theorem main_eq (c : Dev nD) : main (F := F) c = seq ops := by
  rw [show main (F := F) c = (main_part0 (F := F) c >>= fun _ => main_part1 (F := F) c) from rfl, main_part0_eq, main_part1_eq]
  simp only [ops, ops2_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops1_sub (forall_append opsElu_sub (forall_append ops2_sub opsLsm_sub))

theorem ops_fresh : ∀ op ∈ (ops : List (HloOp τ sig (Elt F))), op.fresh = ∅ :=
  List.forall_iff_forall_mem.mp (forall_append ops1_fresh (forall_append opsElu_fresh (forall_append ops2_fresh opsLsm_fresh)))

/-- The fold over the whole line, window by window. -/
theorem after_ops (V : Valuation τ sig (Elt F)) :
    after ops V = after opsLsm (after ops2 (after opsElu (after ops1 V))) := by
  simp only [ops, after_append]

/-- A buffer that no window writes keeps its contents through the whole line. -/
theorem ops_keep (V : Valuation τ sig (Elt F)) (r : Ref sig .tc) (h1 : r ∉ ops1_W) (hE : r ∉ opsElu_W)
    (h2 : r ∉ ops2_W) (hL : r ∉ opsLsm_W) : after ops V (Proc.devRef .tc r) = V (Proc.devRef .tc r) := by
  rw [after_ops, opsLsm_keep _ r hL, ops2_keep _ r h2, opsElu_keep _ r hE, ops1_keep _ r h1]

/-- On every device, for any float values, from any memory with zero counters: every weakly fair execution of the
    program terminates with the result buffer at the fold of the operations over the launch contents and the nine
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = after ops (launchContents m c) (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v84,
      (h c main_arg0).trans (ops_keep (launchContents m c) main_arg0 (by decide) (by decide) (by decide) (by decide)),
      (h c main_arg1).trans (ops_keep (launchContents m c) main_arg1 (by decide) (by decide) (by decide) (by decide)),
      (h c main_arg2).trans (ops_keep (launchContents m c) main_arg2 (by decide) (by decide) (by decide) (by decide)),
      (h c main_arg3).trans (ops_keep (launchContents m c) main_arg3 (by decide) (by decide) (by decide) (by decide)),
      (h c main_arg4).trans (ops_keep (launchContents m c) main_arg4 (by decide) (by decide) (by decide) (by decide)),
      (h c main_arg5).trans (ops_keep (launchContents m c) main_arg5 (by decide) (by decide) (by decide) (by decide)),
      (h c main_arg6).trans (ops_keep (launchContents m c) main_arg6 (by decide) (by decide) (by decide) (by decide)),
      (h c main_arg7).trans (ops_keep (launchContents m c) main_arg7 (by decide) (by decide) (by decide) (by decide)),
      (h c main_arg8).trans (ops_keep (launchContents m c) main_arg8 (by decide) (by decide) (by decide) (by decide))⟩)
    (run_seq scopedRefs_eq scopedSems_eq defs main (fun _ => ops) main_eq (fun _ => ops_sub) m ρ (fun _ => ops_fresh))

end Cert.ReferenceIdeal.Hand

end
-- ==== Proof.RefTerms.lean ====
/-
  The reference's two spline layers as pure functions of arrays (extended reals; every float operation exact):
  the edges' source and target nodes, the start-index column of the row gathers (a negative node number is
  moved up by the node count), the column of scatter indices, the degree vector max(number of edges into a
  node, 1), and one layer in the order gather the source rows, scale them by the two spline weights,
  project by the two basis matrices, add, sum over the edges into each node, divide by the degree, add the root
  projection and the bias.
-/
import proofs.«125320_j11141145166043_2_alg».proof.ReferenceIdeal
import Idealize.ShloMosaic.PureOps.Ideal

noncomputable section

namespace Cert.ReferenceIdeal.RVal

open Cert.ReferenceIdeal Idealize.ShloMosaic

variable [Facts₀]
open Facts₀

/-- Row 0 of the edge list: each edge's source node. -/
def srcR (a1 : IVec S2x160000 32) : IVec S160000 32 :=
  shapeCast S160000 (extractStridedSlice S1x160000 ![0, 0] a1 slices_S2x160000_S1x160000_0_0) shapeCasts_S1x160000_S160000
/-- Row 1 of the edge list: each edge's target node. -/
def dstR (a1 : IVec S2x160000 32) : IVec S160000 32 :=
  shapeCast S160000 (extractStridedSlice S1x160000 ![1, 0] a1 slices_S2x160000_S1x160000_1_0) shapeCasts_S1x160000_S160000
/-- The spline coordinate of each edge, as a vector. -/
def uR (a2 : FVec Ideal S160000x1 .f32) : FVec Ideal S160000 .f32 := shapeCast S160000 a2 shapeCasts_S160000x1_S160000

/-- The start indices of the row gathers: the source node, moved up by 10000 when negative, as a column. -/
def gcolR (src : IVec S160000 32) : IVec S160000x1 32 :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 10000#32))) src)
/-- The scatter indices: the target node, as a column. -/
def dcolR (dst : IVec S160000 32) : IVec S160000x1 32 := broadcastInDim S160000x1 ![0] bcast_S160000_S160000x1_0 dst

/-- The degree vector: ones summed over the edges into each node, at least one. -/
def degR (dst : IVec S160000 32) : FVec Ideal S10000 .f32 :=
  maximumf
    (Host.scatterAdd scatter_S10000_S160000x1_S160000_n_0_0_1
      (broadcastInDim S10000 ![] bcast_S_S10000 (constant (F := Ideal) S_ .f32 0x00000000#32)) (dcolR dst)
      (broadcastInDim S160000 ![] bcast_S_S160000 (constant (F := Ideal) S_ .f32 0x3F800000#32)))
    (broadcastInDim S10000 ![] bcast_S_S10000 (constant (F := Ideal) S_ .f32 0x3F800000#32))

/-- The first layer: 1433 input channels, 16 output channels. -/
def layer1R (a0 : FVec Ideal S10000x1433 .f32) (src dst : IVec S160000 32) (u : FVec Ideal S160000 .f32)
    (a3 : FVec Ideal S2x1433x16 .f32) (a4 : FVec Ideal S1433x16 .f32) (a5 : FVec Ideal S16 .f32) : FVec Ideal S10000x16 .f32 :=
  addf
    (addf
      (Host.divf
        (Host.scatterAdd scatter_S10000x16_S160000x1_S160000x16_1_0_0_1
          (broadcastInDim S10000x16 ![] bcast_S_S10000x16 (constant (F := Ideal) S_ .f32 0x00000000#32)) (dcolR dst)
          (addf
            (Host.dotGeneral dot_S160000x1433_S1433x16_S160000x16_1_0_0_1_n_n none
              (mulf (Host.gather gather_S10000x1433_S160000x1_S160000x1433_1_0_n_n_0_1_11433 a0 (gcolR src))
                (broadcastInDim S160000x1433 ![0, 1] bcast_S160000x1_S160000x1433_0_1
                  (broadcastInDim S160000x1 ![0] bcast_S160000_S160000x1_0
                    (subf (broadcastInDim S160000 ![] bcast_S_S160000 (constant (F := Ideal) S_ .f32 0x3F800000#32)) u))))
              (shapeCast S1433x16 (extractStridedSlice S1x1433x16 ![0, 0, 0] a3 slices_S2x1433x16_S1x1433x16_0_0_0)
                shapeCasts_S1x1433x16_S1433x16))
            (Host.dotGeneral dot_S160000x1433_S1433x16_S160000x16_1_0_0_1_n_n none
              (mulf (Host.gather gather_S10000x1433_S160000x1_S160000x1433_1_0_n_n_0_1_11433 a0 (gcolR src))
                (broadcastInDim S160000x1433 ![0, 1] bcast_S160000x1_S160000x1433_0_1
                  (broadcastInDim S160000x1 ![0] bcast_S160000_S160000x1_0 u)))
              (shapeCast S1433x16 (extractStridedSlice S1x1433x16 ![1, 0, 0] a3 slices_S2x1433x16_S1x1433x16_1_0_0)
                shapeCasts_S1x1433x16_S1433x16))))
        (broadcastInDim S10000x16 ![0, 1] bcast_S10000x1_S10000x16_0_1
          (broadcastInDim S10000x1 ![0] bcast_S10000_S10000x1_0 (degR dst))))
      (Host.dotGeneral dot_S10000x1433_S1433x16_S10000x16_1_0_0_1_n_n none a0 a4))
    (broadcastInDim S10000x16 ![0, 1] bcast_S1x16_S10000x16_0_1 (broadcastInDim S1x16 ![1] bcast_S16_S1x16_1 a5))

/-- The second layer: 16 input channels, 7 output channels. -/
def layer2R (h : FVec Ideal S10000x16 .f32) (src dst : IVec S160000 32) (u : FVec Ideal S160000 .f32)
    (a6 : FVec Ideal S2x16x7 .f32) (a7 : FVec Ideal S16x7 .f32) (a8 : FVec Ideal S7 .f32) : FVec Ideal S10000x7 .f32 :=
  addf
    (addf
      (Host.divf
        (Host.scatterAdd scatter_S10000x7_S160000x1_S160000x7_1_0_0_1
          (broadcastInDim S10000x7 ![] bcast_S_S10000x7 (constant (F := Ideal) S_ .f32 0x00000000#32)) (dcolR dst)
          (addf
            (Host.dotGeneral dot_S160000x16_S16x7_S160000x7_1_0_0_1_n_n none
              (mulf (Host.gather gather_S10000x16_S160000x1_S160000x16_1_0_n_n_0_1_116 h (gcolR src))
                (broadcastInDim S160000x16 ![0, 1] bcast_S160000x1_S160000x16_0_1
                  (broadcastInDim S160000x1 ![0] bcast_S160000_S160000x1_0
                    (subf (broadcastInDim S160000 ![] bcast_S_S160000 (constant (F := Ideal) S_ .f32 0x3F800000#32)) u))))
              (shapeCast S16x7 (extractStridedSlice S1x16x7 ![0, 0, 0] a6 slices_S2x16x7_S1x16x7_0_0_0)
                shapeCasts_S1x16x7_S16x7))
            (Host.dotGeneral dot_S160000x16_S16x7_S160000x7_1_0_0_1_n_n none
              (mulf (Host.gather gather_S10000x16_S160000x1_S160000x16_1_0_n_n_0_1_116 h (gcolR src))
                (broadcastInDim S160000x16 ![0, 1] bcast_S160000x1_S160000x16_0_1
                  (broadcastInDim S160000x1 ![0] bcast_S160000_S160000x1_0 u)))
              (shapeCast S16x7 (extractStridedSlice S1x16x7 ![1, 0, 0] a6 slices_S2x16x7_S1x16x7_1_0_0)
                shapeCasts_S1x16x7_S16x7))))
        (broadcastInDim S10000x7 ![0, 1] bcast_S10000x1_S10000x7_0_1
          (broadcastInDim S10000x1 ![0] bcast_S10000_S10000x1_0 (degR dst))))
      (Host.dotGeneral dot_S10000x16_S16x7_S10000x7_1_0_0_1_n_n none h a7))
    (broadcastInDim S10000x7 ![0, 1] bcast_S1x7_S10000x7_0_1 (broadcastInDim S1x7 ![1] bcast_S7_S1x7_1 a8))

end Cert.ReferenceIdeal.RVal

end
-- ==== Proof.Spec.lean ====
/-
  One spline-convolution layer on a graph, as a formula on the extended reals, in its two arrangements, and the
  law joining them.

  A layer takes node features feat (N nodes, K channels), two basis weight matrices w0, w1 and a root matrix wr
  (K by C), a bias, and per edge e a source node s e, a spline coordinate u e, and the set into n of edges that end in
  node n. Node n, channel c receives
      ( 0 + sum over e in into n of the message of e ) / deg n  +  (feat wr)(n,c)  +  bias c,
  where deg n = max (0 + number of edges into n) 1.
  Projection first: the message is (1 - u e) (feat w0)(s e, c) + u e (feat w1)(s e, c).
  Gather first: the message is sum_k (feat(s e,k) (1 - u e)) w0(k,c) + sum_k (feat(s e,k) u e) w1(k,c).
  For REAL entries the two agree (a real factor moves across a finite sum of reals); on the extended reals
  that move is not valid in general (a negative factor against a sum holding both infinities), which is why
  realness of every entry is carried along, and why a layer's output is shown real again.
-/
import Idealize.ShloMosaic.PureOps.Ideal

noncomputable section

namespace Cert.Spline

open Idealize.ShloMosaic

/-- An extended real that is a real number. -/
def IsR (x : EReal) : Prop := ∃ r : ℝ, x = (r : EReal)

theorem IsR.coe (r : ℝ) : IsR (r : EReal) := ⟨r, rfl⟩
theorem IsR.zero : IsR (0 : EReal) := ⟨0, rfl⟩
theorem IsR.one : IsR (1 : EReal) := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))
/-- A quotient by a nonzero real is the product with its reciprocal. -/
theorem IsR.div {x y : EReal} (hx : IsR x) {b : ℝ} (hb : b ≠ 0) (hy : y = (b : EReal)) : IsR (Ideal.div x y) := by
  subst hy; rw [Ideal.div_coe hb]; exact hx.mul (IsR.coe _)

/-- A real factor moves out of a finite sum of products of reals. -/
theorem sum_scale {K : ℕ} (x w : Fin K → EReal) (a : EReal) (hx : ∀ k, IsR (x k)) (hw : ∀ k, IsR (w k)) (ha : IsR a) :
    ∑ k, (x k * a) * w k = a * ∑ k, x k * w k := by
  choose x' hx' using hx
  choose w' hw' using hw
  obtain ⟨a', rfl⟩ := ha
  have hcoe : ∀ (f : Fin K → ℝ), ∑ k, ((f k : ℝ) : EReal) = ((∑ k, f k : ℝ) : EReal) := by
    intro f
    induction (Finset.univ : Finset (Fin K)) using Finset.induction_on with
    | empty => simp
    | insert i s hi ih => rw [Finset.sum_insert hi, Finset.sum_insert hi, ih, EReal.coe_add]
  have h1 : ∀ k, (x k * (a' : EReal)) * w k = ((x' k * a' * w' k : ℝ) : EReal) := by
    intro k; rw [hx' k, hw' k, ← EReal.coe_mul, ← EReal.coe_mul]
  have h2 : ∀ k, x k * w k = ((x' k * w' k : ℝ) : EReal) := by
    intro k; rw [hx' k, hw' k, ← EReal.coe_mul]
  simp only [h1, h2, hcoe, ← EReal.coe_mul]
  congr 1
  rw [Finset.mul_sum]
  exact Finset.sum_congr rfl fun k _ => by ring

variable {N E K C : ℕ}

/-- The number of edges into a node, at least one, as the programs compute it. -/
def degOf (one zero : EReal) (into : Fin N → Finset (Fin E)) (n : Fin N) : EReal :=
  max (zero + ∑ _e ∈ into n, one) one

/-- The degree is a real number, and not zero. -/
theorem degOf_real (into : Fin N → Finset (Fin E)) (n : Fin N) :
    ∃ b : ℝ, b ≠ 0 ∧ degOf (1 : EReal) (0 : EReal) into n = (b : EReal) := by
  refine ⟨max ((into n).card : ℝ) 1, ?_, ?_⟩
  · have : (1 : ℝ) ≤ max ((into n).card : ℝ) 1 := le_max_right _ _
    intro h; rw [h] at this; norm_num at this
  · unfold degOf
    have hcount : ∀ t : Finset (Fin E), ∑ _e ∈ t, (1 : EReal) = ((t.card : ℝ) : EReal) := by
      intro t
      induction t using Finset.induction_on with
      | empty => simp
      | insert a t ha ih =>
        rw [Finset.sum_insert ha, ih, Finset.card_insert_of_notMem ha, Nat.cast_succ, EReal.coe_add, add_comm]
        rfl
    rw [zero_add, hcount, ← EReal.coe_one]
    exact (EReal.coe_strictMono.monotone.map_max).symm

/-- One layer, projection first. -/
def layerP (feat : Fin N → Fin K → EReal) (w0 w1 wr : Fin K → Fin C → EReal) (bias : Fin C → EReal)
    (u : Fin E → EReal) (one zero : EReal) (s : Fin E → Fin N) (into : Fin N → Finset (Fin E)) (deg : Fin N → EReal)
    (n : Fin N) (c : Fin C) : EReal :=
  Ideal.div (zero + ∑ e ∈ into n,
      ((one - u e) * (∑ k, feat (s e) k * w0 k c) + u e * (∑ k, feat (s e) k * w1 k c))) (deg n)
    + (∑ k, feat n k * wr k c) + bias c

/-- One layer, gather first. -/
def layerG (feat : Fin N → Fin K → EReal) (w0 w1 wr : Fin K → Fin C → EReal) (bias : Fin C → EReal)
    (u : Fin E → EReal) (one zero : EReal) (s : Fin E → Fin N) (into : Fin N → Finset (Fin E)) (deg : Fin N → EReal)
    (n : Fin N) (c : Fin C) : EReal :=
  Ideal.div (zero + ∑ e ∈ into n,
      ((∑ k, (feat (s e) k * (one - u e)) * w0 k c) + (∑ k, (feat (s e) k * u e) * w1 k c))) (deg n)
    + (∑ k, feat n k * wr k c) + bias c

/-- For real features, weights and spline coordinates the two arrangements of a layer agree. -/
theorem layerG_eq_layerP (feat : Fin N → Fin K → EReal) (w0 w1 wr : Fin K → Fin C → EReal) (bias : Fin C → EReal)
    (u : Fin E → EReal) (one zero : EReal) (s : Fin E → Fin N) (into : Fin N → Finset (Fin E)) (deg : Fin N → EReal)
    (hfeat : ∀ n k, IsR (feat n k)) (hw0 : ∀ k c, IsR (w0 k c)) (hw1 : ∀ k c, IsR (w1 k c))
    (hu : ∀ e, IsR (u e)) (hone : IsR one) (n : Fin N) (c : Fin C) :
    layerG feat w0 w1 wr bias u one zero s into deg n c = layerP feat w0 w1 wr bias u one zero s into deg n c := by
  unfold layerG layerP
  have h : ∀ e, (∑ k, (feat (s e) k * (one - u e)) * w0 k c) + (∑ k, (feat (s e) k * u e) * w1 k c)
      = (one - u e) * (∑ k, feat (s e) k * w0 k c) + u e * (∑ k, feat (s e) k * w1 k c) := fun e =>
    congrArg₂ (· + ·)
      (sum_scale (fun k => feat (s e) k) (fun k => w0 k c) (one - u e) (fun k => hfeat (s e) k) (fun k => hw0 k c)
        (hone.sub (hu e)))
      (sum_scale (fun k => feat (s e) k) (fun k => w1 k c) (u e) (fun k => hfeat (s e) k) (fun k => hw1 k c) (hu e))
  simp only [h]

/-- A layer's output on real data, with the degree the programs compute, is real. -/
theorem layerP_real (feat : Fin N → Fin K → EReal) (w0 w1 wr : Fin K → Fin C → EReal) (bias : Fin C → EReal)
    (u : Fin E → EReal) (s : Fin E → Fin N) (into : Fin N → Finset (Fin E))
    (hfeat : ∀ n k, IsR (feat n k)) (hw0 : ∀ k c, IsR (w0 k c)) (hw1 : ∀ k c, IsR (w1 k c)) (hwr : ∀ k c, IsR (wr k c))
    (hb : ∀ c, IsR (bias c)) (hu : ∀ e, IsR (u e)) (n : Fin N) (c : Fin C) :
    IsR (layerP feat w0 w1 wr bias u 1 0 s into (degOf 1 0 into) n c) := by
  unfold layerP
  obtain ⟨b, hb0, hdeg⟩ := degOf_real into n
  refine ((IsR.div ?_ hb0 hdeg).add ?_).add (hb c)
  · refine IsR.zero.add (IsR.sum _ _ fun e _ => ?_)
    exact ((IsR.one.sub (hu e)).mul (IsR.sum _ _ fun k _ => (hfeat _ k).mul (hw0 k c))).add
      ((hu e).mul (IsR.sum _ _ fun k _ => (hfeat _ k).mul (hw1 k c)))
  · exact IsR.sum _ _ fun k _ => (hfeat n k).mul (hwr k c)

end Cert.Spline

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.EluReal.lean ====
/-
  The exponential linear unit on the extended reals, as the programs spell it, keeps real numbers real.

  On one entry x the unit is   select (x > 0) x (1 * (exp (select (x > 0) 0 x) - 1)),   its 0 and 1 written as the
  32-bit words 0x00000000 and 0x3F800000: where x > 0 it is x, elsewhere 1 * (exp x - 1); for a real x both are reals
  (the exponential of a real is a real).

    * `exp_real`: the exponential of a real is a real; `zero_eq`, `one_eq`: the two words are 0 and 1.
    * `elu_real`: the unit at a real entry is a real.
    * `eluOf`, `eluOf_apply`, `eluOf_real`: the fifteen array operations of the unit over any shape (three splat zeros,
      two comparisons, a conversion that is the identity, a select, exponential-minus-one, a splat one, a product, a
      select), what they compute at an index, and that they keep an array of reals an array of reals.
    * `eluTerm`, `eluTerm_apply`, `eluTerm_real`: the same at the shape 10000 by 16 of the reference program.
-/
import proofs.«125320_j11141145166043_2_alg».proof.ReferenceIdeal
import proofs.«125320_j11141145166043_2_alg».proof.Proof.Spec
import proofs.«125320_j11141145166043_2_alg».proof.Proof.LibSpellings
import Idealize.ShloMosaic.PureOps.Ideal
import Idealize.ShloMosaic.PureOps.Ideal.Laws
import Idealize.ShloMosaic.Lib.ValueIdx

noncomputable section

namespace Cert.EluReal

open Idealize.ShloMosaic Cert.Spline

/-- The exponential of a real is a real. -/
theorem exp_real (r : ℝ) : IsR (Ideal.exp (r : EReal)) := ⟨Real.exp r, rfl⟩

/-- The word 0x00000000 is the number 0. -/
theorem zero_eq : Ideal.ofBits .f32 0x00000000#32 = 0 := Ideal.ofBits_zero_f32

/-- The word 0x3F800000 is the number 1. -/
theorem one_eq : Ideal.ofBits .f32 0x3F800000#32 = 1 := Cert.LibSpellings.ofBits_one_f32

/-- The unit at a real entry is a real: x itself where x > 0, else 1 * (exp x - 1). -/
theorem elu_real (x : EReal) (hx : IsR x) :
    IsR (Scalar.select (Ideal.cmp .ogt x (Ideal.ofBits .f32 0x00000000#32)) x
      (Ideal.ofBits .f32 0x3F800000#32 *
        (Ideal.exp (Scalar.select (Ideal.cmp .ogt x (Ideal.ofBits .f32 0x00000000#32))
          (Ideal.ofBits .f32 0x00000000#32) x) - 1))) := by
  obtain ⟨r, rfl⟩ := hx
  unfold Scalar.select
  by_cases hc : Ideal.cmp .ogt (r : EReal) (Ideal.ofBits .f32 0x00000000#32) = 1
  · rw [if_pos hc]; exact IsR.coe r
  · rw [if_neg hc, if_neg hc, one_eq]
    exact IsR.one.mul ((exp_real r).sub IsR.one)

/-- The unit's fifteen array operations, over any shape: `hb` is the broadcast of a scalar to that shape. -/
def eluOf {s : Shape} (hb : (⟨0, ![]⟩ : Shape).BroadcastsInDim s (![] : Fin 0 → Fin s.rank)) (x : FVec Ideal s .f32) :
    FVec Ideal s .f32 :=
  let cst : FVec Ideal ⟨0, ![]⟩ .f32 := constant (F := Ideal) ⟨0, ![]⟩ .f32 0x00000000#32
  let v0 : FVec Ideal s .f32 := broadcastInDim s ![] hb cst
  let v1 : IVec s 1 := cmpf .ogt x v0
  let cst_0 : FVec Ideal ⟨0, ![]⟩ .f32 := constant (F := Ideal) ⟨0, ![]⟩ .f32 0x00000000#32
  let v2 : FVec Ideal s .f32 := broadcastInDim s ![] hb cst_0
  let v3 : IVec s 1 := cmpf .ogt x v2
  let cst_1 : FVec Ideal ⟨0, ![]⟩ .f32 := constant (F := Ideal) ⟨0, ![]⟩ .f32 0x00000000#32
  let w0 : FVec Ideal ⟨0, ![]⟩ .f32 := id cst_1
  let w1 : FVec Ideal s .f32 := broadcastInDim s ![] hb w0
  let v4 : FVec Ideal s .f32 := select v3 w1 x
  let v5 : FVec Ideal s .f32 := Host.expm1 v4
  let cst_2 : FVec Ideal ⟨0, ![]⟩ .f32 := constant (F := Ideal) ⟨0, ![]⟩ .f32 0x3F800000#32
  let v6 : FVec Ideal s .f32 := broadcastInDim s ![] hb cst_2
  let v7 : FVec Ideal s .f32 := mulf v6 v5
  select v1 x v7

/-- At an index the fifteen operations compute the unit of the entry there. -/
theorem eluOf_apply {s : Shape} (hb : (⟨0, ![]⟩ : Shape).BroadcastsInDim s (![] : Fin 0 → Fin s.rank))
    (x : FVec Ideal s .f32) (i : s.Idx) :
    eluOf hb x i = Scalar.select (Ideal.cmp .ogt (x i) (Ideal.ofBits .f32 0x00000000#32)) (x i)
      (Ideal.ofBits .f32 0x3F800000#32 *
        (Ideal.exp (Scalar.select (Ideal.cmp .ogt (x i) (Ideal.ofBits .f32 0x00000000#32))
          (Ideal.ofBits .f32 0x00000000#32) (x i)) - 1)) := rfl

/-- They keep an array of reals an array of reals. -/
theorem eluOf_real {s : Shape} (hb : (⟨0, ![]⟩ : Shape).BroadcastsInDim s (![] : Fin 0 → Fin s.rank))
    (x : FVec Ideal s .f32) (hx : ∀ i, IsR (x i)) (i : s.Idx) : IsR (eluOf hb x i) := by
  rw [eluOf_apply]; exact elu_real _ (hx i)

section AtReference

open Cert.ReferenceIdeal Cert.ReferenceIdeal.Facts₀

variable [Cert.ReferenceIdeal.Facts₀]

/-- The fifteen operations at the reference program's shape, 10000 by 16, in its own names. -/
def eluTerm (x : FVec Ideal S10000x16 .f32) : FVec Ideal S10000x16 .f32 :=
  let cst : FVec Ideal S_ .f32 := constant (F := Ideal) S_ .f32 0x00000000#32
  let v0 : FVec Ideal S10000x16 .f32 := broadcastInDim S10000x16 ![] bcast_S_S10000x16 cst
  let v1 : IVec S10000x16 1 := cmpf .ogt x v0
  let cst_0 : FVec Ideal S_ .f32 := constant (F := Ideal) S_ .f32 0x00000000#32
  let v2 : FVec Ideal S10000x16 .f32 := broadcastInDim S10000x16 ![] bcast_S_S10000x16 cst_0
  let v3 : IVec S10000x16 1 := cmpf .ogt x v2
  let cst_1 : FVec Ideal S_ .f32 := constant (F := Ideal) S_ .f32 0x00000000#32
  let w0 : FVec Ideal S_ .f32 := id cst_1
  let w1 : FVec Ideal S10000x16 .f32 := broadcastInDim S10000x16 ![] bcast_S_S10000x16 w0
  let v4 : FVec Ideal S10000x16 .f32 := select v3 w1 x
  let v5 : FVec Ideal S10000x16 .f32 := Host.expm1 v4
  let cst_2 : FVec Ideal S_ .f32 := constant (F := Ideal) S_ .f32 0x3F800000#32
  let v6 : FVec Ideal S10000x16 .f32 := broadcastInDim S10000x16 ![] bcast_S_S10000x16 cst_2
  let v7 : FVec Ideal S10000x16 .f32 := mulf v6 v5
  select v1 x v7

/-- It is the general composition at that shape. -/
theorem eluTerm_eq (x : FVec Ideal S10000x16 .f32) : eluTerm x = eluOf bcast_S_S10000x16 x := rfl

/-- At an index it computes the unit of the entry there. -/
theorem eluTerm_apply (x : FVec Ideal S10000x16 .f32) (i : S10000x16.Idx) :
    eluTerm x i = Scalar.select (Ideal.cmp .ogt (x i) (Ideal.ofBits .f32 0x00000000#32)) (x i)
      (Ideal.ofBits .f32 0x3F800000#32 *
        (Ideal.exp (Scalar.select (Ideal.cmp .ogt (x i) (Ideal.ofBits .f32 0x00000000#32))
          (Ideal.ofBits .f32 0x00000000#32) (x i)) - 1)) := rfl

/-- It keeps an array of reals an array of reals. -/
theorem eluTerm_real (x : FVec Ideal S10000x16 .f32) (hx : ∀ i, IsR (x i)) (i : S10000x16.Idx) :
    IsR (eluTerm x i) := by
  rw [eluTerm_apply]; exact elu_real _ (hx i)

end AtReference

end Cert.EluReal

end
-- ==== Proof.RefChain.lean ====
/-
  The reference program's result as one composed term: each of the four windows of the run computes, at its last
  buffer, a plain function of the buffers it reads (the two spline layers, the exponential linear unit between them,
  the logarithm of the softmax at the end), and the windows chain because a later window's inputs are not written
  in between. Stated on the extended reals, where every float operation is exact.
-/
import proofs.«125320_j11141145166043_2_alg».proof.Proof.RefRun
import proofs.«125320_j11141145166043_2_alg».proof.Proof.RefTerms
import proofs.«125320_j11141145166043_2_alg».proof.Proof.EluReal
import Idealize.ShloMosaic.PureOps.Ideal

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

/-- The exponential linear unit's fifteen operations composed, at 10000 by 16. -/
abbrev ELU (x : FVec Ideal S10000x16 .f32) : FVec Ideal S10000x16 .f32 := Cert.EluReal.eluTerm x

/-- Each row's maximum (a fold from minus infinity), then the maximum with minus infinity. -/
def rowMax (x : FVec Ideal S10000x7 .f32) : FVec Ideal S10000 .f32 :=
  maximumf (broadcastInDim S10000 ![] bcast_S_S10000 (constant (F := Ideal) S_ .f32 0xFF800000#32))
    (Host.reduce (FloatOps.maximumf (F := Ideal) (φ := .f32)) x (constant (F := Ideal) S_ .f32 0xFF800000#32)
      reducesTo_S10000x7_S10000_d1 h_S_)

/-- Each row minus its maximum. -/
def shifted (x : FVec Ideal S10000x7 .f32) : FVec Ideal S10000x7 .f32 :=
  subf x (broadcastInDim S10000x7 ![0, 1] bcast_S10000x1_S10000x7_0_1
    (broadcastInDim S10000x1 ![0] bcast_S10000_S10000x1_0 (rowMax x)))

/-- The logarithm of the softmax along each row: the shifted row minus the logarithm of the sum of its exponentials. -/
def LSM (x : FVec Ideal S10000x7 .f32) : FVec Ideal S10000x7 .f32 :=
  subf (shifted x)
    (broadcastInDim S10000x7 ![0, 1] bcast_S10000x1_S10000x7_0_1
      (Host.log (broadcastInDim S10000x1 ![0] bcast_S10000_S10000x1_0
        (Host.reduceAdd (Host.exp (shifted x)) (constant (F := Ideal) S_ .f32 0x00000000#32)
          reducesTo_S10000x7_S10000_d1 h_S_))))

section Windows

variable (W : Valuation τ sig (Elt Ideal))

set_option maxRecDepth 8192 in
theorem ops1_v1 : after ops1 W (Proc.devRef .tc main_v1) = RVal.srcR (W (Proc.devRef .tc main_arg1)) := by
  after_results_simp
  rfl

set_option maxRecDepth 8192 in
theorem ops1_v3 : after ops1 W (Proc.devRef .tc main_v3) = RVal.dstR (W (Proc.devRef .tc main_arg1)) := by
  after_results_simp
  rfl

set_option maxRecDepth 8192 in
theorem ops1_v4 : after ops1 W (Proc.devRef .tc main_v4) = RVal.uR (W (Proc.devRef .tc main_arg2)) := by
  after_results_simp
  rfl

attribute [local irreducible] Host.gather Host.scatterAdd Host.reduce Host.reduceAdd in
set_option maxRecDepth 8192 in
set_option maxHeartbeats 2000000 in
/-- The first window leaves the first layer of its six arguments in its last buffer. -/
theorem ops1_v43 : after ops1 W (Proc.devRef .tc main_v43)
    = RVal.layer1R (W (Proc.devRef .tc main_arg0)) (RVal.srcR (W (Proc.devRef .tc main_arg1))) (RVal.dstR (W (Proc.devRef .tc main_arg1)))
        (RVal.uR (W (Proc.devRef .tc main_arg2))) (W (Proc.devRef .tc main_arg3)) (W (Proc.devRef .tc main_arg4)) (W (Proc.devRef .tc main_arg5)) := by
  after_results_simp
  rfl

attribute [local irreducible] Host.gather Host.scatterAdd Host.reduce Host.reduceAdd in
set_option maxRecDepth 8192 in
/-- The second window leaves the unit of what the first window's last buffer holds. -/
theorem opsElu_v44 : after opsElu W (Proc.devRef .tc main_v44) = ELU (W (Proc.devRef .tc main_v43)) := by
  after_results
  rfl

attribute [local irreducible] Host.gather Host.scatterAdd Host.reduce Host.reduceAdd in
set_option maxRecDepth 8192 in
set_option maxHeartbeats 2000000 in
/-- The third window leaves the second layer of the unit's result, the edge columns and its three arguments. -/
theorem ops2_v83 : after ops2 W (Proc.devRef .tc main_v83)
    = RVal.layer2R (W (Proc.devRef .tc main_v44)) (W (Proc.devRef .tc main_v1)) (W (Proc.devRef .tc main_v3)) (W (Proc.devRef .tc main_v4))
        (W (Proc.devRef .tc main_arg6)) (W (Proc.devRef .tc main_arg7)) (W (Proc.devRef .tc main_arg8)) := by
  after_results_simp
  rfl

attribute [local irreducible] Host.gather Host.scatterAdd Host.reduce Host.reduceAdd in
set_option maxRecDepth 8192 in
/-- The fourth window leaves the logarithm of the softmax of what the third window's last buffer holds. -/
theorem opsLsm_v84 : after opsLsm W (Proc.devRef .tc main_v84) = LSM (W (Proc.devRef .tc main_v83)) := by
  after_results
  rfl

end Windows

/-- The whole line at the result buffer: the four windows' functions composed over the launch contents. -/
theorem result_eq (V0 : Valuation τ sig (Elt Ideal)) :
    after ops V0 (Proc.devRef .tc main_v84)
      = LSM (RVal.layer2R
          (ELU (RVal.layer1R (V0 (Proc.devRef .tc main_arg0)) (RVal.srcR (V0 (Proc.devRef .tc main_arg1))) (RVal.dstR (V0 (Proc.devRef .tc main_arg1)))
            (RVal.uR (V0 (Proc.devRef .tc main_arg2))) (V0 (Proc.devRef .tc main_arg3)) (V0 (Proc.devRef .tc main_arg4)) (V0 (Proc.devRef .tc main_arg5))))
          (RVal.srcR (V0 (Proc.devRef .tc main_arg1))) (RVal.dstR (V0 (Proc.devRef .tc main_arg1))) (RVal.uR (V0 (Proc.devRef .tc main_arg2)))
          (V0 (Proc.devRef .tc main_arg6)) (V0 (Proc.devRef .tc main_arg7)) (V0 (Proc.devRef .tc main_arg8))) := by
  rw [after_ops, opsLsm_v84, ops2_v83, opsElu_v44, ops1_v43,
    opsElu_keep _ main_v1 (by decide), ops1_v1, opsElu_keep _ main_v3 (by decide), ops1_v3,
    opsElu_keep _ main_v4 (by decide), ops1_v4,
    opsElu_keep _ main_arg6 (by decide), ops1_keep _ main_arg6 (by decide),
    opsElu_keep _ main_arg7 (by decide), ops1_keep _ main_arg7 (by decide),
    opsElu_keep _ main_arg8 (by decide), ops1_keep _ main_arg8 (by decide)]

end Cert.ReferenceIdeal.Hand

end
-- ==== Proof.RefResult.lean ====
/-
  The run of the reference program on the extended reals, with its result written out: the logarithm of the softmax of
  the second spline layer of the exponential linear unit of the first spline layer, each over the launch contents of the
  nine arguments, which the run leaves unchanged.
-/
import proofs.«125320_j11141145166043_2_alg».proof.Proof.RefChain
noncomputable section
namespace Cert.ReferenceIdeal.Hand
open Cert.ReferenceIdeal Cert.ReferenceIdeal.Gen Idealize.ShloMosaic Idealize.ShloMosaic.TcCoe Idealize.SL.Sem Idealize.ShloMosaic.StableHlo

/-- On the extended reals: every weakly fair execution of the reference program terminates with the result buffer at the
    four windows' functions composed over the launch contents of the nine arguments, which are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = LSM (RVal.layer2R
            (ELU (RVal.layer1R (m ((c.tc : Thread nD τ).loc main_arg0)) (RVal.srcR (m ((c.tc : Thread nD τ).loc main_arg1))) (RVal.dstR (m ((c.tc : Thread nD τ).loc main_arg1)))
              (RVal.uR (m ((c.tc : Thread nD τ).loc main_arg2))) (m ((c.tc : Thread nD τ).loc main_arg3)) (m ((c.tc : Thread nD τ).loc main_arg4)) (m ((c.tc : Thread nD τ).loc main_arg5))))
            (RVal.srcR (m ((c.tc : Thread nD τ).loc main_arg1))) (RVal.dstR (m ((c.tc : Thread nD τ).loc main_arg1))) (RVal.uR (m ((c.tc : Thread nD τ).loc main_arg2)))
            (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq (launchContents m c)), (h c).2⟩) (run (F := Ideal) m ρ)

end Cert.ReferenceIdeal.Hand
end
-- ==== Proof.KTerms.lean ====
/-
  The host stretches of the program, each as the composition of its operations' pure functions.

  Two spline-convolution layers: the edge list gives a source and a destination per edge; a layer projects the node
  features (the projection itself is the matrix product a region computes), reads the two projected blocks at each
  edge's source, mixes them with the edge's spline coordinate, sums the messages at each destination, divides by the
  destination's degree (at least one), and adds the root projection and the bias. Between the layers an ELU; after the
  second a row-wise log-softmax. Each definition below is the term the operations compute, in program order; each
  theorem says that the stretch of operations, run from any buffer contents, leaves that term in the named buffer.
-/
import proofs.«125320_j11141145166043_2_alg».proof.Proof.Gen.KernelIdeal.Regions
import Idealize.ShloMosaic.PureOps.Ideal
import Idealize.ShloMosaic.Lib.ValueIdx

set_option maxRecDepth 4000

noncomputable section

namespace Cert.KernelIdeal.KVal

open Idealize.ShloMosaic Idealize.ShloMosaic.TcCoe
open Cert.KernelIdeal Cert.KernelIdeal.Gen

/-- A float array at the ideal values (extended reals), and a 32-bit integer array. -/
abbrev TF (s : Shape) : Type := FVec Ideal s .f32
@[inherit_doc TF] abbrev TI (s : Shape) : Type := IVec s 32

/-! ## The edge list, the degrees, the stacked weights -/

/-- Row 0 of the edge list: the source node of each edge. -/
def srcK (a1 : TI S2x160000) : TI S160000 :=
  shapeCast S160000 (extractStridedSlice S1x160000 ![0, 0] a1 slices_S2x160000_S1x160000_0_0) shapeCasts_S1x160000_S160000

/-- Row 1 of the edge list: the destination node of each edge. -/
def dstK (a1 : TI S2x160000) : TI S160000 :=
  shapeCast S160000 (extractStridedSlice S1x160000 ![1, 0] a1 slices_S2x160000_S1x160000_1_0) shapeCasts_S1x160000_S160000

/-- The destinations as a column of scatter indices. -/
def dcolK (dst : TI S160000) : TI S160000x1 :=
  broadcastInDim S160000x1 ![0] bcast_S160000_S160000x1_0 dst

/-- The sources as a column of gather start indices: a negative index is first moved up by the node count. -/
def gcolK (src : TI S160000) : TI S160000x1 :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 10000#32))) src)

/-- The degree column: the number of edges into each node, at least one. -/
def degColK (dst : TI S160000) : TF S10000x1 :=
  broadcastInDim S10000x1 ![0] bcast_S10000_S10000x1_0
    (maximumf
      (Host.scatterAdd (F := Ideal) scatter_S10000_S160000x1_S160000_n_0_0_1
        (broadcastInDim S10000 ![] bcast_S_S10000 (constant (F := Ideal) S_ .f32 0x00000000#32))
        (dcolK dst)
        (broadcastInDim S160000 ![] bcast_S_S160000 (constant (F := Ideal) S_ .f32 0x3F800000#32)))
      (broadcastInDim S10000 ![] bcast_S_S10000 (constant (F := Ideal) S_ .f32 0x3F800000#32)))

/-- Layer 1's three weight matrices side by side: the two spline bases, then the root. -/
def wcat1 (a3 : TF S2x1433x16) (a4 : TF S1433x16) : TF S1433x48 :=
  concatenate S1433x48 1
    [⟨S1433x16, shapeCast S1433x16 (extractStridedSlice S1x1433x16 ![0, 0, 0] a3 slices_S2x1433x16_S1x1433x16_0_0_0) shapeCasts_S1x1433x16_S1433x16⟩,
     ⟨S1433x16, shapeCast S1433x16 (extractStridedSlice S1x1433x16 ![1, 0, 0] a3 slices_S2x1433x16_S1x1433x16_1_0_0) shapeCasts_S1x1433x16_S1433x16⟩,
     ⟨S1433x16, a4⟩]
    concatenates_S1433x16_S1433x16_S1433x16_S1433x48_d1

/-- Layer 2's three weight matrices side by side. -/
def wcat2 (a6 : TF S2x16x7) (a7 : TF S16x7) : TF S16x21 :=
  concatenate S16x21 1
    [⟨S16x7, shapeCast S16x7 (extractStridedSlice S1x16x7 ![0, 0, 0] a6 slices_S2x16x7_S1x16x7_0_0_0) shapeCasts_S1x16x7_S16x7⟩,
     ⟨S16x7, shapeCast S16x7 (extractStridedSlice S1x16x7 ![1, 0, 0] a6 slices_S2x16x7_S1x16x7_1_0_0) shapeCasts_S1x16x7_S16x7⟩,
     ⟨S16x7, a7⟩]
    concatenates_S16x7_S16x7_S16x7_S16x21_d1

theorem s0_v1 (W : Valuation τ sig (Elt Ideal)) : StableHlo.after hostOps0 W main_v1 = srcK (W main_arg1) := by
  after_results
  rfl

theorem s0_v3 (W : Valuation τ sig (Elt Ideal)) : StableHlo.after hostOps0 W main_v3 = dstK (W main_arg1) := by
  after_results
  rfl

theorem s0_v10 (W : Valuation τ sig (Elt Ideal)) :
    StableHlo.after hostOps0 W main_v10 = degColK (dstK (W main_arg1)) := by
  after_results
  rfl

theorem s0_v15 (W : Valuation τ sig (Elt Ideal)) :
    StableHlo.after hostOps0 W main_v15 = wcat1 (W main_arg3) (W main_arg4) := by
  after_results
  rfl

theorem s12_v55 (W : Valuation τ sig (Elt Ideal)) :
    StableHlo.after hostOps1_2 W main_v55 = wcat2 (W main_arg6) (W main_arg7) := by
  after_results
  rfl

/-! ## Layer 1 -/

/-- The three 16-column blocks of the projected features: first basis, second basis, root. -/
def y0K (y16 : TF S10000x48) : TF S10000x16 :=
  extractStridedSlice S10000x16 ![0, 0] y16 slices_S10000x48_S10000x16_0_0
@[inherit_doc y0K] def y1K (y16 : TF S10000x48) : TF S10000x16 :=
  extractStridedSlice S10000x16 ![0, 16] y16 slices_S10000x48_S10000x16_0_16
@[inherit_doc y0K] def rootK (y16 : TF S10000x48) : TF S10000x16 :=
  extractStridedSlice S10000x16 ![0, 32] y16 slices_S10000x48_S10000x16_0_32

/-- The message of each edge: (1 - u) times the first block at the edge's source plus u times the second. -/
def msg1K (y16 : TF S10000x48) (src : TI S160000) (u : TF S160000x1) : TF S160000x16 :=
  addf
    (mulf
      (broadcastInDim S160000x16 ![0, 1] bcast_S160000x1_S160000x16_0_1
        (subf (broadcastInDim S160000x1 ![] bcast_S_S160000x1 (constant (F := Ideal) S_ .f32 0x3F800000#32)) u))
      (Host.gather gather_S10000x16_S160000x1_S160000x16_1_0_n_n_0_1_116 (y0K y16) (gcolK src)))
    (mulf
      (broadcastInDim S160000x16 ![0, 1] bcast_S160000x1_S160000x16_0_1 u)
      (Host.gather gather_S10000x16_S160000x1_S160000x16_1_0_n_n_0_1_116 (y1K y16) (gcolK src)))

/-- The messages summed at their destinations, from zero. -/
def agg1K (y16 : TF S10000x48) (src dst : TI S160000) (u : TF S160000x1) : TF S10000x16 :=
  Host.scatterAdd (F := Ideal) scatter_S10000x16_S160000x1_S160000x16_1_0_0_1
    (broadcastInDim S10000x16 ![] bcast_S_S10000x16 (constant (F := Ideal) S_ .f32 0x00000000#32))
    (dcolK dst) (msg1K y16 src u)

/-- Layer 1 before its activation: the mean message, plus the root block, plus the bias. -/
def layer1K (y16 : TF S10000x48) (src dst : TI S160000) (u : TF S160000x1) (degcol : TF S10000x1)
    (b : TF S16) : TF S10000x16 :=
  addf
    (addf
      (Host.divf (F := Ideal) (agg1K y16 src dst u)
        (broadcastInDim S10000x16 ![0, 1] bcast_S10000x1_S10000x16_0_1 degcol))
      (rootK y16))
    (broadcastInDim S10000x16 ![0, 1] bcast_S1x16_S10000x16_0_1 (broadcastInDim S1x16 ![1] bcast_S16_S1x16_1 b))

theorem s1_v49 (W : Valuation τ sig (Elt Ideal)) :
    StableHlo.after hostOps1 W main_v49
      = layer1K (W main_v16) (W main_v1) (W main_v3) (W main_arg2) (W main_v10) (W main_arg5) := by
  after_results_simp
  rfl

/-! ## The activation between the layers -/

/-- ELU: x where x > 0, else 1 * (exp z - 1) at z = 0 where x > 0 and x elsewhere. -/
def eluK (x : TF S10000x16) : TF S10000x16 :=
  select (cmpf .ogt x (broadcastInDim S10000x16 ![] bcast_S_S10000x16 (constant (F := Ideal) S_ .f32 0x00000000#32)))
    x
    (mulf (broadcastInDim S10000x16 ![] bcast_S_S10000x16 (constant (F := Ideal) S_ .f32 0x3F800000#32))
      (Host.expm1 (F := Ideal)
        (select (cmpf .ogt x (broadcastInDim S10000x16 ![] bcast_S_S10000x16 (constant (F := Ideal) S_ .f32 0x00000000#32)))
          (broadcastInDim S10000x16 ![] bcast_S_S10000x16 (id (constant (F := Ideal) S_ .f32 0x00000000#32)))
          x)))

theorem s11_v50 (W : Valuation τ sig (Elt Ideal)) : StableHlo.after hostOps1_1 W main_v50 = eluK (W main_v49) := by
  after_results
  rfl

/-! ## Layer 2 -/

/-- The three 7-column blocks of the projected hidden features. -/
def z0K (y56 : TF S10000x21) : TF S10000x7 :=
  extractStridedSlice S10000x7 ![0, 0] y56 slices_S10000x21_S10000x7_0_0
@[inherit_doc z0K] def z1K (y56 : TF S10000x21) : TF S10000x7 :=
  extractStridedSlice S10000x7 ![0, 7] y56 slices_S10000x21_S10000x7_0_7
@[inherit_doc z0K] def zrootK (y56 : TF S10000x21) : TF S10000x7 :=
  extractStridedSlice S10000x7 ![0, 14] y56 slices_S10000x21_S10000x7_0_14

@[inherit_doc msg1K]
def msg2K (y56 : TF S10000x21) (src : TI S160000) (u : TF S160000x1) : TF S160000x7 :=
  addf
    (mulf
      (broadcastInDim S160000x7 ![0, 1] bcast_S160000x1_S160000x7_0_1
        (subf (broadcastInDim S160000x1 ![] bcast_S_S160000x1 (constant (F := Ideal) S_ .f32 0x3F800000#32)) u))
      (Host.gather gather_S10000x7_S160000x1_S160000x7_1_0_n_n_0_1_17 (z0K y56) (gcolK src)))
    (mulf
      (broadcastInDim S160000x7 ![0, 1] bcast_S160000x1_S160000x7_0_1 u)
      (Host.gather gather_S10000x7_S160000x1_S160000x7_1_0_n_n_0_1_17 (z1K y56) (gcolK src)))

@[inherit_doc agg1K]
def agg2K (y56 : TF S10000x21) (src dst : TI S160000) (u : TF S160000x1) : TF S10000x7 :=
  Host.scatterAdd (F := Ideal) scatter_S10000x7_S160000x1_S160000x7_1_0_0_1
    (broadcastInDim S10000x7 ![] bcast_S_S10000x7 (constant (F := Ideal) S_ .f32 0x00000000#32))
    (dcolK dst) (msg2K y56 src u)

/-- Layer 2: the mean message, plus the root block, plus the bias. -/
def layer2K (y56 : TF S10000x21) (src dst : TI S160000) (u : TF S160000x1) (degcol : TF S10000x1)
    (b : TF S7) : TF S10000x7 :=
  addf
    (addf
      (Host.divf (F := Ideal) (agg2K y56 src dst u)
        (broadcastInDim S10000x7 ![0, 1] bcast_S10000x1_S10000x7_0_1 degcol))
      (zrootK y56))
    (broadcastInDim S10000x7 ![0, 1] bcast_S1x7_S10000x7_0_1 (broadcastInDim S1x7 ![1] bcast_S7_S1x7_1 b))

theorem s2_v89 (W : Valuation τ sig (Elt Ideal)) :
    StableHlo.after hostOps2 W main_v89
      = layer2K (W main_v56) (W main_v1) (W main_v3) (W main_arg2) (W main_v10) (W main_arg8) := by
  after_results_simp
  rfl

/-! ## The final log-softmax -/

/-- The logits less their row maximum (the maximum taken from minus infinity, twice). -/
def lsmShiftK (x : TF S10000x7) : TF S10000x7 :=
  subf x
    (broadcastInDim S10000x7 ![0, 1] bcast_S10000x1_S10000x7_0_1
      (broadcastInDim S10000x1 ![0] bcast_S10000_S10000x1_0
        (maximumf
          (broadcastInDim S10000 ![] bcast_S_S10000 (constant (F := Ideal) S_ .f32 0xFF800000#32))
          (Host.reduce (FloatOps.maximumf (F := Ideal)) x (constant (F := Ideal) S_ .f32 0xFF800000#32)
            reducesTo_S10000x7_S10000_d1 h_S_))))

/-- Row-wise log-softmax: the shifted logits less the logarithm of the row sum of their exponentials. -/
def lsmK (x : TF S10000x7) : TF S10000x7 :=
  subf (lsmShiftK x)
    (broadcastInDim S10000x7 ![0, 1] bcast_S10000x1_S10000x7_0_1
      (Host.log (F := Ideal)
        (broadcastInDim S10000x1 ![0] bcast_S10000_S10000x1_0
          (Host.reduceAdd (F := Ideal) (Host.exp (F := Ideal) (lsmShiftK x)) (constant (F := Ideal) S_ .f32 0x00000000#32)
            reducesTo_S10000x7_S10000_d1 h_S_))))

set_option maxRecDepth 100000 in
theorem s21_v90 (W : Valuation τ sig (Elt Ideal)) : StableHlo.after hostOps2_1 W main_v90 = lsmK (W main_v89) := by
  after_results
  rfl

end Cert.KernelIdeal.KVal

end
-- ==== Proof.KChain.lean ====
/-
  The buffers between the regions, as the stretches' terms applied one to the next.

  The contents of the program's buffers are followed through its items: a host stretch rewrites the buffers it writes
  with the terms of its operations, a region replaces its one output buffer, and every other buffer keeps what it held.
  So the result buffer holds the log-softmax of layer 2 of the second region's output, the hidden features are the ELU
  of layer 1 of the first region's output, and the edge list, degrees and stacked weights are the terms of the first
  stretch at the launch contents.
-/
import proofs.«125320_j11141145166043_2_alg».proof.Proof.KTerms

noncomputable section

namespace Cert.KernelIdeal.KVal

open Idealize.ShloMosaic Idealize.ShloMosaic.TcCoe
open Cert.KernelIdeal Cert.KernelIdeal.Gen

variable (m : (ℓ : Loc nD τ sig) → Buf (Elt Ideal) ℓ) (outs : Outs (F := Ideal)) (c : Dev nD)

/-! ## What the first stretch leaves, and that it stays -/

theorem v1_v1 : V1 m c main_v1 = srcK (m (c, main_arg1)) := s0_v1 (V0 m c)
theorem v1_v3 : V1 m c main_v3 = dstK (m (c, main_arg1)) := s0_v3 (V0 m c)
theorem v1_v10 : V1 m c main_v10 = degColK (dstK (m (c, main_arg1))) := s0_v10 (V0 m c)

/-- The stacked weights of layer 1 as the first region reads them. -/
theorem v15_eq : V1 m c main_v15 = wcat1 (m (c, main_arg3)) (m (c, main_arg4)) := s0_v15 (V0 m c)

/-- The node features as the first region reads them. -/
theorem v_arg0 : V1 m c main_arg0 = m (c, main_arg0) := V1_of m c main_arg0 (by decide)

theorem v2_v1 : V2 m outs c main_v1 = srcK (m (c, main_arg1)) := (V2_of m outs c main_v1 (by decide)).trans (v1_v1 m c)
theorem v2_v3 : V2 m outs c main_v3 = dstK (m (c, main_arg1)) := (V2_of m outs c main_v3 (by decide)).trans (v1_v3 m c)
theorem v2_v10 : V2 m outs c main_v10 = degColK (dstK (m (c, main_arg1))) :=
  (V2_of m outs c main_v10 (by decide)).trans (v1_v10 m c)
theorem v2_arg2 : V2 m outs c main_arg2 = m (c, main_arg2) :=
  (V2_of m outs c main_arg2 (by decide)).trans (V1_of m c main_arg2 (by decide))
theorem v2_arg5 : V2 m outs c main_arg5 = m (c, main_arg5) :=
  (V2_of m outs c main_arg5 (by decide)).trans (V1_of m c main_arg5 (by decide))
theorem v2_v16 : V2 m outs c main_v16 = outs 2 main_v16 c := Function.update_self _ _ _

/-- From the first region's output to the second region's input, a buffer no stretch in between writes is unchanged. -/
theorem v6_of_v2 (r : Ref sig .tc) (h3 : r ∉ hostOps1_W) (h4 : r ∉ hostOps1_1_W) (h5 : r ∉ hostOps1_2_W)
    (h6 : r ∉ ([main_v56] : List (Ref sig .tc))) : V6 m outs c r = V2 m outs c r :=
  (V6_of m outs c r h6).trans <| (V5_of m outs c r h5).trans <| (V4_of m outs c r h4).trans (V3_of m outs c r h3)

theorem v6_v1 : V6 m outs c main_v1 = srcK (m (c, main_arg1)) :=
  (v6_of_v2 m outs c main_v1 (by decide) (by decide) (by decide) (by decide)).trans (v2_v1 m outs c)
theorem v6_v3 : V6 m outs c main_v3 = dstK (m (c, main_arg1)) :=
  (v6_of_v2 m outs c main_v3 (by decide) (by decide) (by decide) (by decide)).trans (v2_v3 m outs c)
theorem v6_v10 : V6 m outs c main_v10 = degColK (dstK (m (c, main_arg1))) :=
  (v6_of_v2 m outs c main_v10 (by decide) (by decide) (by decide) (by decide)).trans (v2_v10 m outs c)
theorem v6_arg2 : V6 m outs c main_arg2 = m (c, main_arg2) :=
  (v6_of_v2 m outs c main_arg2 (by decide) (by decide) (by decide) (by decide)).trans (v2_arg2 m outs c)
theorem v6_arg8 : V6 m outs c main_arg8 = m (c, main_arg8) :=
  (v6_of_v2 m outs c main_arg8 (by decide) (by decide) (by decide) (by decide)).trans <|
    (V2_of m outs c main_arg8 (by decide)).trans (V1_of m c main_arg8 (by decide))
theorem v6_v56 : V6 m outs c main_v56 = outs 6 main_v56 c := Function.update_self _ _ _

/-! ## The hidden features, the second stacked weights, the result -/

/-- The hidden features: the ELU of layer 1 of the first region's output. -/
theorem v50_eq : V5 m outs c main_v50
    = eluK (layer1K (outs 2 main_v16 c) (srcK (m (c, main_arg1))) (dstK (m (c, main_arg1))) (m (c, main_arg2))
        (degColK (dstK (m (c, main_arg1)))) (m (c, main_arg5))) := by
  refine (V5_of m outs c main_v50 (by decide)).trans ?_
  refine (s11_v50 (V3 m outs c)).trans ?_
  refine congrArg eluK ?_
  refine (s1_v49 (V2 m outs c)).trans ?_
  rw [v2_v16, v2_v1, v2_v3, v2_arg2, v2_v10, v2_arg5]

/-- The stacked weights of layer 2 as the second region reads them. -/
theorem v55_eq : V5 m outs c main_v55 = wcat2 (m (c, main_arg6)) (m (c, main_arg7)) := by
  refine (s12_v55 (V4 m outs c)).trans ?_
  have h6 : V4 m outs c main_arg6 = m (c, main_arg6) :=
    (V4_of m outs c main_arg6 (by decide)).trans <| (V3_of m outs c main_arg6 (by decide)).trans <|
      (V2_of m outs c main_arg6 (by decide)).trans (V1_of m c main_arg6 (by decide))
  have h7 : V4 m outs c main_arg7 = m (c, main_arg7) :=
    (V4_of m outs c main_arg7 (by decide)).trans <| (V3_of m outs c main_arg7 (by decide)).trans <|
      (V2_of m outs c main_arg7 (by decide)).trans (V1_of m c main_arg7 (by decide))
  rw [h6, h7]

/-- The result: the log-softmax of layer 2 of the second region's output. -/
theorem v90_eq : V8 m outs c main_v90
    = lsmK (layer2K (outs 6 main_v56 c) (srcK (m (c, main_arg1))) (dstK (m (c, main_arg1))) (m (c, main_arg2))
        (degColK (dstK (m (c, main_arg1)))) (m (c, main_arg8))) := by
  refine (s21_v90 (V7 m outs c)).trans ?_
  refine congrArg lsmK ?_
  refine (s2_v89 (V6 m outs c)).trans ?_
  rw [v6_v56, v6_v1, v6_v3, v6_arg2, v6_v10, v6_arg8]

end Cert.KernelIdeal.KVal

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KValue.lean ====
/- What the two kernel regions leave in their output arrays, at the ideal values: each is the plain matrix product of
   the region's two operand arrays as the region finds them, read at an index as a sum over the contracted axis. -/
import proofs.«125320_j11141145166043_2_alg».proof.Proof.KRun
import proofs.«125320_j11141145166043_2_alg».proof.Proof.LibPlainDot
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal.Gen

variable (m : (ℓ : Loc nD τ sig) → Buf (Elt Ideal) ℓ)

theorem hz2 : (![0, 0] : Fin 2 → Nat) = fun _ => 0 := funext fun a => by fin_cases a <;> rfl

/-! ## Region 0 -/

/-- Region 0's operand arrays as the region finds them, as plain functions of the index. -/
abbrev A0 (c : Dev nD) : S10000x1433.Idx → EReal := Gen.V1 m c main_arg0
abbrev B0 (c : Dev nD) : S1433x48.Idx → EReal := Gen.V1 m c main_v15

/-- The product of the two operand arrays, index by index. -/
def G0 (c : Dev nD) : S10000x48.Idx → EReal := fun i =>
  ∑ k : Fin 1433, A0 m c (ix2 (i 0) k) * B0 m c (ix2 k (i 1))

/-- The body's payload is the plain product of its two loaded blocks into a zero accumulator. -/
theorem pay0_eq (x0 : Vec Ideal S2000x1433 .f32) (x1 : Vec Ideal S1433x48 .f32) :
    k0_pay1 x0 x1 = matmul (F := Ideal) (φ₁ := .f32) (φ₂ := .f32) (DotDims.plain 2000 1433 48) none x0 x1 (constant ⟨2, ![2000, 48]⟩ .f32 0x00000000#32) := by
  unfold k0_pay1
  rw [shapeCast_self]
  rfl

/-- The printed index maps, decided over the grid. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product array. -/
theorem flushed0_eq (c : Dev nD) (t : Fin cfg0.N) :
    (dat0 (E1 m) c).flushed 2 t = ((cfg0.win 2).blk t).view.read (Elt Ideal) (G0 m c) := by
  show (cfg0.win 2).cut (grid0.coords t) ((dat0 (E1 m) c).after 2 t) = _
  rw [after0_2]
  unfold out0_2
  rw [View.canon_unit_zero hz2]
  simp only [View.ld_unit_zero (S := S2000x1433) hz2, View.ld_unit_zero (S := S1433x48) hz2]
  rw [pay0_eq]
  obtain ⟨e0, e1, e2, e3, e4, e5⟩ := idx_facts0 t
  funext j
  show matmul (F := Ideal) (φ₁ := .f32) (φ₂ := .f32) (DotDims.plain 2000 1433 48) none (iblk0 (E1 m) c 0 t) (iblk0 (E1 m) c 1 t) (constant ⟨2, ![2000, 48]⟩ .f32 0x00000000#32) j
    = G0 m c (((cfg0.win 2).blk t).view.emb j)
  rw [Cert.LibPlainDot.matmul_plain]
  unfold G0
  refine Finset.sum_congr rfl fun k _ => ?_
  show A0 m c (((cfg0.win 0).blk t).view.emb (ix2 (j 0) k)) * B0 m c (((cfg0.win 1).blk t).view.emb (ix2 k (j 1)))
    = A0 m c (ix2 ((((cfg0.win 2).blk t).view.emb j) 0) k) * B0 m c (ix2 k ((((cfg0.win 2).blk t).view.emb j) 1))
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1433 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 1433 + 1 * k.val = k.val; omega
    | ⟨1, _⟩ => show win0_1.index t (1 : Fin 2) * 48 + 1 * (j 1).val = win0_2.index t (1 : Fin 2) * 48 + 1 * (j 1).val; omega
  exact congrArg₂ (· * ·) (congrArg (A0 m c) h0) (congrArg (B0 m c) h1)

/-- An index of the array is in point `t`'s block iff each coordinate is in the block's range on its axis. -/
theorem mem_blk0 (t : Fin cfg0.N) (i : S10000x48.Idx) :
    i ∈ ((cfg0.win 2).blk t).view.set ↔ ∀ a : Fin 2, win0_2.index t a * S2000x48.size a ≤ (i a).val ∧ (i a).val < win0_2.index t a * S2000x48.size a + S2000x48.size a := by
  show i ∈ ((View.whole main_v16).slice (win0_2.rect t)).set ↔ _
  rw [View.set_slice_whole, Rect.mem_set_unit]
  exact Iff.rfl

/-- Every index of the array is in the block of the point its row falls in. -/
theorem cover0 (i : S10000x48.Idx) : ∃ t : Fin cfg0.N, (cfg0.win 2).flush t = true ∧ i ∈ ((cfg0.win 2).blk t).view.set := by
  have hi0 : (i 0).val < 10000 := (i 0).isLt
  have hi1 : (i 1).val < 48 := (i 1).isLt
  let t : Fin cfg0.N := ⟨(i 0).val / 2000, by rw [show cfg0.N = 5 from N_0]; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 48 ≤ (i 1).val ∧ (i 1).val < win0_2.index t (1 : Fin 2) * 48 + 48; omega

/-- Region 0's output array after its run is the product array. -/
theorem final0 (c : Dev nD) : (dat0 (E1 m) c).arrAt 2 cfg0.N = G0 m c :=
  (dat0 (E1 m) c).arrAt_eq_of_cover 2 (G0 m c) (fun t _ => flushed0_eq m c t) cover0

/-- What region 0 leaves, at an index: the sum over the contracted axis. -/
theorem outs2_apply (c : Dev nD) (a : Fin 10000) (b : Fin 48) :
    outs m 2 main_v16 c (ix2 a b) = ∑ k : Fin 1433, A0 m c (ix2 a k) * B0 m c (ix2 k b) := by
  rw [outs2_eq, final0]
  rfl

/-! ## Region 1 -/

/-- Region 1's operand arrays as the region finds them, as plain functions of the index. -/
abbrev A1 (c : Dev nD) : S10000x16.Idx → EReal := Gen.V5 m (outs m) c main_v50
abbrev B1 (c : Dev nD) : S16x21.Idx → EReal := Gen.V5 m (outs m) c main_v55

/-- The product of the two operand arrays, index by index. -/
def G1 (c : Dev nD) : S10000x21.Idx → EReal := fun i =>
  ∑ k : Fin 16, A1 m c (ix2 (i 0) k) * B1 m c (ix2 k (i 1))

/-- The body's payload is the plain product of its two loaded blocks into a zero accumulator. -/
theorem pay1_eq (x0 : Vec Ideal S10000x16 .f32) (x1 : Vec Ideal S16x21 .f32) :
    k1_pay1 x0 x1 = matmul (F := Ideal) (φ₁ := .f32) (φ₂ := .f32) (DotDims.plain 10000 16 21) none x0 x1 (constant ⟨2, ![10000, 21]⟩ .f32 0x00000000#32) := by
  unfold k1_pay1
  rw [shapeCast_self, shapeCast_self]
  rfl

/-- The printed index maps, decided over the grid. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What the one point writes back is the product array, read through the whole-array block. -/
theorem flushed1_eq (c : Dev nD) (t : Fin cfg1.N) :
    (dat1 (E5 m) c).flushed 2 t = ((cfg1.win 2).blk t).view.read (Elt Ideal) (G1 m c) := by
  show (cfg1.win 2).cut (grid1.coords t) ((dat1 (E5 m) c).after 2 t) = _
  rw [after1_2]
  unfold out1_2
  rw [View.canon_unit_zero hz2]
  simp only [View.ld_unit_zero (S := S10000x16) hz2, View.ld_unit_zero (S := S16x21) hz2]
  rw [pay1_eq]
  obtain ⟨e0, e1, e2, e3, e4, e5⟩ := idx_facts1 t
  funext j
  show matmul (F := Ideal) (φ₁ := .f32) (φ₂ := .f32) (DotDims.plain 10000 16 21) none (iblk1 (E5 m) c 0 t) (iblk1 (E5 m) c 1 t) (constant ⟨2, ![10000, 21]⟩ .f32 0x00000000#32) j
    = G1 m c (((cfg1.win 2).blk t).view.emb j)
  rw [Cert.LibPlainDot.matmul_plain]
  unfold G1
  refine Finset.sum_congr rfl fun k _ => ?_
  show A1 m c (((cfg1.win 0).blk t).view.emb (ix2 (j 0) k)) * B1 m c (((cfg1.win 1).blk t).view.emb (ix2 k (j 1)))
    = A1 m c (ix2 ((((cfg1.win 2).blk t).view.emb j) 0) k) * B1 m c (ix2 k ((((cfg1.win 2).blk t).view.emb j) 1))
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 16 + 1 * k.val = k.val; omega
    | ⟨1, _⟩ => show win1_1.index t (1 : Fin 2) * 21 + 1 * (j 1).val = win1_2.index t (1 : Fin 2) * 21 + 1 * (j 1).val; omega
  exact congrArg₂ (· * ·) (congrArg (A1 m c) h0) (congrArg (B1 m c) h1)

/-- An index of the array is in point `t`'s block iff each coordinate is in the block's range on its axis. -/
theorem mem_blk1 (t : Fin cfg1.N) (i : S10000x21.Idx) :
    i ∈ ((cfg1.win 2).blk t).view.set ↔ ∀ a : Fin 2, win1_2.index t a * S10000x21.size a ≤ (i a).val ∧ (i a).val < win1_2.index t a * S10000x21.size a + S10000x21.size a := by
  show i ∈ ((View.whole main_v56).slice (win1_2.rect t)).set ↔ _
  rw [View.set_slice_whole, Rect.mem_set_unit]
  exact Iff.rfl

/-- Every index of the array is in the one point's block. -/
theorem cover1 (i : S10000x21.Idx) : ∃ t : Fin cfg1.N, (cfg1.win 2).flush t = true ∧ i ∈ ((cfg1.win 2).blk t).view.set := by
  have hi0 : (i 0).val < 10000 := (i 0).isLt
  have hi1 : (i 1).val < 21 := (i 1).isLt
  let t : Fin cfg1.N := ⟨0, by rw [show cfg1.N = 1 from N_1]; omega⟩
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 21 ≤ (i 1).val ∧ (i 1).val < win1_2.index t (1 : Fin 2) * 21 + 21; omega

/-- Region 1's output array after its run is the product array. -/
theorem final1 (c : Dev nD) : (dat1 (E5 m) c).arrAt 2 cfg1.N = G1 m c :=
  (dat1 (E5 m) c).arrAt_eq_of_cover 2 (G1 m c) (fun t _ => flushed1_eq m c t) cover1

/-- What region 1 leaves, at an index: the sum over the contracted axis. -/
theorem outs6_apply (c : Dev nD) (a : Fin 10000) (b : Fin 21) :
    outs m 6 main_v56 c (ix2 a b) = ∑ k : Fin 16, A1 m c (ix2 a k) * B1 m c (ix2 k b) := by
  rw [outs6_eq, final1]
  rfl

/-- The same with the operand arrays named by the caller (any spelling of them that is the region's entry contents). -/
theorem outs2_apply_of (c : Dev nD) (X : S10000x1433.Idx → EReal) (W : S1433x48.Idx → EReal)
    (hX : X = Gen.V1 m c main_arg0) (hW : W = Gen.V1 m c main_v15) (a : Fin 10000) (b : Fin 48) :
    outs m 2 main_v16 c (ix2 a b) = ∑ k : Fin 1433, X (ix2 a k) * W (ix2 k b) := by
  subst hX; subst hW; exact outs2_apply m c a b
theorem outs6_apply_of (c : Dev nD) (X : S10000x16.Idx → EReal) (W : S16x21.Idx → EReal)
    (hX : X = Gen.V5 m (outs m) c main_v50) (hW : W = Gen.V5 m (outs m) c main_v55) (a : Fin 10000) (b : Fin 21) :
    outs m 6 main_v56 c (ix2 a b) = ∑ k : Fin 16, X (ix2 a k) * W (ix2 k b) := by
  subst hX; subst hW; exact outs6_apply m c a b

end Cert.KernelIdeal.Hand

end
-- ==== Proof.LibConcat3.lean ====
/-
  Three arrays of K rows and C columns laid side by side — the concatenation along the column axis of three
  [K, C] arrays into one [K, C3] array, C3 = C + C + C — read at an index.

  The concatenation is written as the programs write it,
      concatenate ⟨2, ![K, C3]⟩ 1 [⟨⟨2, ![K, C]⟩, x0⟩, ⟨⟨2, ![K, C]⟩, x1⟩, ⟨⟨2, ![K, C]⟩, x2⟩] h,
  with `h` the side condition that the three shapes concatenate to the result's (which carries C + C + C = C3).
  Row k, column j of the result is row k of the piece whose span of columns holds j:

    * `concat3_apply0`: for j = c      (c < C) it is x0 at (k, c);
    * `concat3_apply1`: for j = C + c            it is x1 at (k, c);
    * `concat3_apply2`: for j = C + C + c        it is x2 at (k, c).

  The column j is any element of Fin C3 with the stated value, so the lemmas apply to literal extents (48 = 16 + 16 + 16)
  with the column written ⟨16 + c.val, _⟩ and the value equation closed by rfl. The element type is arbitrary.
-/
import Idealize.ShloMosaic.Lib.Pipeline.Value
import Idealize.ShloMosaic.Lib.ValueIdx

namespace Cert.LibConcat3

open Idealize.ShloMosaic Idealize.ShloMosaic.ValueIdx

variable {α : Type} {K C C3 : ℕ}

/-- A column in the first span reads the first piece. -/
theorem concat3_apply0 (x0 x1 x2 : (⟨2, ![K, C]⟩ : Shape).Idx → α)
    (h : Shape.Concatenates [(⟨2, ![K, C]⟩ : Shape), ⟨2, ![K, C]⟩, ⟨2, ![K, C]⟩] ⟨2, ![K, C3]⟩ 1)
    (k : Fin K) (c : Fin C) (j : Fin C3) (hj : j.val = c.val) :
    concatenate (⟨2, ![K, C3]⟩ : Shape) 1 [⟨⟨2, ![K, C]⟩, x0⟩, ⟨⟨2, ![K, C]⟩, x1⟩, ⟨⟨2, ![K, C]⟩, x2⟩] h (ix2 k j)
      = x0 (ix2 k c) := by
  refine concatenate_apply_piece (t := ⟨2, ![K, C3]⟩) 1 [⟨⟨2, ![K, C]⟩, x0⟩, ⟨⟨2, ![K, C]⟩, x1⟩, ⟨⟨2, ![K, C]⟩, x2⟩] h (ix2 k j) 0 (by simp) ⟨2, ![K, C]⟩ x0 rfl rfl 0 rfl
    (ix2 k c) ?_ ?_
  · intro b hb
    match b with
    | ⟨0, _⟩ => rfl
    | ⟨1, _⟩ => exact absurd (Fin.ext rfl) hb
  · show 0 + c.val = j.val
    omega

/-- A column in the second span reads the second piece. -/
theorem concat3_apply1 (x0 x1 x2 : (⟨2, ![K, C]⟩ : Shape).Idx → α)
    (h : Shape.Concatenates [(⟨2, ![K, C]⟩ : Shape), ⟨2, ![K, C]⟩, ⟨2, ![K, C]⟩] ⟨2, ![K, C3]⟩ 1)
    (k : Fin K) (c : Fin C) (j : Fin C3) (hj : j.val = C + c.val) :
    concatenate (⟨2, ![K, C3]⟩ : Shape) 1 [⟨⟨2, ![K, C]⟩, x0⟩, ⟨⟨2, ![K, C]⟩, x1⟩, ⟨⟨2, ![K, C]⟩, x2⟩] h (ix2 k j)
      = x1 (ix2 k c) := by
  refine concatenate_apply_piece (t := ⟨2, ![K, C3]⟩) 1 [⟨⟨2, ![K, C]⟩, x0⟩, ⟨⟨2, ![K, C]⟩, x1⟩, ⟨⟨2, ![K, C]⟩, x2⟩] h (ix2 k j) 1 (by simp) ⟨2, ![K, C]⟩ x1 rfl rfl C rfl
    (ix2 k c) ?_ ?_
  · intro b hb
    match b with
    | ⟨0, _⟩ => rfl
    | ⟨1, _⟩ => exact absurd (Fin.ext rfl) hb
  · show C + c.val = j.val
    omega

/-- A column in the third span reads the third piece. -/
theorem concat3_apply2 (x0 x1 x2 : (⟨2, ![K, C]⟩ : Shape).Idx → α)
    (h : Shape.Concatenates [(⟨2, ![K, C]⟩ : Shape), ⟨2, ![K, C]⟩, ⟨2, ![K, C]⟩] ⟨2, ![K, C3]⟩ 1)
    (k : Fin K) (c : Fin C) (j : Fin C3) (hj : j.val = C + C + c.val) :
    concatenate (⟨2, ![K, C3]⟩ : Shape) 1 [⟨⟨2, ![K, C]⟩, x0⟩, ⟨⟨2, ![K, C]⟩, x1⟩, ⟨⟨2, ![K, C]⟩, x2⟩] h (ix2 k j)
      = x2 (ix2 k c) := by
  refine concatenate_apply_piece (t := ⟨2, ![K, C3]⟩) 1 [⟨⟨2, ![K, C]⟩, x0⟩, ⟨⟨2, ![K, C]⟩, x1⟩, ⟨⟨2, ![K, C]⟩, x2⟩] h (ix2 k j) 2 (by simp) ⟨2, ![K, C]⟩ x2 rfl rfl (C + C) rfl
    (ix2 k c) ?_ ?_
  · intro b hb
    match b with
    | ⟨0, _⟩ => rfl
    | ⟨1, _⟩ => exact absurd (Fin.ext rfl) hb
  · show C + C + c.val = j.val
    omega

end Cert.LibConcat3
-- ==== Proof.KParts.lean ====
/-
  The stacked weights and the blocks of the projected features, read at an index.

  The stacked weight matrix of a layer is three matrices side by side: the two basis matrices of the spline weights
  (a slice of the leading axis, recast from one-by-K-by-C to K-by-C), then the root matrix. Column c of the stack is
  column c of the first basis, column C + c is column c of the second, column 2C + c is column c of the root.
  The projected features split the same way: their block at offset 0, C, 2C is a slice of columns.
-/
import proofs.«125320_j11141145166043_2_alg».proof.Proof.KTerms
import proofs.«125320_j11141145166043_2_alg».proof.Proof.LibConcat3
import Idealize.ShloMosaic.Lib.ValueLayout
import Idealize.ShloMosaic.Lib.Pipeline.Value

set_option maxRecDepth 20000

noncomputable section

namespace Cert.KernelIdeal.KVal

open Idealize.ShloMosaic Idealize.ShloMosaic.ValueIdx
open Cert.KernelIdeal Cert.KernelIdeal.Gen

/-! ## The basis matrices of the spline weights -/

theorem wb1_0 (w : TF S2x1433x16) (k : Fin 1433) (c : Fin 16) :
    shapeCast S1433x16 (extractStridedSlice S1x1433x16 ![0, 0, 0] w slices_S2x1433x16_S1x1433x16_0_0_0)
        shapeCasts_S1x1433x16_S1433x16 (ix2 k c)
      = w (ix3 (0 : Fin 2) k c) :=
  (shapeCast_1ab_ab_apply _ shapeCasts_S1x1433x16_S1433x16 k c).trans
    (extractStridedSlice_apply _ w slices_S2x1433x16_S1x1433x16_0_0_0 (ix3 (0 : Fin 1) k c) (ix3 (0 : Fin 2) k c) fun a => by
      match a with
      | ⟨0, _⟩ => rfl
      | ⟨1, _⟩ => exact (Nat.zero_add _).symm
      | ⟨2, _⟩ => exact (Nat.zero_add _).symm)

theorem wb1_1 (w : TF S2x1433x16) (k : Fin 1433) (c : Fin 16) :
    shapeCast S1433x16 (extractStridedSlice S1x1433x16 ![1, 0, 0] w slices_S2x1433x16_S1x1433x16_1_0_0)
        shapeCasts_S1x1433x16_S1433x16 (ix2 k c)
      = w (ix3 (1 : Fin 2) k c) :=
  (shapeCast_1ab_ab_apply _ shapeCasts_S1x1433x16_S1433x16 k c).trans
    (extractStridedSlice_apply _ w slices_S2x1433x16_S1x1433x16_1_0_0 (ix3 (0 : Fin 1) k c) (ix3 (1 : Fin 2) k c) fun a => by
      match a with
      | ⟨0, _⟩ => rfl
      | ⟨1, _⟩ => exact (Nat.zero_add _).symm
      | ⟨2, _⟩ => exact (Nat.zero_add _).symm)

theorem wb2_0 (w : TF S2x16x7) (k : Fin 16) (c : Fin 7) :
    shapeCast S16x7 (extractStridedSlice S1x16x7 ![0, 0, 0] w slices_S2x16x7_S1x16x7_0_0_0) shapeCasts_S1x16x7_S16x7 (ix2 k c)
      = w (ix3 (0 : Fin 2) k c) :=
  (shapeCast_1ab_ab_apply _ shapeCasts_S1x16x7_S16x7 k c).trans
    (extractStridedSlice_apply _ w slices_S2x16x7_S1x16x7_0_0_0 (ix3 (0 : Fin 1) k c) (ix3 (0 : Fin 2) k c) fun a => by
      match a with
      | ⟨0, _⟩ => rfl
      | ⟨1, _⟩ => exact (Nat.zero_add _).symm
      | ⟨2, _⟩ => exact (Nat.zero_add _).symm)

theorem wb2_1 (w : TF S2x16x7) (k : Fin 16) (c : Fin 7) :
    shapeCast S16x7 (extractStridedSlice S1x16x7 ![1, 0, 0] w slices_S2x16x7_S1x16x7_1_0_0) shapeCasts_S1x16x7_S16x7 (ix2 k c)
      = w (ix3 (1 : Fin 2) k c) :=
  (shapeCast_1ab_ab_apply _ shapeCasts_S1x16x7_S16x7 k c).trans
    (extractStridedSlice_apply _ w slices_S2x16x7_S1x16x7_1_0_0 (ix3 (0 : Fin 1) k c) (ix3 (1 : Fin 2) k c) fun a => by
      match a with
      | ⟨0, _⟩ => rfl
      | ⟨1, _⟩ => exact (Nat.zero_add _).symm
      | ⟨2, _⟩ => exact (Nat.zero_add _).symm)

/-! ## The stacked weights of layer 1 -/

theorem wcat1_apply0 (a3 : TF S2x1433x16) (a4 : TF S1433x16) (k : Fin 1433) (c : Fin 16) :
    wcat1 a3 a4 (ix2 k ⟨c.val, by omega⟩) = a3 (ix3 (0 : Fin 2) k c) :=
  (Cert.LibConcat3.concat3_apply0 (C3 := 48) _ _ _ _ k c ⟨c.val, by omega⟩ rfl).trans (wb1_0 a3 k c)

theorem wcat1_apply1 (a3 : TF S2x1433x16) (a4 : TF S1433x16) (k : Fin 1433) (c : Fin 16) :
    wcat1 a3 a4 (ix2 k ⟨16 + c.val, by omega⟩) = a3 (ix3 (1 : Fin 2) k c) :=
  (Cert.LibConcat3.concat3_apply1 _ _ _ _ k c _ rfl).trans (wb1_1 a3 k c)

theorem wcat1_apply2 (a3 : TF S2x1433x16) (a4 : TF S1433x16) (k : Fin 1433) (c : Fin 16) :
    wcat1 a3 a4 (ix2 k ⟨32 + c.val, by omega⟩) = a4 (ix2 k c) :=
  Cert.LibConcat3.concat3_apply2 _ _ _ _ k c _ rfl

/-! ## The stacked weights of layer 2 -/

theorem wcat2_apply0 (a6 : TF S2x16x7) (a7 : TF S16x7) (k : Fin 16) (c : Fin 7) :
    wcat2 a6 a7 (ix2 k ⟨c.val, by omega⟩) = a6 (ix3 (0 : Fin 2) k c) :=
  (Cert.LibConcat3.concat3_apply0 (C3 := 21) _ _ _ _ k c ⟨c.val, by omega⟩ rfl).trans (wb2_0 a6 k c)

theorem wcat2_apply1 (a6 : TF S2x16x7) (a7 : TF S16x7) (k : Fin 16) (c : Fin 7) :
    wcat2 a6 a7 (ix2 k ⟨7 + c.val, by omega⟩) = a6 (ix3 (1 : Fin 2) k c) :=
  (Cert.LibConcat3.concat3_apply1 _ _ _ _ k c _ rfl).trans (wb2_1 a6 k c)

theorem wcat2_apply2 (a6 : TF S2x16x7) (a7 : TF S16x7) (k : Fin 16) (c : Fin 7) :
    wcat2 a6 a7 (ix2 k ⟨14 + c.val, by omega⟩) = a7 (ix2 k c) :=
  Cert.LibConcat3.concat3_apply2 _ _ _ _ k c _ rfl

/-! ## The blocks of the projected features -/

theorem y0K_apply (Y : TF S10000x48) (r : Fin 10000) (c : Fin 16) :
    y0K Y (ix2 r c) = Y (ix2 r ⟨c.val, by omega⟩) :=
  extractStridedSlice_apply _ Y _ (ix2 r c) (ix2 r ⟨c.val, by omega⟩) fun a => by
    match a with
    | ⟨0, _⟩ => exact (Nat.zero_add _).symm
    | ⟨1, _⟩ => exact (Nat.zero_add _).symm

theorem y1K_apply (Y : TF S10000x48) (r : Fin 10000) (c : Fin 16) :
    y1K Y (ix2 r c) = Y (ix2 r ⟨16 + c.val, by omega⟩) :=
  extractStridedSlice_apply _ Y _ (ix2 r c) (ix2 r ⟨16 + c.val, by omega⟩) fun a => by
    match a with
    | ⟨0, _⟩ => exact (Nat.zero_add _).symm
    | ⟨1, _⟩ => rfl

theorem rootK_apply (Y : TF S10000x48) (r : Fin 10000) (c : Fin 16) :
    rootK Y (ix2 r c) = Y (ix2 r ⟨32 + c.val, by omega⟩) :=
  extractStridedSlice_apply _ Y _ (ix2 r c) (ix2 r ⟨32 + c.val, by omega⟩) fun a => by
    match a with
    | ⟨0, _⟩ => exact (Nat.zero_add _).symm
    | ⟨1, _⟩ => rfl

theorem z0K_apply (Y : TF S10000x21) (r : Fin 10000) (c : Fin 7) :
    z0K Y (ix2 r c) = Y (ix2 r ⟨c.val, by omega⟩) :=
  extractStridedSlice_apply _ Y _ (ix2 r c) (ix2 r ⟨c.val, by omega⟩) fun a => by
    match a with
    | ⟨0, _⟩ => exact (Nat.zero_add _).symm
    | ⟨1, _⟩ => exact (Nat.zero_add _).symm

theorem z1K_apply (Y : TF S10000x21) (r : Fin 10000) (c : Fin 7) :
    z1K Y (ix2 r c) = Y (ix2 r ⟨7 + c.val, by omega⟩) :=
  extractStridedSlice_apply _ Y _ (ix2 r c) (ix2 r ⟨7 + c.val, by omega⟩) fun a => by
    match a with
    | ⟨0, _⟩ => exact (Nat.zero_add _).symm
    | ⟨1, _⟩ => rfl

theorem zrootK_apply (Y : TF S10000x21) (r : Fin 10000) (c : Fin 7) :
    zrootK Y (ix2 r c) = Y (ix2 r ⟨14 + c.val, by omega⟩) :=
  extractStridedSlice_apply _ Y _ (ix2 r c) (ix2 r ⟨14 + c.val, by omega⟩) fun a => by
    match a with
    | ⟨0, _⟩ => exact (Nat.zero_add _).symm
    | ⟨1, _⟩ => rfl

end Cert.KernelIdeal.KVal

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.KRead.lean ====
/-
  The two layers read at one node and one channel.

  Row e of a gathered block is the block's row at the edge's source s e (the start index read signed, moved up by
  the node count when negative, clamped into range); the scatter sums, at node n, the messages of the edges whose
  destination index is n; the degree column is the count of those edges, at least one. So layer 1 at (n, c) is
      ( 0 + sum over e into n of ( (1 - u e) Y(s e, c) + u e Y(s e, 16 + c) ) ) / deg n  +  Y(n, 32 + c)  +  b c
  for the projected features Y, and with Y the product of the features and the stacked weights this is the layer
  formula, projection first. Layer 2 is the same with 7 channels.
-/
import proofs.«125320_j11141145166043_2_alg».proof.Proof.KTerms
import proofs.«125320_j11141145166043_2_alg».proof.Proof.KParts
import proofs.«125320_j11141145166043_2_alg».proof.Proof.Spec
import proofs.«125320_j11141145166043_2_alg».proof.Proof.LibGatherRows
import proofs.«125320_j11141145166043_2_alg».proof.Proof.LibScatterRows
import proofs.«125320_j11141145166043_2_alg».proof.Proof.LibHostBroadcast
import Idealize.ShloMosaic.Lib.Pipeline.Value

set_option maxRecDepth 20000

noncomputable section

namespace Cert.KernelIdeal.KVal

open Idealize.ShloMosaic Idealize.ShloMosaic.ValueIdx
open Cert.KernelIdeal Cert.KernelIdeal.Gen

/-- The float words for one and zero, as the program writes them. -/
abbrev one : EReal := Ideal.ofBits .f32 0x3F800000#32
@[inherit_doc one] abbrev zero : EReal := Ideal.ofBits .f32 0x00000000#32

/-- The source node of edge e: its start index read signed, clamped into the node range. -/
def sK (src : TI S160000) (e : Fin 160000) : Fin 10000 :=
  ⟨min ((gcolK src) (ix2 e (0 : Fin 1))).toInt.toNat (10000 - 1), by omega⟩

/-- The edges whose destination index is node n. -/
def intoK (dst : TI S160000) (n : Fin 10000) : Finset (Fin 160000) :=
  Finset.univ.filter fun e => ((dcolK dst) (ix2 e (0 : Fin 1))).toInt = (n.val : Int)

/-! ## Gathers, slices, the degree -/

theorem rowIdx_ix2 {R D : Nat} (e : Fin R) (c : Fin D) :
    Cert.LibGatherRows.rowIdx (ix2 e c) = ix2 e (0 : Fin 1) := by
  funext a
  match a with
  | ⟨0, _⟩ => rfl
  | ⟨1, _⟩ => rfl

/-- A gathered block at (e, c) is the block at (s e, c). -/
theorem gatherK_apply {D : Nat}
    (wf : GatherDims.WF ⟨2, ![10000, D]⟩ ⟨2, ![160000, 1]⟩ ⟨2, ![160000, D]⟩ [1] [0] [] [0] [] 1 ![1, D])
    (X : (⟨2, ![10000, D]⟩ : Shape).Idx → EReal) (src : TI S160000) (e : Fin 160000) (c : Fin D) :
    Host.gather (Cert.LibGatherRows.rowDims 10000 D 160000 wf) X (gcolK src) (ix2 e c) = X (ix2 (sK src e) c) := by
  refine (Cert.LibGatherRows.gather_rows_apply (by omega) wf X (gcolK src) (ix2 e c)).trans ?_
  have h : (⟨min ((gcolK src) (Cert.LibGatherRows.rowIdx (ix2 e c))).toInt.toNat (10000 - 1), by omega⟩ : Fin 10000)
      = sK src e := by
    refine Fin.ext ?_
    show min ((gcolK src) (Cert.LibGatherRows.rowIdx (ix2 e c))).toInt.toNat (10000 - 1)
      = min ((gcolK src) (ix2 e (0 : Fin 1))).toInt.toNat (10000 - 1)
    rw [rowIdx_ix2]
  exact congrArg (fun r => X (ix2 r c)) h

theorem gather16_apply (X : TF S10000x16) (src : TI S160000) (e : Fin 160000) (c : Fin 16) :
    Host.gather gather_S10000x16_S160000x1_S160000x16_1_0_n_n_0_1_116 X (gcolK src) (ix2 e c) = X (ix2 (sK src e) c) :=
  gatherK_apply gather_S10000x16_S160000x1_S160000x16_1_0_n_n_0_1_116_wf X src e c

/-- The degree column at node n: the number of edges into n, at least one. -/
theorem degColK_at (dst : TI S160000) (n : Fin 10000) (v : Fin 1) :
    degColK dst (ix2 n v) = Cert.Spline.degOf one zero (intoK dst) n := by
  unfold degColK
  refine (Cert.LibHostBroadcast.vec_to_col _ bcast_S10000_S10000x1_0 n v).trans ?_
  rw [maximumf_apply]
  unfold Cert.Spline.degOf
  refine congrArg₂ max ?_ ?_
  · refine (Cert.LibScatterRows.scatterVec_apply 10000 160000 scatter_S10000_S160000x1_S160000_n_0_0_1_wf _ (dcolK dst) _ n).trans ?_
    rw [Cert.LibHostBroadcast.scalar_to_any, constant_apply]
    refine congrArg (zero + ·) ?_
    refine Finset.sum_congr rfl fun e _ => ?_
    rw [Cert.LibHostBroadcast.scalar_to_any, constant_apply]
  · rw [Cert.LibHostBroadcast.scalar_to_any, constant_apply]

@[inherit_doc degColK_at]
theorem degColK_apply (dst : TI S160000) (n : Fin 10000) :
    degColK dst (ix2 n (0 : Fin 1)) = Cert.Spline.degOf one zero (intoK dst) n := degColK_at dst n 0

/-! ## Layer 1 -/

theorem msg1K_apply (Y : TF S10000x48) (src : TI S160000) (u : TF S160000x1) (e : Fin 160000) (c : Fin 16) :
    msg1K Y src u (ix2 e c)
      = (one - u (ix2 e (0 : Fin 1))) * Y (ix2 (sK src e) ⟨c.val, by omega⟩)
        + u (ix2 e (0 : Fin 1)) * Y (ix2 (sK src e) ⟨16 + c.val, by omega⟩) := by
  unfold msg1K
  rw [addf_apply]
  rw [mulf_apply, mulf_apply]
  rw [Cert.LibHostBroadcast.col_to_mat, Cert.LibHostBroadcast.col_to_mat]
  rw [subf_apply]
  rw [Cert.LibHostBroadcast.scalar_to_any, constant_apply]
  rw [gather16_apply, gather16_apply]
  rw [y0K_apply, y1K_apply]

theorem agg1K_apply (Y : TF S10000x48) (src dst : TI S160000) (u : TF S160000x1) (n : Fin 10000) (c : Fin 16) :
    agg1K Y src dst u (ix2 n c) = zero + ∑ e ∈ intoK dst n, msg1K Y src u (ix2 e c) := by
  unfold agg1K
  refine (Cert.LibScatterRows.scatterRows_apply 10000 160000 16 scatter_S10000x16_S160000x1_S160000x16_1_0_0_1_wf _ (dcolK dst)
    (msg1K Y src u) n c).trans ?_
  rw [Cert.LibHostBroadcast.scalar_to_any, constant_apply]
  rfl

/-- The host's quotient of two arrays, entry by entry. -/
theorem hdivf_apply {s : Shape} {φ : FTy} (a b : FVec Ideal s φ) (i : s.Idx) : Host.divf a b i = Ideal.div (a i) (b i) := rfl

/-- Layer 1 at node n, channel c. -/
theorem layer1K_apply (Y : TF S10000x48) (src dst : TI S160000) (u : TF S160000x1) (b : TF S16) (n : Fin 10000)
    (c : Fin 16) :
    layer1K Y src dst u (degColK dst) b (ix2 n c)
      = Ideal.div
          (zero + ∑ e ∈ intoK dst n, ((one - u (ix2 e (0 : Fin 1))) * Y (ix2 (sK src e) ⟨c.val, by omega⟩)
            + u (ix2 e (0 : Fin 1)) * Y (ix2 (sK src e) ⟨16 + c.val, by omega⟩)))
          (Cert.Spline.degOf one zero (intoK dst) n)
        + Y (ix2 n ⟨32 + c.val, by omega⟩) + b (ix1 c) := by
  unfold layer1K
  rw [addf_apply]
  rw [addf_apply]
  rw [hdivf_apply]
  refine congrArg₂ (· + ·) (congrArg₂ (· + ·) (congrArg₂ Ideal.div ?_ ?_) ?_) ?_
  · rw [agg1K_apply]
    simp only [msg1K_apply]
  · exact (Cert.LibHostBroadcast.col_to_mat _ bcast_S10000x1_S10000x16_0_1 n c).trans (degColK_apply dst n)
  · exact rootK_apply Y n c
  · exact Cert.LibHostBroadcast.vec_along_cols b bcast_S16_S1x16_1 bcast_S1x16_S10000x16_0_1 n c

/-- Layer 1, with the projected features the product of the features and the stacked weights, is the layer formula,
    projection first. -/
theorem layer1_spec (x : TF S10000x1433) (a3 : TF S2x1433x16) (a4 : TF S1433x16) (y16 : TF S10000x48)
    (src dst : TI S160000) (u : TF S160000x1) (b : TF S16)
    (h2 : ∀ (a : Fin 10000) (j : Fin 48), y16 (ix2 a j) = ∑ k : Fin 1433, x (ix2 a k) * wcat1 a3 a4 (ix2 k j))
    (n : Fin 10000) (c : Fin 16) :
    layer1K y16 src dst u (degColK dst) b (ix2 n c)
      = Cert.Spline.layerP (fun n k => x (ix2 n k)) (fun k c => a3 (ix3 (0 : Fin 2) k c))
          (fun k c => a3 (ix3 (1 : Fin 2) k c)) (fun k c => a4 (ix2 k c)) (fun c => b (ix1 c))
          (fun e => u (ix2 e (0 : Fin 1))) one zero (sK src) (intoK dst) (Cert.Spline.degOf one zero (intoK dst)) n c := by
  have e0 : ∀ a : Fin 10000, y16 (ix2 a ⟨c.val, by omega⟩) = ∑ k : Fin 1433, x (ix2 a k) * a3 (ix3 (0 : Fin 2) k c) :=
    fun a => (h2 a _).trans (Finset.sum_congr rfl fun k _ => congrArg (x (ix2 a k) * ·) (wcat1_apply0 a3 a4 k c))
  have e1 : ∀ a : Fin 10000, y16 (ix2 a ⟨16 + c.val, by omega⟩) = ∑ k : Fin 1433, x (ix2 a k) * a3 (ix3 (1 : Fin 2) k c) :=
    fun a => (h2 a _).trans (Finset.sum_congr rfl fun k _ => congrArg (x (ix2 a k) * ·) (wcat1_apply1 a3 a4 k c))
  have e2 : ∀ a : Fin 10000, y16 (ix2 a ⟨32 + c.val, by omega⟩) = ∑ k : Fin 1433, x (ix2 a k) * a4 (ix2 k c) :=
    fun a => (h2 a _).trans (Finset.sum_congr rfl fun k _ => congrArg (x (ix2 a k) * ·) (wcat1_apply2 a3 a4 k c))
  rw [layer1K_apply]
  unfold Cert.Spline.layerP
  simp only [e0, e1, e2]

/-! ## Layer 2: the same with 16 input channels and 7 output channels -/

theorem gather7_apply (X : TF S10000x7) (src : TI S160000) (e : Fin 160000) (c : Fin 7) :
    Host.gather gather_S10000x7_S160000x1_S160000x7_1_0_n_n_0_1_17 X (gcolK src) (ix2 e c) = X (ix2 (sK src e) c) :=
  gatherK_apply gather_S10000x7_S160000x1_S160000x7_1_0_n_n_0_1_17_wf X src e c

theorem msg2K_apply (Y : TF S10000x21) (src : TI S160000) (u : TF S160000x1) (e : Fin 160000) (c : Fin 7) :
    msg2K Y src u (ix2 e c)
      = (one - u (ix2 e (0 : Fin 1))) * Y (ix2 (sK src e) ⟨c.val, by omega⟩)
        + u (ix2 e (0 : Fin 1)) * Y (ix2 (sK src e) ⟨7 + c.val, by omega⟩) := by
  unfold msg2K
  rw [addf_apply]
  rw [mulf_apply, mulf_apply]
  rw [Cert.LibHostBroadcast.col_to_mat, Cert.LibHostBroadcast.col_to_mat]
  rw [subf_apply]
  rw [Cert.LibHostBroadcast.scalar_to_any, constant_apply]
  rw [gather7_apply, gather7_apply]
  rw [z0K_apply, z1K_apply]

theorem agg2K_apply (Y : TF S10000x21) (src dst : TI S160000) (u : TF S160000x1) (n : Fin 10000) (c : Fin 7) :
    agg2K Y src dst u (ix2 n c) = zero + ∑ e ∈ intoK dst n, msg2K Y src u (ix2 e c) := by
  unfold agg2K
  refine (Cert.LibScatterRows.scatterRows_apply 10000 160000 7 scatter_S10000x7_S160000x1_S160000x7_1_0_0_1_wf _ (dcolK dst)
    (msg2K Y src u) n c).trans ?_
  rw [Cert.LibHostBroadcast.scalar_to_any, constant_apply]
  rfl

/-- Layer 2 at node n, channel c. -/
theorem layer2K_apply (Y : TF S10000x21) (src dst : TI S160000) (u : TF S160000x1) (b : TF S7) (n : Fin 10000)
    (c : Fin 7) :
    layer2K Y src dst u (degColK dst) b (ix2 n c)
      = Ideal.div
          (zero + ∑ e ∈ intoK dst n, ((one - u (ix2 e (0 : Fin 1))) * Y (ix2 (sK src e) ⟨c.val, by omega⟩)
            + u (ix2 e (0 : Fin 1)) * Y (ix2 (sK src e) ⟨7 + c.val, by omega⟩)))
          (Cert.Spline.degOf one zero (intoK dst) n)
        + Y (ix2 n ⟨14 + c.val, by omega⟩) + b (ix1 c) := by
  unfold layer2K
  rw [addf_apply]
  rw [addf_apply]
  rw [hdivf_apply]
  refine congrArg₂ (· + ·) (congrArg₂ (· + ·) (congrArg₂ Ideal.div ?_ ?_) ?_) ?_
  · rw [agg2K_apply]
    simp only [msg2K_apply]
  · exact (Cert.LibHostBroadcast.col_to_mat _ bcast_S10000x1_S10000x7_0_1 n c).trans (degColK_apply dst n)
  · exact zrootK_apply Y n c
  · exact Cert.LibHostBroadcast.vec_along_cols b bcast_S7_S1x7_1 bcast_S1x7_S10000x7_0_1 n c

/-- Layer 2, with the projected features the product of the features and the stacked weights, is the layer formula,
    projection first. -/
theorem layer2_spec (x : TF S10000x16) (a6 : TF S2x16x7) (a7 : TF S16x7) (y56 : TF S10000x21)
    (src dst : TI S160000) (u : TF S160000x1) (b : TF S7)
    (h6 : ∀ (a : Fin 10000) (j : Fin 21), y56 (ix2 a j) = ∑ k : Fin 16, x (ix2 a k) * wcat2 a6 a7 (ix2 k j))
    (n : Fin 10000) (c : Fin 7) :
    layer2K y56 src dst u (degColK dst) b (ix2 n c)
      = Cert.Spline.layerP (fun n k => x (ix2 n k)) (fun k c => a6 (ix3 (0 : Fin 2) k c))
          (fun k c => a6 (ix3 (1 : Fin 2) k c)) (fun k c => a7 (ix2 k c)) (fun c => b (ix1 c))
          (fun e => u (ix2 e (0 : Fin 1))) one zero (sK src) (intoK dst) (Cert.Spline.degOf one zero (intoK dst)) n c := by
  have e0 : ∀ a : Fin 10000, y56 (ix2 a ⟨c.val, by omega⟩) = ∑ k : Fin 16, x (ix2 a k) * a6 (ix3 (0 : Fin 2) k c) :=
    fun a => (h6 a _).trans (Finset.sum_congr rfl fun k _ => congrArg (x (ix2 a k) * ·) (wcat2_apply0 a6 a7 k c))
  have e1 : ∀ a : Fin 10000, y56 (ix2 a ⟨7 + c.val, by omega⟩) = ∑ k : Fin 16, x (ix2 a k) * a6 (ix3 (1 : Fin 2) k c) :=
    fun a => (h6 a _).trans (Finset.sum_congr rfl fun k _ => congrArg (x (ix2 a k) * ·) (wcat2_apply1 a6 a7 k c))
  have e2 : ∀ a : Fin 10000, y56 (ix2 a ⟨14 + c.val, by omega⟩) = ∑ k : Fin 16, x (ix2 a k) * a7 (ix2 k c) :=
    fun a => (h6 a _).trans (Finset.sum_congr rfl fun k _ => congrArg (x (ix2 a k) * ·) (wcat2_apply2 a6 a7 k c))
  rw [layer2K_apply]
  unfold Cert.Spline.layerP
  simp only [e0, e1, e2]

end Cert.KernelIdeal.KVal

end
-- ==== Proof.Glue.lean ====
/-
  The two programs apply the same host chains: the kernel program's terms for the edge columns, the degree, the
  exponential linear unit and the logarithm of the softmax are the reference program's, the shapes being the same
  shapes under two names and the side conditions differing only as proofs.
-/
import proofs.«125320_j11141145166043_2_alg».proof.Proof.KTerms
import proofs.«125320_j11141145166043_2_alg».proof.Proof.RefChain
import proofs.«125320_j11141145166043_2_alg».proof.Proof.RefTerms
import proofs.«125320_j11141145166043_2_alg».proof.Proof.LibHostBroadcast

noncomputable section

namespace Cert.Glue

open Idealize.ShloMosaic Idealize.ShloMosaic.ValueIdx

theorem src_eq (a1 : IVec ⟨2, ![2, 160000]⟩ 32) : Cert.KernelIdeal.KVal.srcK a1 = Cert.ReferenceIdeal.RVal.srcR a1 := rfl
theorem dst_eq (a1 : IVec ⟨2, ![2, 160000]⟩ 32) : Cert.KernelIdeal.KVal.dstK a1 = Cert.ReferenceIdeal.RVal.dstR a1 := rfl
theorem gcol_eq (s : IVec ⟨1, ![160000]⟩ 32) : Cert.KernelIdeal.KVal.gcolK s = Cert.ReferenceIdeal.RVal.gcolR s := rfl
theorem dcol_eq (d : IVec ⟨1, ![160000]⟩ 32) : Cert.KernelIdeal.KVal.dcolK d = Cert.ReferenceIdeal.RVal.dcolR d := rfl

/-- The kernel program keeps the degree as a column: the reference's degree vector, made a column. -/
theorem degcol_eq_bcast (d : IVec ⟨1, ![160000]⟩ 32) :
    Cert.KernelIdeal.KVal.degColK d
      = broadcastInDim ⟨2, ![10000, 1]⟩ ![0] Cert.ReferenceIdeal.Gen.bcast_S10000_S10000x1_0 (Cert.ReferenceIdeal.RVal.degR d) := rfl

/-- Read at a node: the column's entry is the vector's. -/
theorem degcol_eq (d : IVec ⟨1, ![160000]⟩ 32) (n : Fin 10000) :
    Cert.KernelIdeal.KVal.degColK d (ix2 n (0 : Fin 1)) = Cert.ReferenceIdeal.RVal.degR d (ix1 n) := by
  rw [degcol_eq_bcast]
  exact Cert.LibHostBroadcast.vec_to_col _ _ n 0

theorem elu_eq (x : FVec Ideal ⟨2, ![10000, 16]⟩ .f32) : Cert.KernelIdeal.KVal.eluK x = Cert.ReferenceIdeal.Hand.ELU x := rfl
theorem lsm_eq (x : FVec Ideal ⟨2, ![10000, 7]⟩ .f32) : Cert.KernelIdeal.KVal.lsmK x = Cert.ReferenceIdeal.Hand.LSM x := rfl

end Cert.Glue

end
-- ==== Proof.LibColumnBack.lean ====
/-
  A column read back as a vector: an [a, 1] array cast to [a] has, at i, the column's entry (i, 0).
-/
import Idealize.ShloMosaic.Lib.Pipeline.Value
import Idealize.ShloMosaic.Lib.ValueIdx

noncomputable section

namespace Cert.LibColumnBack

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnBack

end
-- ==== Proof.RRead.lean ====
/-
  The reference's spline layer read at a node and a channel: the composed array operations (gather of the
  source rows, the two scalings by the spline weights, the two projections, the sum over the edges into the
  node, the quotient by the degree, the root projection, the bias) are, entry by entry, the gather-first formula
  of the layer.
-/
import proofs.«125320_j11141145166043_2_alg».proof.Proof.RefTerms
import proofs.«125320_j11141145166043_2_alg».proof.Proof.Spec
import proofs.«125320_j11141145166043_2_alg».proof.Proof.LibGatherRows
import proofs.«125320_j11141145166043_2_alg».proof.Proof.LibScatterRows
import proofs.«125320_j11141145166043_2_alg».proof.Proof.LibHostBroadcast
import proofs.«125320_j11141145166043_2_alg».proof.Proof.LibPlainDot
import proofs.«125320_j11141145166043_2_alg».proof.Proof.LibColumnBack
import Idealize.ShloMosaic.Lib.ValueLayout
import Idealize.ShloMosaic.Lib.Pipeline.Value

noncomputable section

namespace Cert.ReferenceIdeal.RRead

open Cert.ReferenceIdeal Cert.ReferenceIdeal.RVal Idealize.ShloMosaic Idealize.ShloMosaic.ValueIdx Cert.Spline

variable [Facts₀]
open Facts₀

/-- The literal 1.0 and the literal 0.0 of the programs, as extended reals. -/
abbrev one : EReal := Ideal.ofBits .f32 0x3F800000#32
abbrev zero : EReal := Ideal.ofBits .f32 0x00000000#32

/-- The node whose row edge e gathers: the start index read signed and clamped into the node range. -/
def sR (src : IVec S160000 32) (e : Fin 160000) : Fin 10000 :=
  ⟨min ((gcolR src) (ix2 e (0 : Fin 1))).toInt.toNat (10000 - 1), by omega⟩

/-- The edges whose scatter index, read signed, is node n. -/
def intoR (dst : IVec S160000 32) (n : Fin 10000) : Finset (Fin 160000) :=
  Finset.univ.filter fun e => ((dcolR dst) (ix2 e (0 : Fin 1))).toInt = (n.val : Int)

/-- The degree vector at a node. -/
theorem degR_apply (dst : IVec S160000 32) (n : Fin 10000) :
    degR dst (ix1 n) = degOf one zero (intoR dst) n := by
  unfold degR degOf intoR
  refine congrArg₂ max ?_ ?_
  · refine (Cert.LibScatterRows.scatterVec_apply 10000 160000 _ _ (dcolR dst) _ n).trans ?_
    refine congrArg₂ (· + ·) ?_ (Finset.sum_congr rfl fun e _ => ?_)
    · exact Cert.LibHostBroadcast.scalar_to_any _ _ _
    · exact Cert.LibHostBroadcast.scalar_to_any _ _ _
  · exact Cert.LibHostBroadcast.scalar_to_any _ _ _

/-- The host's quotient of two arrays, entry by entry. -/
theorem hdivf_apply {s : Shape} {φ : FTy} (a b : FVec Ideal s φ) (i : s.Idx) : Host.divf a b i = Ideal.div (a i) (b i) := rfl

/-! ## Layer 1: 1433 input channels, 16 output channels -/

/-- The gathered source row of an edge. -/
theorem gath1 (x : FVec Ideal S10000x1433 .f32) (src : IVec S160000 32) (e : Fin 160000) (k : Fin 1433) :
    Host.gather gather_S10000x1433_S160000x1_S160000x1433_1_0_n_n_0_1_11433 x (gcolR src) (ix2 e k) = x (ix2 (sR src e) k) := by
  have hrow : Cert.LibGatherRows.rowIdx (ix2 e k : (⟨2, ![160000, 1433]⟩ : Shape).Idx) = ix2 e (0 : Fin 1) :=
    funext fun a => by match a with | ⟨0, _⟩ => rfl | ⟨1, _⟩ => rfl
  refine (Cert.LibGatherRows.gather_rows_apply (N := 10000) (D := 1433) (R := 160000) (by omega) _ x (gcolR src) (ix2 e k)).trans ?_
  refine congrArg x (congrArg₂ ix2 (Fin.ext ?_) (Fin.ext rfl))
  show min ((gcolR src) (Cert.LibGatherRows.rowIdx (ix2 e k))).toInt.toNat (10000 - 1) = min ((gcolR src) (ix2 e (0 : Fin 1))).toInt.toNat (10000 - 1)
  rw [hrow]

/-- Basis matrix b of the stacked spline weights. -/
theorem wsl1_0 (w : FVec Ideal S2x1433x16 .f32) (k : Fin 1433) (c : Fin 16) :
    shapeCast S1433x16 (extractStridedSlice S1x1433x16 ![0, 0, 0] w slices_S2x1433x16_S1x1433x16_0_0_0) shapeCasts_S1x1433x16_S1433x16 (ix2 k c)
      = w (ix3 (0 : Fin 2) k c) :=
  (shapeCast_1ab_ab_apply _ shapeCasts_S1x1433x16_S1433x16 k c).trans
    (extractStridedSlice_apply _ w slices_S2x1433x16_S1x1433x16_0_0_0 (ix3 (0 : Fin 1) k c) (ix3 (0 : Fin 2) k c) fun a => by
      match a with
      | ⟨0, _⟩ => rfl
      | ⟨1, _⟩ => exact (Nat.zero_add _).symm
      | ⟨2, _⟩ => exact (Nat.zero_add _).symm)
theorem wsl1_1 (w : FVec Ideal S2x1433x16 .f32) (k : Fin 1433) (c : Fin 16) :
    shapeCast S1433x16 (extractStridedSlice S1x1433x16 ![1, 0, 0] w slices_S2x1433x16_S1x1433x16_1_0_0) shapeCasts_S1x1433x16_S1433x16 (ix2 k c)
      = w (ix3 (1 : Fin 2) k c) :=
  (shapeCast_1ab_ab_apply _ shapeCasts_S1x1433x16_S1433x16 k c).trans
    (extractStridedSlice_apply _ w slices_S2x1433x16_S1x1433x16_1_0_0 (ix3 (0 : Fin 1) k c) (ix3 (1 : Fin 2) k c) fun a => by
      match a with
      | ⟨0, _⟩ => rfl
      | ⟨1, _⟩ => exact (Nat.zero_add _).symm
      | ⟨2, _⟩ => exact (Nat.zero_add _).symm)

/-- One edge's message, gather first. -/
theorem msg1 (x : FVec Ideal S10000x1433 .f32) (src : IVec S160000 32) (u : FVec Ideal S160000 .f32)
    (w : FVec Ideal S2x1433x16 .f32) (e : Fin 160000) (c : Fin 16) :
    addf
      (Host.dotGeneral dot_S160000x1433_S1433x16_S160000x16_1_0_0_1_n_n none
        (mulf (Host.gather gather_S10000x1433_S160000x1_S160000x1433_1_0_n_n_0_1_11433 x (gcolR src))
          (broadcastInDim S160000x1433 ![0, 1] bcast_S160000x1_S160000x1433_0_1
            (broadcastInDim S160000x1 ![0] bcast_S160000_S160000x1_0
              (subf (broadcastInDim S160000 ![] bcast_S_S160000 (constant (F := Ideal) S_ .f32 0x3F800000#32)) u))))
        (shapeCast S1433x16 (extractStridedSlice S1x1433x16 ![0, 0, 0] w slices_S2x1433x16_S1x1433x16_0_0_0)
          shapeCasts_S1x1433x16_S1433x16))
      (Host.dotGeneral dot_S160000x1433_S1433x16_S160000x16_1_0_0_1_n_n none
        (mulf (Host.gather gather_S10000x1433_S160000x1_S160000x1433_1_0_n_n_0_1_11433 x (gcolR src))
          (broadcastInDim S160000x1433 ![0, 1] bcast_S160000x1_S160000x1433_0_1
            (broadcastInDim S160000x1 ![0] bcast_S160000_S160000x1_0 u)))
        (shapeCast S1433x16 (extractStridedSlice S1x1433x16 ![1, 0, 0] w slices_S2x1433x16_S1x1433x16_1_0_0)
          shapeCasts_S1x1433x16_S1433x16)) (ix2 e c)
    = (∑ k : Fin 1433, (x (ix2 (sR src e) k) * (one - u (ix1 e))) * w (ix3 (0 : Fin 2) k c))
      + (∑ k : Fin 1433, (x (ix2 (sR src e) k) * u (ix1 e)) * w (ix3 (1 : Fin 2) k c)) := by
  rw [addf_apply]
  refine congrArg₂ (· + ·) ?_ ?_
  · refine (Cert.LibPlainDot.dotGeneral_plain 160000 1433 16 none _ _ (ix2 e c)).trans (Finset.sum_congr rfl fun k _ => ?_)
    rw [mulf_apply]
    refine congrArg₂ (· * ·) (congrArg₂ (· * ·) ?_ ?_) ?_
    · exact gath1 x src e k
    · refine (Cert.LibHostBroadcast.vec_along_rows _ bcast_S160000_S160000x1_0 bcast_S160000x1_S160000x1433_0_1 e k).trans ?_
      rw [subf_apply]
      exact congrArg (· - u (ix1 e)) (Cert.LibHostBroadcast.scalar_to_any _ bcast_S_S160000 (ix1 e))
    · exact wsl1_0 w k c
  · refine (Cert.LibPlainDot.dotGeneral_plain 160000 1433 16 none _ _ (ix2 e c)).trans (Finset.sum_congr rfl fun k _ => ?_)
    rw [mulf_apply]
    refine congrArg₂ (· * ·) (congrArg₂ (· * ·) ?_ ?_) ?_
    · exact gath1 x src e k
    · exact Cert.LibHostBroadcast.vec_along_rows _ bcast_S160000_S160000x1_0 bcast_S160000x1_S160000x1433_0_1 e k
    · exact wsl1_1 w k c

/-- The layer at node n, channel c, is the gather-first formula. -/
theorem layer1R_apply (x : FVec Ideal S10000x1433 .f32) (src dst : IVec S160000 32) (u : FVec Ideal S160000 .f32)
    (w : FVec Ideal S2x1433x16 .f32) (wr : FVec Ideal S1433x16 .f32) (b : FVec Ideal S16 .f32) (n : Fin 10000) (c : Fin 16) :
    layer1R x src dst u w wr b (ix2 n c)
      = layerG (fun n k => x (ix2 n k)) (fun k c => w (ix3 (0 : Fin 2) k c)) (fun k c => w (ix3 (1 : Fin 2) k c))
          (fun k c => wr (ix2 k c)) (fun c => b (ix1 c)) (fun e => u (ix1 e)) one zero (sR src) (intoR dst)
          (degOf one zero (intoR dst)) n c := by
  unfold layer1R layerG
  rw [addf_apply, addf_apply, hdivf_apply]
  refine congrArg₂ (· + ·) (congrArg₂ (· + ·) (congrArg₂ Ideal.div ?_ ?_) ?_) ?_
  · refine (Cert.LibScatterRows.scatterRows_apply 10000 160000 16 _ _ (dcolR dst) _ n c).trans ?_
    refine congrArg₂ (· + ·) (Cert.LibHostBroadcast.scalar_to_any _ bcast_S_S10000x16 _) ?_
    exact Finset.sum_congr rfl fun e _ => msg1 x src u w e c
  · exact (Cert.LibHostBroadcast.vec_along_rows _ bcast_S10000_S10000x1_0 bcast_S10000x1_S10000x16_0_1 n c).trans (degR_apply dst n)
  · exact Cert.LibPlainDot.dotGeneral_plain 10000 1433 16 none x wr (ix2 n c)
  · exact Cert.LibHostBroadcast.vec_along_cols b bcast_S16_S1x16_1 bcast_S1x16_S10000x16_0_1 n c

/-! ## Layer 2: 16 input channels, 7 output channels -/

/-- The gathered source row of an edge. -/
theorem gath2 (x : FVec Ideal S10000x16 .f32) (src : IVec S160000 32) (e : Fin 160000) (k : Fin 16) :
    Host.gather gather_S10000x16_S160000x1_S160000x16_1_0_n_n_0_1_116 x (gcolR src) (ix2 e k) = x (ix2 (sR src e) k) := by
  have hrow : Cert.LibGatherRows.rowIdx (ix2 e k : (⟨2, ![160000, 16]⟩ : Shape).Idx) = ix2 e (0 : Fin 1) :=
    funext fun a => by match a with | ⟨0, _⟩ => rfl | ⟨1, _⟩ => rfl
  refine (Cert.LibGatherRows.gather_rows_apply (N := 10000) (D := 16) (R := 160000) (by omega) _ x (gcolR src) (ix2 e k)).trans ?_
  refine congrArg x (congrArg₂ ix2 (Fin.ext ?_) (Fin.ext rfl))
  show min ((gcolR src) (Cert.LibGatherRows.rowIdx (ix2 e k))).toInt.toNat (10000 - 1) = min ((gcolR src) (ix2 e (0 : Fin 1))).toInt.toNat (10000 - 1)
  rw [hrow]

/-- Basis matrix b of the stacked spline weights. -/
theorem wsl2_0 (w : FVec Ideal S2x16x7 .f32) (k : Fin 16) (c : Fin 7) :
    shapeCast S16x7 (extractStridedSlice S1x16x7 ![0, 0, 0] w slices_S2x16x7_S1x16x7_0_0_0) shapeCasts_S1x16x7_S16x7 (ix2 k c)
      = w (ix3 (0 : Fin 2) k c) :=
  (shapeCast_1ab_ab_apply _ shapeCasts_S1x16x7_S16x7 k c).trans
    (extractStridedSlice_apply _ w slices_S2x16x7_S1x16x7_0_0_0 (ix3 (0 : Fin 1) k c) (ix3 (0 : Fin 2) k c) fun a => by
      match a with
      | ⟨0, _⟩ => rfl
      | ⟨1, _⟩ => exact (Nat.zero_add _).symm
      | ⟨2, _⟩ => exact (Nat.zero_add _).symm)
theorem wsl2_1 (w : FVec Ideal S2x16x7 .f32) (k : Fin 16) (c : Fin 7) :
    shapeCast S16x7 (extractStridedSlice S1x16x7 ![1, 0, 0] w slices_S2x16x7_S1x16x7_1_0_0) shapeCasts_S1x16x7_S16x7 (ix2 k c)
      = w (ix3 (1 : Fin 2) k c) :=
  (shapeCast_1ab_ab_apply _ shapeCasts_S1x16x7_S16x7 k c).trans
    (extractStridedSlice_apply _ w slices_S2x16x7_S1x16x7_1_0_0 (ix3 (0 : Fin 1) k c) (ix3 (1 : Fin 2) k c) fun a => by
      match a with
      | ⟨0, _⟩ => rfl
      | ⟨1, _⟩ => exact (Nat.zero_add _).symm
      | ⟨2, _⟩ => exact (Nat.zero_add _).symm)

/-- One edge's message, gather first. -/
theorem msg2 (x : FVec Ideal S10000x16 .f32) (src : IVec S160000 32) (u : FVec Ideal S160000 .f32)
    (w : FVec Ideal S2x16x7 .f32) (e : Fin 160000) (c : Fin 7) :
    addf
      (Host.dotGeneral dot_S160000x16_S16x7_S160000x7_1_0_0_1_n_n none
        (mulf (Host.gather gather_S10000x16_S160000x1_S160000x16_1_0_n_n_0_1_116 x (gcolR src))
          (broadcastInDim S160000x16 ![0, 1] bcast_S160000x1_S160000x16_0_1
            (broadcastInDim S160000x1 ![0] bcast_S160000_S160000x1_0
              (subf (broadcastInDim S160000 ![] bcast_S_S160000 (constant (F := Ideal) S_ .f32 0x3F800000#32)) u))))
        (shapeCast S16x7 (extractStridedSlice S1x16x7 ![0, 0, 0] w slices_S2x16x7_S1x16x7_0_0_0)
          shapeCasts_S1x16x7_S16x7))
      (Host.dotGeneral dot_S160000x16_S16x7_S160000x7_1_0_0_1_n_n none
        (mulf (Host.gather gather_S10000x16_S160000x1_S160000x16_1_0_n_n_0_1_116 x (gcolR src))
          (broadcastInDim S160000x16 ![0, 1] bcast_S160000x1_S160000x16_0_1
            (broadcastInDim S160000x1 ![0] bcast_S160000_S160000x1_0 u)))
        (shapeCast S16x7 (extractStridedSlice S1x16x7 ![1, 0, 0] w slices_S2x16x7_S1x16x7_1_0_0)
          shapeCasts_S1x16x7_S16x7)) (ix2 e c)
    = (∑ k : Fin 16, (x (ix2 (sR src e) k) * (one - u (ix1 e))) * w (ix3 (0 : Fin 2) k c))
      + (∑ k : Fin 16, (x (ix2 (sR src e) k) * u (ix1 e)) * w (ix3 (1 : Fin 2) k c)) := by
  rw [addf_apply]
  refine congrArg₂ (· + ·) ?_ ?_
  · refine (Cert.LibPlainDot.dotGeneral_plain 160000 16 7 none _ _ (ix2 e c)).trans (Finset.sum_congr rfl fun k _ => ?_)
    rw [mulf_apply]
    refine congrArg₂ (· * ·) (congrArg₂ (· * ·) ?_ ?_) ?_
    · exact gath2 x src e k
    · refine (Cert.LibHostBroadcast.vec_along_rows _ bcast_S160000_S160000x1_0 bcast_S160000x1_S160000x16_0_1 e k).trans ?_
      rw [subf_apply]
      exact congrArg (· - u (ix1 e)) (Cert.LibHostBroadcast.scalar_to_any _ bcast_S_S160000 (ix1 e))
    · exact wsl2_0 w k c
  · refine (Cert.LibPlainDot.dotGeneral_plain 160000 16 7 none _ _ (ix2 e c)).trans (Finset.sum_congr rfl fun k _ => ?_)
    rw [mulf_apply]
    refine congrArg₂ (· * ·) (congrArg₂ (· * ·) ?_ ?_) ?_
    · exact gath2 x src e k
    · exact Cert.LibHostBroadcast.vec_along_rows _ bcast_S160000_S160000x1_0 bcast_S160000x1_S160000x16_0_1 e k
    · exact wsl2_1 w k c

/-- The layer at node n, channel c, is the gather-first formula. -/
theorem layer2R_apply (x : FVec Ideal S10000x16 .f32) (src dst : IVec S160000 32) (u : FVec Ideal S160000 .f32)
    (w : FVec Ideal S2x16x7 .f32) (wr : FVec Ideal S16x7 .f32) (b : FVec Ideal S7 .f32) (n : Fin 10000) (c : Fin 7) :
    layer2R x src dst u w wr b (ix2 n c)
      = layerG (fun n k => x (ix2 n k)) (fun k c => w (ix3 (0 : Fin 2) k c)) (fun k c => w (ix3 (1 : Fin 2) k c))
          (fun k c => wr (ix2 k c)) (fun c => b (ix1 c)) (fun e => u (ix1 e)) one zero (sR src) (intoR dst)
          (degOf one zero (intoR dst)) n c := by
  unfold layer2R layerG
  rw [addf_apply, addf_apply, hdivf_apply]
  refine congrArg₂ (· + ·) (congrArg₂ (· + ·) (congrArg₂ Ideal.div ?_ ?_) ?_) ?_
  · refine (Cert.LibScatterRows.scatterRows_apply 10000 160000 7 _ _ (dcolR dst) _ n c).trans ?_
    refine congrArg₂ (· + ·) (Cert.LibHostBroadcast.scalar_to_any _ bcast_S_S10000x7 _) ?_
    exact Finset.sum_congr rfl fun e _ => msg2 x src u w e c
  · exact (Cert.LibHostBroadcast.vec_along_rows _ bcast_S10000_S10000x1_0 bcast_S10000x1_S10000x7_0_1 n c).trans (degR_apply dst n)
  · exact Cert.LibPlainDot.dotGeneral_plain 10000 16 7 none x wr (ix2 n c)
  · exact Cert.LibHostBroadcast.vec_along_cols b bcast_S7_S1x7_1 bcast_S1x7_S10000x7_0_1 n c

/-- The spline coordinate of an edge, read off the column the programs are given. -/
theorem uR_apply (a2 : FVec Ideal S160000x1 .f32) (e : Fin 160000) : uR a2 (ix1 e) = a2 (ix2 e (0 : Fin 1)) :=
  Cert.LibColumnBack.shapeCast_a1_a_apply a2 shapeCasts_S160000x1_S160000 e

end Cert.ReferenceIdeal.RRead

end
-- ==== Proof.RSpec.lean ====
/-
  The reference's two layers on real data: each is the projection-first formula of the layer (a real factor moved
  across the channel sums), and its entries are real numbers again.
-/
import proofs.«125320_j11141145166043_2_alg».proof.Proof.RRead
import proofs.«125320_j11141145166043_2_alg».proof.Proof.EluReal

noncomputable section

namespace Cert.ReferenceIdeal.RRead

open Cert.ReferenceIdeal Cert.ReferenceIdeal.RVal Idealize.ShloMosaic Idealize.ShloMosaic.ValueIdx Cert.Spline

variable [Facts₀]
open Facts₀

/-- Layer 1 of the reference on real data is the projection-first formula. -/
theorem layer1R_spec (x : FVec Ideal S10000x1433 .f32) (src dst : IVec S160000 32) (a2 : FVec Ideal S160000x1 .f32)
    (w : FVec Ideal S2x1433x16 .f32) (wr : FVec Ideal S1433x16 .f32) (b : FVec Ideal S16 .f32)
    (hx : ∀ i, IsR (x i)) (hw : ∀ i, IsR (w i)) (hu : ∀ i, IsR (a2 i)) (n : Fin 10000) (c : Fin 16) :
    layer1R x src dst (uR a2) w wr b (ix2 n c)
      = layerP (fun n k => x (ix2 n k)) (fun k c => w (ix3 (0 : Fin 2) k c)) (fun k c => w (ix3 (1 : Fin 2) k c))
          (fun k c => wr (ix2 k c)) (fun c => b (ix1 c)) (fun e => a2 (ix2 e (0 : Fin 1))) one zero (sR src) (intoR dst)
          (degOf one zero (intoR dst)) n c := by
  rw [layer1R_apply]
  simp only [uR_apply]
  exact layerG_eq_layerP _ _ _ _ _ _ _ _ _ _ _ (fun n k => hx _) (fun k c => hw _) (fun k c => hw _) (fun e => hu _)
    ⟨1, Cert.EluReal.one_eq⟩ n c

/-- Layer 1 of the reference on real data has real entries. -/
theorem layer1R_real (x : FVec Ideal S10000x1433 .f32) (src dst : IVec S160000 32) (a2 : FVec Ideal S160000x1 .f32)
    (w : FVec Ideal S2x1433x16 .f32) (wr : FVec Ideal S1433x16 .f32) (b : FVec Ideal S16 .f32)
    (hx : ∀ i, IsR (x i)) (hw : ∀ i, IsR (w i)) (hwr : ∀ i, IsR (wr i)) (hb : ∀ i, IsR (b i)) (hu : ∀ i, IsR (a2 i))
    (i : S10000x16.Idx) : IsR (layer1R x src dst (uR a2) w wr b i) := by
  obtain ⟨n, c, rfl⟩ : ∃ (n : Fin 10000) (c : Fin 16), i = ix2 n c := ⟨i 0, i 1, eq_ix2 i⟩
  rw [layer1R_spec x src dst a2 w wr b hx hw hu]
  rw [show (one : EReal) = 1 from Cert.EluReal.one_eq, show (zero : EReal) = 0 from Cert.EluReal.zero_eq]
  exact layerP_real _ _ _ _ _ _ _ _ (fun n k => hx _) (fun k c => hw _) (fun k c => hw _) (fun k c => hwr _) (fun c => hb _)
    (fun e => hu _) _ _

/-- Layer 2 of the reference on real data is the projection-first formula. -/
theorem layer2R_spec (x : FVec Ideal S10000x16 .f32) (src dst : IVec S160000 32) (a2 : FVec Ideal S160000x1 .f32)
    (w : FVec Ideal S2x16x7 .f32) (wr : FVec Ideal S16x7 .f32) (b : FVec Ideal S7 .f32)
    (hx : ∀ i, IsR (x i)) (hw : ∀ i, IsR (w i)) (hu : ∀ i, IsR (a2 i)) (n : Fin 10000) (c : Fin 7) :
    layer2R x src dst (uR a2) w wr b (ix2 n c)
      = layerP (fun n k => x (ix2 n k)) (fun k c => w (ix3 (0 : Fin 2) k c)) (fun k c => w (ix3 (1 : Fin 2) k c))
          (fun k c => wr (ix2 k c)) (fun c => b (ix1 c)) (fun e => a2 (ix2 e (0 : Fin 1))) one zero (sR src) (intoR dst)
          (degOf one zero (intoR dst)) n c := by
  rw [layer2R_apply]
  simp only [uR_apply]
  exact layerG_eq_layerP _ _ _ _ _ _ _ _ _ _ _ (fun n k => hx _) (fun k c => hw _) (fun k c => hw _) (fun e => hu _)
    ⟨1, Cert.EluReal.one_eq⟩ n c

/-- Layer 2 of the reference on real data has real entries. -/
theorem layer2R_real (x : FVec Ideal S10000x16 .f32) (src dst : IVec S160000 32) (a2 : FVec Ideal S160000x1 .f32)
    (w : FVec Ideal S2x16x7 .f32) (wr : FVec Ideal S16x7 .f32) (b : FVec Ideal S7 .f32)
    (hx : ∀ i, IsR (x i)) (hw : ∀ i, IsR (w i)) (hwr : ∀ i, IsR (wr i)) (hb : ∀ i, IsR (b i)) (hu : ∀ i, IsR (a2 i))
    (i : S10000x7.Idx) : IsR (layer2R x src dst (uR a2) w wr b i) := by
  obtain ⟨n, c, rfl⟩ : ∃ (n : Fin 10000) (c : Fin 7), i = ix2 n c := ⟨i 0, i 1, eq_ix2 i⟩
  rw [layer2R_spec x src dst a2 w wr b hx hw hu]
  rw [show (one : EReal) = 1 from Cert.EluReal.one_eq, show (zero : EReal) = 0 from Cert.EluReal.zero_eq]
  exact layerP_real _ _ _ _ _ _ _ _ (fun n k => hx _) (fun k c => hw _) (fun k c => hw _) (fun k c => hwr _) (fun c => hb _)
    (fun e => hu _) _ _

end Cert.ReferenceIdeal.RRead

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.PreReal.lean ====
/-
  The test "every entry of every floating-point input is finite", read back at the extended reals: when the
  printed conjunction of the eight  all(|a| < +∞)  bits is 1, every entry of each of the eight arrays is a real number.

    * `all_real`: one array — an and-reduction over all axes of the bits  max (a i) (-(a i)) < (the word of +∞)  that
      came out 1 had every bit 1, and such an entry is a real.
    * `real_inputs`: the eight arrays of the printed predicate.
-/
import proofs.«125320_j11141145166043_2_alg».proof.Pre_finite_inputs
import proofs.«125320_j11141145166043_2_alg».proof.Proof.Spec
import proofs.«125320_j11141145166043_2_alg».proof.Proof.LibRealEntries
import Idealize.ShloMosaic.Lib.ReduceAll
import Idealize.ShloMosaic.Lib.ValueIdx

noncomputable section

namespace Cert.PreReal

open Idealize.ShloMosaic Cert.Pre_finite_inputs

/-- The shape with no axes has one index. -/
instance : Subsingleton S_.Idx := ⟨fun a b => funext fun d => d.elim0⟩

/-- One array: if the and-reduction over all axes of the bits |a i| < +∞ is 1, every entry is a real. -/
theorem all_real {s : Shape} (a : FVec Ideal s .f32) (hb : S_.BroadcastsInDim s (![] : Fin 0 → Fin s.rank))
    {axes : List (Fin s.rank)} (hr : s.ReducesTo axes S_) (hS : 0 < S_.numel) (j : S_.Idx)
    (h : Host.reduce IntOp.andi
        (cmpf .olt (Host.absf a) (broadcastInDim s ![] hb (constant (F := Ideal) S_ .f32 0x7F800000#32)))
        (constantI S_ 1 1#1) hr hS j = 1#1) (i : s.Idx) : Cert.Spline.IsR (a i) :=
  Cert.LibRealEntries.real_of_cmp (a i) (Host.reduce_andi_all _ _ hr hS j h i)

variable [Cert.Pre_finite_inputs.Facts]

/-- The printed predicate: when it is 1, every entry of each of its eight floating-point arrays is a real. -/
theorem real_inputs (a0 : FVec Ideal S10000x1433 .f32) (a1 : IVec S2x160000 32) (a2 : FVec Ideal S160000x1 .f32)
    (a3 : FVec Ideal S2x1433x16 .f32) (a4 : FVec Ideal S1433x16 .f32) (a5 : FVec Ideal S16 .f32)
    (a6 : FVec Ideal S2x16x7 .f32) (a7 : FVec Ideal S16x7 .f32) (a8 : FVec Ideal S7 .f32)
    (h : Cert.Pre_finite_inputs.fn (F := Ideal) a0 a1 a2 a3 a4 a5 a6 a7 a8 = fun _ => 1#1) :
    (∀ i, Cert.Spline.IsR (a0 i)) ∧ (∀ i, Cert.Spline.IsR (a2 i)) ∧ (∀ i, Cert.Spline.IsR (a3 i)) ∧
    (∀ i, Cert.Spline.IsR (a4 i)) ∧ (∀ i, Cert.Spline.IsR (a5 i)) ∧ (∀ i, Cert.Spline.IsR (a6 i)) ∧
    (∀ i, Cert.Spline.IsR (a7 i)) ∧ (∀ i, Cert.Spline.IsR (a8 i)) := by
  have h0 := congrFun h ValueIdx.ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7, all_real a8 _ _ _ _ e8⟩

end Cert.PreReal

end
-- ==== Proof.Bridge.lean ====
/-
  The two programs compute the same array. The kernel program projects the node features first (a matrix product per
  layer, computed by a region) and gathers the projected rows; the reference gathers the rows and projects each edge's
  row. On real data the two orders agree, layer by layer: each side's layer, read at a position, is the same
  projection-first formula over the same source map, the same sets of incoming edges and the same degrees. The unit
  between the layers and the logarithm of the softmax after them are the same terms on both sides.
-/
import proofs.«125320_j11141145166043_2_alg».proof.Defs
import proofs.«125320_j11141145166043_2_alg».proof.Proof.Gen.Pre_finite_inputs
import proofs.«125320_j11141145166043_2_alg».proof.Proof.KChain
import proofs.«125320_j11141145166043_2_alg».proof.Proof.KValue
import proofs.«125320_j11141145166043_2_alg».proof.Proof.KRead
import proofs.«125320_j11141145166043_2_alg».proof.Proof.Glue
import proofs.«125320_j11141145166043_2_alg».proof.Proof.RSpec
import proofs.«125320_j11141145166043_2_alg».proof.Proof.PreReal
import proofs.«125320_j11141145166043_2_alg».proof.Proof.EluReal

noncomputable section

namespace Cert.Bridge

open Idealize.ShloMosaic Idealize.ShloMosaic.TcCoe Idealize.ShloMosaic.ValueIdx Idealize.SL.Sem
open Cert.Spline (IsR)

section Steps

variable (m : (ℓ : Loc Cert.KernelIdeal.nD Cert.KernelIdeal.τ Cert.KernelIdeal.sig) → Buf (Elt Ideal) ℓ) (c : Dev Cert.KernelIdeal.nD)

/-- The kernel program's nine argument arrays at launch, at the reference program's shapes (the same shapes). -/
abbrev A0 : FVec Ideal Cert.ReferenceIdeal.S10000x1433 .f32 := (m ((c.tc : Thread Cert.KernelIdeal.nD Cert.KernelIdeal.τ).loc Cert.KernelIdeal.main_arg0))
@[inherit_doc A0] abbrev A1 : IVec Cert.ReferenceIdeal.S2x160000 32 := (m ((c.tc : Thread Cert.KernelIdeal.nD Cert.KernelIdeal.τ).loc Cert.KernelIdeal.main_arg1))
@[inherit_doc A0] abbrev A2 : FVec Ideal Cert.ReferenceIdeal.S160000x1 .f32 := (m ((c.tc : Thread Cert.KernelIdeal.nD Cert.KernelIdeal.τ).loc Cert.KernelIdeal.main_arg2))
@[inherit_doc A0] abbrev A3 : FVec Ideal Cert.ReferenceIdeal.S2x1433x16 .f32 := (m ((c.tc : Thread Cert.KernelIdeal.nD Cert.KernelIdeal.τ).loc Cert.KernelIdeal.main_arg3))
@[inherit_doc A0] abbrev A4 : FVec Ideal Cert.ReferenceIdeal.S1433x16 .f32 := (m ((c.tc : Thread Cert.KernelIdeal.nD Cert.KernelIdeal.τ).loc Cert.KernelIdeal.main_arg4))
@[inherit_doc A0] abbrev A5 : FVec Ideal Cert.ReferenceIdeal.S16 .f32 := (m ((c.tc : Thread Cert.KernelIdeal.nD Cert.KernelIdeal.τ).loc Cert.KernelIdeal.main_arg5))
@[inherit_doc A0] abbrev A6 : FVec Ideal Cert.ReferenceIdeal.S2x16x7 .f32 := (m ((c.tc : Thread Cert.KernelIdeal.nD Cert.KernelIdeal.τ).loc Cert.KernelIdeal.main_arg6))
@[inherit_doc A0] abbrev A7 : FVec Ideal Cert.ReferenceIdeal.S16x7 .f32 := (m ((c.tc : Thread Cert.KernelIdeal.nD Cert.KernelIdeal.τ).loc Cert.KernelIdeal.main_arg7))
@[inherit_doc A0] abbrev A8 : FVec Ideal Cert.ReferenceIdeal.S7 .f32 := (m ((c.tc : Thread Cert.KernelIdeal.nD Cert.KernelIdeal.τ).loc Cert.KernelIdeal.main_arg8))

/-- The source map and the sets of incoming edges are the same on both sides. -/
theorem s_eq (a1 : IVec Cert.ReferenceIdeal.S2x160000 32) :
    Cert.KernelIdeal.KVal.sK (Cert.KernelIdeal.KVal.srcK a1) = Cert.ReferenceIdeal.RRead.sR (Cert.ReferenceIdeal.RVal.srcR a1) := rfl
@[inherit_doc s_eq]
theorem into_eq (a1 : IVec Cert.ReferenceIdeal.S2x160000 32) :
    Cert.KernelIdeal.KVal.intoK (Cert.KernelIdeal.KVal.dstK a1) = Cert.ReferenceIdeal.RRead.intoR (Cert.ReferenceIdeal.RVal.dstR a1) := rfl

/-- The inputs are arrays of reals. -/
theorem inputs_real (hpre : Cert.Pre_KernelIdeal m) :
    (∀ i, IsR ((A0 m c) i)) ∧ (∀ i, IsR ((A2 m c) i)) ∧ (∀ i, IsR ((A3 m c) i)) ∧ (∀ i, IsR ((A4 m c) i)) ∧ (∀ i, IsR ((A5 m c) i)) ∧
    (∀ i, IsR ((A6 m c) i)) ∧ (∀ i, IsR ((A7 m c) i)) ∧ (∀ i, IsR ((A8 m c) i)) :=
  Cert.PreReal.real_inputs (A0 m c) (A1 m c) (A2 m c) (A3 m c) (A4 m c) (A5 m c) (A6 m c) (A7 m c) (A8 m c) (hpre c)

/-- The first layer: the kernel program's, over the first region's product, is the reference's. -/
theorem layer1_agree (hpre : Cert.Pre_KernelIdeal m) :
    Cert.KernelIdeal.KVal.layer1K (Cert.KernelIdeal.Hand.outs m 2 Cert.KernelIdeal.main_v16 c) (Cert.KernelIdeal.KVal.srcK (A1 m c)) (Cert.KernelIdeal.KVal.dstK (A1 m c)) (A2 m c)
        (Cert.KernelIdeal.KVal.degColK (Cert.KernelIdeal.KVal.dstK (A1 m c))) (A5 m c)
      = Cert.ReferenceIdeal.RVal.layer1R (A0 m c) (Cert.ReferenceIdeal.RVal.srcR (A1 m c)) (Cert.ReferenceIdeal.RVal.dstR (A1 m c)) (Cert.ReferenceIdeal.RVal.uR (A2 m c)) (A3 m c) (A4 m c) (A5 m c) := by
  obtain ⟨h0, h2, h3, _, _, _, _, _⟩ := inputs_real m c hpre
  funext i
  rw [eq_ix2 i]
  exact (Cert.KernelIdeal.KVal.layer1_spec (A0 m c) (A3 m c) (A4 m c) (Cert.KernelIdeal.Hand.outs m 2 Cert.KernelIdeal.main_v16 c) (Cert.KernelIdeal.KVal.srcK (A1 m c)) (Cert.KernelIdeal.KVal.dstK (A1 m c))
      (A2 m c) (A5 m c)
      (fun a j => Cert.KernelIdeal.Hand.outs2_apply_of m c (A0 m c) (Cert.KernelIdeal.KVal.wcat1 (A3 m c) (A4 m c)) (Cert.KernelIdeal.KVal.v_arg0 m c).symm
        (Cert.KernelIdeal.KVal.v15_eq m c).symm a j) (i 0) (i 1)).trans
    (Cert.ReferenceIdeal.RRead.layer1R_spec (A0 m c) (Cert.ReferenceIdeal.RVal.srcR (A1 m c)) (Cert.ReferenceIdeal.RVal.dstR (A1 m c)) (A2 m c) (A3 m c) (A4 m c) (A5 m c) h0 h3 h2 (i 0) (i 1)).symm

/-- The hidden features: the unit of the first layer, on both sides. -/
abbrev HR : FVec Ideal Cert.ReferenceIdeal.S10000x16 .f32 :=
  Cert.ReferenceIdeal.Hand.ELU (Cert.ReferenceIdeal.RVal.layer1R (A0 m c) (Cert.ReferenceIdeal.RVal.srcR (A1 m c)) (Cert.ReferenceIdeal.RVal.dstR (A1 m c)) (Cert.ReferenceIdeal.RVal.uR (A2 m c)) (A3 m c) (A4 m c) (A5 m c))

theorem hidden_agree (hpre : Cert.Pre_KernelIdeal m) :
    Cert.KernelIdeal.Gen.V5 m (Cert.KernelIdeal.Hand.outs m) c Cert.KernelIdeal.main_v50 = HR m c := by
  refine (Cert.KernelIdeal.KVal.v50_eq m (Cert.KernelIdeal.Hand.outs m) c).trans ?_
  refine (Cert.Glue.elu_eq _).trans ?_
  exact congrArg Cert.ReferenceIdeal.Hand.ELU (layer1_agree m c hpre)

theorem hidden_real (hpre : Cert.Pre_KernelIdeal m) (i : Cert.ReferenceIdeal.S10000x16.Idx) : IsR (HR m c i) := by
  obtain ⟨h0, h2, h3, h4, h5, _, _, _⟩ := inputs_real m c hpre
  exact Cert.EluReal.eluTerm_real _
    (fun j => Cert.ReferenceIdeal.RRead.layer1R_real (A0 m c) (Cert.ReferenceIdeal.RVal.srcR (A1 m c)) (Cert.ReferenceIdeal.RVal.dstR (A1 m c)) (A2 m c) (A3 m c) (A4 m c) (A5 m c) h0 h3 h4 h5 h2 j) i

/-- The second layer: the kernel program's, over the second region's product, is the reference's at the hidden features. -/
theorem layer2_agree (hpre : Cert.Pre_KernelIdeal m) :
    Cert.KernelIdeal.KVal.layer2K (Cert.KernelIdeal.Hand.outs m 6 Cert.KernelIdeal.main_v56 c) (Cert.KernelIdeal.KVal.srcK (A1 m c)) (Cert.KernelIdeal.KVal.dstK (A1 m c)) (A2 m c)
        (Cert.KernelIdeal.KVal.degColK (Cert.KernelIdeal.KVal.dstK (A1 m c))) (A8 m c)
      = Cert.ReferenceIdeal.RVal.layer2R (HR m c) (Cert.ReferenceIdeal.RVal.srcR (A1 m c)) (Cert.ReferenceIdeal.RVal.dstR (A1 m c)) (Cert.ReferenceIdeal.RVal.uR (A2 m c)) (A6 m c) (A7 m c) (A8 m c) := by
  obtain ⟨_, h2, _, _, _, h6, _, _⟩ := inputs_real m c hpre
  funext i
  rw [eq_ix2 i]
  exact (Cert.KernelIdeal.KVal.layer2_spec (HR m c) (A6 m c) (A7 m c) (Cert.KernelIdeal.Hand.outs m 6 Cert.KernelIdeal.main_v56 c) (Cert.KernelIdeal.KVal.srcK (A1 m c)) (Cert.KernelIdeal.KVal.dstK (A1 m c))
      (A2 m c) (A8 m c)
      (fun a j => Cert.KernelIdeal.Hand.outs6_apply_of m c (HR m c) (Cert.KernelIdeal.KVal.wcat2 (A6 m c) (A7 m c)) (hidden_agree m c hpre).symm
        (Cert.KernelIdeal.KVal.v55_eq m (Cert.KernelIdeal.Hand.outs m) c).symm a j) (i 0) (i 1)).trans
    (Cert.ReferenceIdeal.RRead.layer2R_spec (HR m c) (Cert.ReferenceIdeal.RVal.srcR (A1 m c)) (Cert.ReferenceIdeal.RVal.dstR (A1 m c)) (A2 m c) (A6 m c) (A7 m c) (A8 m c)
      (hidden_real m c hpre) h6 h2 (i 0) (i 1)).symm

end Steps

/-- The kernel program's result buffer holds the reference's composed term of the kernel program's own arguments. -/
theorem values_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Gen.V8 m (Cert.KernelIdeal.Hand.outs m) c Cert.KernelIdeal.main_v90
      = Cert.ReferenceIdeal.Hand.LSM (Cert.ReferenceIdeal.RVal.layer2R
          (Cert.ReferenceIdeal.Hand.ELU (Cert.ReferenceIdeal.RVal.layer1R (m ((c.tc : Thread Cert.KernelIdeal.nD Cert.KernelIdeal.τ).loc Cert.KernelIdeal.main_arg0)) (Cert.ReferenceIdeal.RVal.srcR (m ((c.tc : Thread Cert.KernelIdeal.nD Cert.KernelIdeal.τ).loc Cert.KernelIdeal.main_arg1))) (Cert.ReferenceIdeal.RVal.dstR (m ((c.tc : Thread Cert.KernelIdeal.nD Cert.KernelIdeal.τ).loc Cert.KernelIdeal.main_arg1)))
            (Cert.ReferenceIdeal.RVal.uR (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
          (Cert.ReferenceIdeal.RVal.srcR (m ((c.tc : Thread Cert.KernelIdeal.nD Cert.KernelIdeal.τ).loc Cert.KernelIdeal.main_arg1))) (Cert.ReferenceIdeal.RVal.dstR (m ((c.tc : Thread Cert.KernelIdeal.nD Cert.KernelIdeal.τ).loc Cert.KernelIdeal.main_arg1))) (Cert.ReferenceIdeal.RVal.uR (m ((c.tc : Thread Cert.KernelIdeal.nD Cert.KernelIdeal.τ).loc Cert.KernelIdeal.main_arg2)))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) := by
  refine (Cert.KernelIdeal.KVal.v90_eq m (Cert.KernelIdeal.Hand.outs m) c).trans ?_
  refine (Cert.Glue.lsm_eq _).trans ?_
  exact congrArg Cert.ReferenceIdeal.Hand.LSM (layer2_agree m c hpre)

end Cert.Bridge

end
-- ==== Proof.lean ====
/-
  Two spline-convolution layers on a graph, kernel against reference, on the extended reals.

  Both programs compute  log_softmax( layer2( elu( layer1(x) ) ) )  where one layer sends node features feat to
      ( 0 + sum over the edges e into node n of  (1 - u e) (feat W0)(src e) + u e (feat W1)(src e) ) / deg n
        + (feat Wroot)(n) + bias,     deg n = max(number of edges into n, 1).
  The kernel projects first: one matrix product feat [W0 | W1 | Wroot] per layer (its two regions), then gathers
  the projected rows per edge. The reference gathers the source rows first, scales each by 1 - u and by u, and
  projects afterwards. The two arrangements agree entry by entry because a real factor moves across a finite sum of
  real products; on the extended reals that step needs every entry real, which the precondition gives for the
  inputs and which a layer and the exponential linear unit preserve. The degree, the index arithmetic of the
  gathers and scatters, the exponential linear unit and the log-softmax are the same operations in both programs.

  The frames: the kernel's two regions are run from and to the buffer contents computed by the host operations
  around them (at both instances); the reference is a sequence of array operations.
-/
import proofs.«125320_j11141145166043_2_alg».proof.Defs
import proofs.«125320_j11141145166043_2_alg».proof.Proof.Gen.Kernel
import proofs.«125320_j11141145166043_2_alg».proof.Proof.Gen.KernelIdeal
import proofs.«125320_j11141145166043_2_alg».proof.Proof.Gen.ReferenceIdeal
import proofs.«125320_j11141145166043_2_alg».proof.Proof.Gen.Pre_finite_inputs
import proofs.«125320_j11141145166043_2_alg».proof.Proof.KRun
import proofs.«125320_j11141145166043_2_alg».proof.Proof.KRunBits
import proofs.«125320_j11141145166043_2_alg».proof.Proof.RefResult
import proofs.«125320_j11141145166043_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and keeps its arguments: its two matrix-product regions, each entered
    and left at the buffer contents the host operations around them compute. -/
theorem frame_kernel : Cert.frame_Kernel := fun m ρ _ => Cert.Kernel.Hand.frame m ρ

/-- The same for the kernel read on the extended reals. -/
theorem frame_kernelIdeal : Cert.frame_KernelIdeal := fun m ρ _ => Cert.KernelIdeal.Hand.frame m ρ

/-- The reference is a sequence of array operations: it runs to the end and writes no argument. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- On finite inputs both programs end with the same array: log-softmax of the second spline layer of the
    exponential linear unit of the first spline layer, the kernel projecting before it gathers and the reference
    gathering before it projects. -/
theorem algebraic : Cert.algebraic_KernelIdeal_ReferenceIdeal := by
  intro m ρ m' ρ' hpre hagree
  refine ⟨fun c => Cert.KernelIdeal.Gen.V8 m (Cert.KernelIdeal.Hand.outs m) c Cert.KernelIdeal.main_v90,
    Cert.KernelIdeal.Hand.run m ρ, ?_⟩
  refine (θ_run Cert.ReferenceIdeal.defs _ _).mono (fun _ h c => ⟨(h c).1.trans ?_, (h c).2⟩)
    (Cert.ReferenceIdeal.Hand.run_result m' ρ')
  obtain ⟨h0, h1, h2, h3, h4, h5, h6, h7, h8⟩ := hagree c
  rw [h0, h1, h2, h3, h4, h5, h6, h7, h8]
  exact (Cert.Bridge.values_agree m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
